-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S64x2 .f32) (main_arg11 : FVec F S2 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S64 .f32) (main_arg9 : FVec F S64 .f32) (main_arg10 : FVec F S64x2 .f32) (main_arg11 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x64 .f32) (main_arg7 : FVec F S64 .f32) (main_arg8 : FVec F S64 .f32) (main_arg9 : FVec F S64 .f32) (main_arg10 : FVec F S64x2 .f32) (main_arg11 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S2000x128 : Shape := ⟨2, ![2000, 128]⟩
abbrev S1700000x128 : Shape := ⟨2, ![1700000, 128]⟩
abbrev S1x64 : Shape := ⟨2, ![1, 64]⟩
abbrev S100000x64 : Shape := ⟨2, ![100000, 64]⟩
abbrev S2000x64 : Shape := ⟨2, ![2000, 64]⟩
abbrev S1700000x64 : Shape := ⟨2, ![1700000, 64]⟩
abbrev S1x2 : Shape := ⟨2, ![1, 2]⟩
abbrev S100000x2 : Shape := ⟨2, ![100000, 2]⟩
abbrev S2000x2 : Shape := ⟨2, ![2000, 2]⟩

abbrev nBuf : Space → Nat
  | .hbm => 117
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S100000x128, .f32⟩
  | .hbm, ⟨80, _⟩ => ⟨S_, .f32⟩
  | .hbm, ⟨81, _⟩ => ⟨S64, .f32⟩
  | .hbm, ⟨82, _⟩ => ⟨S1x64, .f32⟩
  | .hbm, ⟨83, _⟩ => ⟨S100000x64, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x64, .f32⟩
  | .hbm, ⟨93, _⟩ => ⟨S1700000x1, .f32⟩
  | .hbm, ⟨94, _⟩ => ⟨S1700000x64, .f32⟩
  | .hbm, ⟨95, _⟩ => ⟨S1700000x64, .f32⟩
  | .hbm, ⟨96, _⟩ => ⟨S_, .f32⟩
  | .hbm, ⟨97, _⟩ => ⟨S100000x64, .f32⟩
  | .hbm, ⟨98, _⟩ => ⟨S1700000x1, .i32⟩
  | .hbm, ⟨99, _⟩ => ⟨S100000x64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S_, .f32⟩
  | .hbm, ⟨104, _⟩ => ⟨S1x64, .f32⟩
  | .hbm, ⟨105, _⟩ => ⟨S1x64, .f32⟩
  | .hbm, ⟨106, _⟩ => ⟨S_, .f32⟩
  | .hbm, ⟨107, _⟩ => ⟨S1x64, .f32⟩
  | .hbm, ⟨108, _⟩ => ⟨S1x64, .f32⟩
  | .hbm, ⟨109, _⟩ => ⟨S1x64, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S1x64, .f32⟩
  | .hbm, ⟨114, _⟩ => ⟨S100000x64, .f32⟩
  | .hbm, ⟨115, _⟩ => ⟨S1x2, .f32⟩
  | .hbm, ⟨116, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S2000x64, .f32⟩
  | .local _ .vmem, ⟨32, _⟩ => ⟨S2000x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S64x2, .f32⟩
  | .local _ .vmem, ⟨43, _⟩ => ⟨S1x2, .f32⟩
  | .local _ .vmem, ⟨44, _⟩ => ⟨S2000x2, .f32⟩
  | .local _ .vmem, ⟨45, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72_0 : Ref sig .tc := ⟨.hbm, 101, rfl⟩
abbrev main_v72_1 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg6_0 : Ref sig .tc := ⟨.vmem, 38, rfl⟩
abbrev cc5_stg6_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem6_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S128 : S_.BroadcastsInDim S128 (![] : Fin 0 → Fin S128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S2000x128_S2000x128 : S2000x128.ShapeCasts S2000x128
  reduces_S2000x128_S128 : S2000x128.Reduces [0] S128
  bcast_S_S1x128 : S_.BroadcastsInDim S1x128 (![] : Fin 0 → Fin S1x128.rank)
  bcast_S_S64 : S_.BroadcastsInDim S64 (![] : Fin 0 → Fin S64.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S2000x64_S2000x64 : S2000x64.ShapeCasts S2000x64
  reduces_S2000x64_S64 : S2000x64.Reduces [0] S64
  bcast_S_S1x64 : S_.BroadcastsInDim S1x64 (![] : Fin 0 → Fin S1x64.rank)
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S100000x64.size a
  hwx5_6 : ∀ i : grid5.Coords, EltTy.bits .f32 = 32 ∨ (Rect.block (s := S100000x64) S2000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x2.size a ≤ S64x2.size a
  hwx6_1 : ∀ i : grid6.Coords, EltTy.bits .f32 = 32 ∨ (Rect.block (s := S64x2) S64x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x2.size a ≤ S100000x2.size a
  hwx6_3 : ∀ i : grid6.Coords, EltTy.bits .f32 = 32 ∨ (Rect.block (s := S100000x2) S2000x2.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v70) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72_0) S1x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72_1) S1x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v70) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v82) S2000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v82) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v83) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S2000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x64, .f32⟩
  | 7 => ⟨S64, .f32⟩
  | 8 => ⟨S64, .f32⟩
  | 9 => ⟨S64, .f32⟩
  | 10 => ⟨S64x2, .f32⟩
  | 11 => ⟨S2, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S100000x128, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x128, .f32⟩
  | 55 => ⟨S1700000x1, .f32⟩
  | 56 => ⟨S1700000x128, .f32⟩
  | 57 => ⟨S1700000x128, .f32⟩
  | 58 => ⟨S_, .f32⟩
  | 59 => ⟨S100000x128, .f32⟩
  | 60 => ⟨S1700000x1, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S128, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x64, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x64, .f32⟩
  | 108 => ⟨S1700000x1, .f32⟩
  | 109 => ⟨S1700000x64, .f32⟩
  | 110 => ⟨S1700000x64, .f32⟩
  | 111 => ⟨S_, .f32⟩
  | 112 => ⟨S100000x64, .f32⟩
  | 113 => ⟨S1700000x1, .i32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S64, .f32⟩
  | 120 => ⟨S_, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S1x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S64, .f32⟩
  | 12 => ⟨S64, .f32⟩
  | 13 => ⟨S64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x2, .f32⟩
  | 24 => ⟨S1x2, .f32⟩
  | 25 => ⟨S100000x2, .f32⟩
  | 26 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call0_cst : Ref sig .tc := ⟨.hbm, 95, rfl⟩
abbrev main_call0_v0 : Ref sig .tc := ⟨.hbm, 96, rfl⟩
abbrev main_v69 : Ref sig .tc := ⟨.hbm, 97, rfl⟩
abbrev main_v70 : Ref sig .tc := ⟨.hbm, 98, rfl⟩
abbrev main_c_12 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_cst_16 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_17 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_19 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_call1_cst : Ref sig .tc := ⟨.hbm, 148, rfl⟩
abbrev main_call1_v0 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KRun.lean ====
/-
  The idealized kernel program's run with its result named.

  @main is seven pipelined regions among stretches of host operations.  Every weakly fair execution terminates, and
  in every final state the result array holds what the fold of the segments leaves in it (the last boundary's
  contents at the result's buffer), while the twelve argument arrays are as launched.
-/
import proofs.«166389_j81088982548949_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v84) = W14 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v84 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.RunValue

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«166389_j81088982548949_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.LibGatherScatterRows.lean ====
import Idealize.ShloMosaic.Lib.ValueIdx

/-!
# Gather and scatter of whole rows, and gather of flat entries

Three literal records of StableHLO gather / scatter dimension numbers over generic extents, with what the
operation reads or writes at an index: taking whole rows of a matrix, taking entries of a flat array, and
scattering whole rows into a matrix.
-/

noncomputable section

namespace Idealize.ShloMosaic.ValueIdx

open Idealize.ShloMosaic

/-! ## Scattering whole rows: operand `[N, C]`, scatter indices `[E, 1]`, updates `[E, C]` -/

section ScatterRows

/-- The dimension numbers for scattering rows: update window axis `1`, inserted window axis `0`, the single
    component of a scatter index names operand axis `0`, the index vector on axis `1`. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element `j` that lands on operand element `i` has its scatter index `idx[j₀, 0]`, read signed and
    not clamped, equal to the row `i₀`. -/
theorem scatter_rows_row {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowsScatterDims N E C wf).resultIdx? j idx = some i) :
    (idx (ix2 (j 0) ⟨0, Nat.one_pos⟩)).toInt = ((i 0).val : Int) := by
  unfold ScatterDims.resultIdx? at h
  split at h
  · rename_i hall
    have h0 : ((rowsScatterDims N E C wf).start j idx 0 + (rowsScatterDims N E C wf).window j 0).toNat = (i 0).val :=
      congrArg (fun f : (⟨2, ![N, C]⟩ : Shape).Idx => (f 0).val) (Option.some.inj h)
    have hw : (rowsScatterDims N E C wf).window j 0 = 0 := by
      unfold ScatterDims.window
      rw [dif_neg]
      simp [ScatterDims.sKept, Shape.kept, List.mem_filter]
    have hs : (rowsScatterDims N E C wf).start j idx 0 = (idx (ix2 (j 0) ⟨0, Nat.one_pos⟩)).toInt := by
      unfold ScatterDims.start
      rw [dif_pos (show (0 : Fin 2) ∈ (rowsScatterDims N E C wf).scatterDimsToOperandDims from
        List.mem_singleton.mpr rfl)]
      have hsi : (rowsScatterDims N E C wf).siIdx j
          ⟨List.idxOf (0 : Fin 2) (rowsScatterDims N E C wf).scatterDimsToOperandDims,
            List.idxOf_lt_length_iff.2 (List.mem_singleton.mpr rfl)⟩ = ix2 (j 0) ⟨0, Nat.one_pos⟩ := by
        funext b; refine Fin.ext ?_
        match b with
        | ⟨0, _⟩ => rfl
        | ⟨1, _⟩ => rfl
      rw [hsi]
      rfl
    have hnn := (hall 0).1
    rw [hs, hw] at hnn h0
    simp only [Nat.cast_zero, Int.add_zero] at hnn h0
    rw [← h0, Int.toNat_of_nonneg hnn]
  · exact absurd h (by simp)

end ScatterRows

/-! ## Taking whole rows: operand `[N, C]`, start indices `[E, 1]`, result `[E, C]` -/

section GatherRows
variable {α : Type}

/-- The dimension numbers for taking rows: offset axis `1`, collapsed operand axis `0`, the single component of a
    start index names operand axis `0`, the index vector on axis `1`, slices of one row by all `C` columns. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, c)` of the row gather is the operand at row `idx[e, 0]`, read signed and clamped into
    `[0, N − 1]`, and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGatherDims N E C wf) x idx (ix2 e c) =
      x (ix2 ⟨min (idx (ix2 e ⟨0, Nat.one_pos⟩)).toInt.toNat (N - 1), by omega⟩ c) := by
  have h0 : ((rowsGatherDims N E C wf).operandIdx (ix2 e c) idx (0 : Fin 2)).val =
      min (idx (ix2 e ⟨0, Nat.one_pos⟩)).toInt.toNat (N - 1) := by
    show (rowsGatherDims N E C wf).start (ix2 e c) idx 0 + (rowsGatherDims N E C wf).batchCoord (ix2 e c) 0
      + (rowsGatherDims N E C wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e c)
        ⟨List.idxOf (0 : Fin 2) (rowsGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : ((rowsGatherDims N E C wf).operandIdx (ix2 e c) idx (1 : Fin 2)).val = c.val := by
    show (rowsGatherDims N E C wf).start (ix2 e c) idx 1 + (rowsGatherDims N E C wf).batchCoord (ix2 e c) 1
      + (rowsGatherDims N E C wf).offCoord (ix2 e c) 1 = _
    have hst : (rowsGatherDims N E C wf).start (ix2 e c) idx (1 : Fin 2) = 0 := by
      unfold GatherDims.start
      rw [dif_neg (fun h => absurd (show (1 : Nat) = 0 from congrArg Fin.val (List.mem_singleton.mp h)) Nat.one_ne_zero)]
    have hk : (1 : Fin 2) ∈ (rowsGatherDims N E C wf).sKept :=
      (GatherDims.mem_sKept _ _).mpr ⟨(fun h => absurd (show (1 : Nat) = 0 from congrArg Fin.val (List.mem_singleton.mp h)) Nat.one_ne_zero), List.not_mem_nil⟩
    have hoff : (rowsGatherDims N E C wf).offCoord (ix2 e c) (1 : Fin 2) = c.val := by
      unfold GatherDims.offCoord
      rw [dif_pos hk]
      rfl
    rw [GatherDims.batchCoord_eq_zero _ _ _ List.not_mem_nil, hst, hoff, Nat.add_zero, Nat.zero_add]
  unfold Host.gather
  congr 1
  funext a
  refine Fin.ext ?_
  match a with
  | ⟨0, _⟩ => exact h0
  | ⟨1, _⟩ => exact h1

end GatherRows

/-! ## Taking entries of a flat array: operand `[N]`, start indices `[E, 1]`, result `[E]` -/

section GatherFlat
variable {α : Type}

/-- The dimension numbers for taking entries: no offset axis, collapsed operand axis `0`, the single component of
    a start index names operand axis `0`, the index vector on axis `1`, slices of one entry. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` of the flat gather is the operand at position `idx[e, 0]`, read signed and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e) =
      x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e)
      ⟨List.idxOf (0 : Fin 1) (flatGatherDims N E wf).startIndexMap,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end GatherFlat

end Idealize.ShloMosaic.ValueIdx

end
-- ==== Proof.LibBroadcastEntry.lean ====
/-
  Broadcasts of small shapes read at one entry, for the shapes a dense layer with a per-row factor and a per-column
  bias meets:

  * a column `[a, 1]` broadcast over the columns of `[a, b]` — by `vector.broadcast` and by the host's
    `broadcast_in_dim` along `[0, 1]` — reads, at `(p, c)`, the column's entry `(p, 0)`;
  * a row `[1, b]` broadcast over the rows of `[a, b]` by `broadcast_in_dim` along `[0, 1]` reads, at `(p, c)`, the
    row's entry `(0, c)`;
  * a vector `[b]` placed as the row of `[1, b]` by `broadcast_in_dim` along `[1]` reads, at `(u, c)`, the vector's
    entry `c`;
  * a scalar broadcast to any shape reads the scalar everywhere.
-/
import Idealize.ShloMosaic.Lib.ValueLayout
import Idealize.ShloMosaic.Lib.Pipeline.Value

namespace Idealize.ShloMosaic.ValueIdx

variable {α : Type}

/-- A `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along `[0, 1]` to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along `[0, 1]` to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's placing of a `[b]` vector as the row of `[1, b]` (along `[1]`) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's broadcast of a scalar to any shape reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Idealize.ShloMosaic.ValueIdx
-- ==== Proof.LibDenseRows.lean ====
/-
  Dense layers on extended-real matrices indexed by literal rank-2 shapes, and their row-locality.

  * `mm a b`: rows times columns, entry `(p, q)` is `Σ_k a[p, k] · b[k, q]`; `dense x W b`: `x · W` plus the bias row `b` (a
    `[1, N]` matrix) added to every row; `silu z = z · logistic z`; `mlp x W₁ b₁ W₂ b₂ = dense (silu ∘ dense x W₁ b₁) W₂ b₂`;
    `row v`: a vector as a one-row matrix.
  * ROW-LOCALITY (`mm_rows`, `dense_rows`, `mlp_rows`, `mm_at`): row `p` of the result depends on row `p` of the left
    operand only — so a tile of rows is computed from the same tile of the operand, and a selection of rows may be
    taken before or after a product: `mm_gather_rows`, `(h · W)[r] = h[r] · W` for a row gather with any start indices.
  * A matrix-unit product into a zero accumulator (`matmul_eq_mm`) and the host's general product (`dotGeneral_eq_mm`,
    `host_dot_eq_mm`) are both `mm`; a kernel body's dense layer over a broadcast bias row is `dense` (`dense_vec`), its
    `x · logistic x` is `silu` (`silu_vec`); the host's dense layer with the bias vector broadcast twice is `dense … (row b)`
    (`host_dense`), jax's expansion `z · (1 / (1 + e^(−z)))` is `silu` (`host_silu`), a bias vector reshaped to one row is
    `row` (`shapeCast_row`). Generic extents throughout.
-/
import proofs.«166389_j81088982548949_1_alg».proof.Proof.LibDotGeneralEntry
import proofs.«166389_j81088982548949_1_alg».proof.Proof.LibGatherScatterRows
import proofs.«166389_j81088982548949_1_alg».proof.Proof.LibBroadcastEntry

noncomputable section

open scoped BigOperators

namespace Cert.Spec

open Idealize.ShloMosaic Idealize.ShloMosaic.ValueIdx

/-- An `M × N` matrix of extended reals, indexed as the printed programs index a rank-2 array. -/
abbrev Mat (M N : Nat) : Type := (⟨2, ![M, N]⟩ : Shape).Idx → EReal

/-- Rows times columns. -/
def mm {M K N : Nat} (a : Mat M K) (b : Mat K N) : Mat M N :=
  fun i => ∑ k : Fin K, a (ix2 (i 0) k) * b (ix2 k (i 1))

theorem mm_ix2 {M K N : Nat} (a : Mat M K) (b : Mat K N) (p : Fin M) (q : Fin N) :
    mm a b (ix2 p q) = ∑ k : Fin K, a (ix2 p k) * b (ix2 k q) := rfl

/-- The sigmoid-weighted unit. -/
def silu (z : EReal) : EReal := z * Ideal.logistic z

/-- A dense layer: the product plus a bias row. -/
def dense {M K N : Nat} (x : Mat M K) (W : Mat K N) (b : Mat 1 N) : Mat M N :=
  fun i => mm x W i + b (ix2 (0 : Fin 1) (i 1))

/-- Two dense layers with the sigmoid-weighted unit between them. -/
def mlp {M K H N : Nat} (x : Mat M K) (W₁ : Mat K H) (b₁ : Mat 1 H) (W₂ : Mat H N) (b₂ : Mat 1 N) : Mat M N :=
  dense (fun i => silu (dense x W₁ b₁ i)) W₂ b₂

/-- A vector laid out as a one-row matrix. -/
def row {N : Nat} (v : (⟨1, ![N]⟩ : Shape).Idx → EReal) : Mat 1 N := fun j => v (ix1 (j 1))

/-! ## Row-locality -/

theorem mm_rows {M M' K N : Nat} (a : Mat M K) (a' : Mat M' K) (b : Mat K N) (p : Fin M) (p' : Fin M') (q : Fin N)
    (h : ∀ k, a (ix2 p k) = a' (ix2 p' k)) : mm a b (ix2 p q) = mm a' b (ix2 p' q) := by
  rw [mm_ix2, mm_ix2]
  exact Finset.sum_congr rfl fun k _ => by rw [h k]

theorem dense_rows {M M' K N : Nat} (x : Mat M K) (x' : Mat M' K) (W : Mat K N) (b : Mat 1 N) (p : Fin M) (p' : Fin M')
    (q : Fin N) (h : ∀ k, x (ix2 p k) = x' (ix2 p' k)) : dense x W b (ix2 p q) = dense x' W b (ix2 p' q) := by
  show mm x W (ix2 p q) + _ = mm x' W (ix2 p' q) + _
  rw [mm_rows x x' W p p' q h]
  rfl

theorem mlp_rows {M M' K H N : Nat} (x : Mat M K) (x' : Mat M' K) (W₁ : Mat K H) (b₁ : Mat 1 H) (W₂ : Mat H N)
    (b₂ : Mat 1 N) (p : Fin M) (p' : Fin M') (q : Fin N) (h : ∀ k, x (ix2 p k) = x' (ix2 p' k)) :
    mlp x W₁ b₁ W₂ b₂ (ix2 p q) = mlp x' W₁ b₁ W₂ b₂ (ix2 p' q) :=
  dense_rows _ _ W₂ b₂ p p' q fun k => by
    show silu (dense x W₁ b₁ (ix2 p k)) = silu (dense x' W₁ b₁ (ix2 p' k))
    rw [dense_rows x x' W₁ b₁ p p' k h]

/-! ## Row-locality, between a tile's entry and the array's entry it sits at -/

theorem mm_at {B M K N : Nat} (xb : Mat B K) (x : Mat M K) (W : Mat K N) (j : (⟨2, ![B, N]⟩ : Shape).Idx)
    (i : (⟨2, ![M, N]⟩ : Shape).Idx) (hq : i 1 = j 1) (hx : ∀ k, xb (ix2 (j 0) k) = x (ix2 (i 0) k)) :
    mm xb W j = mm x W i := by
  obtain ⟨p, q, rfl⟩ : ∃ (p : Fin B) (q : Fin N), j = ix2 p q := ⟨j 0, j 1, eq_ix2 j⟩
  obtain ⟨p', q', rfl⟩ : ∃ (p' : Fin M) (q' : Fin N), i = ix2 p' q' := ⟨i 0, i 1, eq_ix2 i⟩
  have e : q' = q := hq
  subst e
  exact mm_rows xb x W p p' q' hx

/-! ## The two matrix products of the programs are `mm` -/

/-- The matrix unit's product of two matrices into the zero accumulator. -/
theorem matmul_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂) :
    FloatOps.matmul D prec a b (constant ⟨2, ![M, N]⟩ .f32 0x00000000#32) = mm a b := by
  funext i
  rw [eq_ix2 i]
  exact Ideal.matmul_rows_cols D hlb hln hlc hrb hrn hrc prec a b (i 0) (i 1)

/-- The host's general product of two matrices. -/
theorem dotGeneral_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁)
    (b : FVec Ideal ⟨2, ![K, N]⟩ φ₂) :
    FloatOps.dotGeneral D prec sched a b = mm a b := by
  funext i
  rw [eq_ix2 i]
  exact Ideal.dotGeneral_rows_cols D hlb hln hlc hrb hrn hrc prec sched a b (i 0) (i 1)

/-- The same, in the spelling a printed host line has. -/
theorem host_dot_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (a : FVec Ideal ⟨2, ![M, K]⟩ φ₁) (b : FVec Ideal ⟨2, ![K, N]⟩ φ₂) :
    Host.dotGeneral D none a b = mm a b :=
  dotGeneral_eq_mm D hlb hln hlc hrb hrn hrc none .single a b

/-! ## Selecting rows commutes with a product on the right -/

/-- Rows taken out of a product are the product of the rows taken: `(h · W)[r(e)] = (h[r(·)] · W)[e]`, whatever the
    row selection `r` the start indices denote (read signed, clamped into the table). -/
theorem mm_gather_rows {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (h : Mat N C) (W : Mat C C') (idx : IVec ⟨2, ![E, 1]⟩ w) :
    Host.gather (rowsGatherDims N E C' wf') (mm h W) idx = mm (Host.gather (rowsGatherDims N E C wf) h idx) W := by
  funext i
  obtain ⟨e, c, rfl⟩ : ∃ (e : Fin E) (c : Fin C'), i = ix2 e c := ⟨i 0, i 1, eq_ix2 i⟩
  rw [gather_rows_apply hN wf' (mm h W) idx e c, mm_ix2, mm_ix2]
  exact Finset.sum_congr rfl fun k _ => by rw [gather_rows_apply hN wf h idx e k]

/-! ## A kernel body's dense layer and its sigmoid-weighted unit, as whole tiles -/

/-- The matrix unit's product into the zero accumulator plus a bias row broadcast over the tile's rows. -/
theorem dense_vec {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) :
    addf (FloatOps.matmul D none x W (constant ⟨2, ![M, N]⟩ .f32 0x00000000#32)) (broadcastTo ⟨2, ![M, N]⟩ b hb)
      = dense x W b := by
  rw [matmul_eq_mm D hlb hln hlc hrb hrn hrc]
  funext i
  obtain ⟨p, q, rfl⟩ : ∃ (p : Fin M) (q : Fin N), i = ix2 p q := ⟨i 0, i 1, eq_ix2 i⟩
  show mm x W (ix2 p q) + broadcastTo ⟨2, ![M, N]⟩ b hb (ix2 p q) = mm x W (ix2 p q) + b (ix2 (0 : Fin 1) q)
  rw [broadcastTo_1b_ab_apply]

/-- A tile times its logistic, entry by entry. -/
theorem silu_vec {s : Shape} (z : FVec Ideal s .f32) : mulf z (logistic z) = fun i => silu (z i) := rfl

/-! ## The reference's spelling of the sigmoid-weighted unit and of a bias -/

/-- `1` as the programs write it. -/
theorem ofBits_one : Ideal.ofBits .f32 0x3F800000#32 = (1 : EReal) := by
  simp [Ideal.ofBits, Ideal.ieee, -EReal.coe_mul]; norm_num

/-- jax's expansion `z · (1 / (1 + e^(−z)))` on the host is the sigmoid-weighted unit. -/
theorem host_silu {s : Shape} (z : FVec Ideal s .f32) (h1 : (⟨0, ![]⟩ : Shape).BroadcastsInDim s ![]) :
    mulf z (Host.divf (broadcastInDim s ![] h1 (constant (F := Ideal) ⟨0, ![]⟩ .f32 0x3F800000#32))
      (addf (broadcastInDim s ![] h1 (constant (F := Ideal) ⟨0, ![]⟩ .f32 0x3F800000#32)) (Host.exp (Host.negf z))))
      = fun i => silu (z i) := by
  funext i
  have e1 : broadcastInDim s ![] h1 (constant (F := Ideal) ⟨0, ![]⟩ .f32 0x3F800000#32) i = (1 : EReal) := by
    rw [broadcastInDim_scalar_apply]
    exact ofBits_one
  show z i * Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(z i))) = silu (z i)
  rw [e1]
  rfl

/-- The host's dense layer: the general product plus the bias vector broadcast as a row over every row. -/
theorem host_dense {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D none x W) (broadcastInDim ⟨2, ![M, N]⟩ ![0, 1] h2 (broadcastInDim ⟨2, ![1, N]⟩ ![1] h1 b))
      = dense x W (row b) := by
  funext i
  show FloatOps.dotGeneral D none .single x W i + _ = mm x W i + row b (ix2 (0 : Fin 1) (i 1))
  rw [dotGeneral_eq_mm D hlb hln hlc hrb hrn hrc]
  refine congrArg (mm x W i + ·) ?_
  obtain ⟨p, q, rfl⟩ : ∃ (p : Fin M) (q : Fin N), i = ix2 p q := ⟨i 0, i 1, eq_ix2 i⟩
  rw [broadcastInDim_1b_ab_apply, broadcastInDim_b_1b_apply]
  rfl

/-- A bias vector reshaped to one row is that row. -/
theorem shapeCast_row {N : Nat} (b : (⟨1, ![N]⟩ : Shape).Idx → EReal) (h : (⟨1, ![N]⟩ : Shape).ShapeCasts ⟨2, ![1, N]⟩) :
    shapeCast ⟨2, ![1, N]⟩ b h = row b := by
  funext j
  obtain ⟨u, q, rfl⟩ : ∃ (u : Fin 1) (q : Fin N), j = ix2 u q := ⟨j 0, j 1, eq_ix2 j⟩
  rw [shapeCast_a_1a_apply]
  rfl

end Cert.Spec

end
-- ==== Proof.LibNormSpec.lean ====
/-
  The network's layers as functions of extended-real matrices, in the two arrangements the programs use.

  A graph-convolution layer is a dense product, a neighbourhood aggregation (kept abstract here: any map of
  matrices), a bias row, a batch normalisation over the node axis and a rectifier.  One arrangement normalises with
  the variance taken as the mean of the squares minus the squared mean (`bnStats`), the other with the mean of the
  squared deviations (`bnCentered`); on columns of real numbers the two agree.
-/
import proofs.«166389_j81088982548949_1_alg».proof.Proof.LibDenseRows

noncomputable section

open scoped BigOperators

namespace Cert.Spec

open Idealize.ShloMosaic Idealize.ShloMosaic.ValueIdx

/-- A bias row added to every row of a matrix. -/
def addRow {M N : Nat} (x : Mat M N) (b : Mat 1 N) : Mat M N :=
  fun i => x i + b (ix2 (0 : Fin 1) (i 1))

/-- The column sums of a matrix, as one row. -/
def colSum {M N : Nat} (y : Mat M N) : Mat 1 N :=
  fun j => ∑ r : Fin M, y (ix2 r (j 1))

/-- The column sums of the squares of a matrix, as one row. -/
def colSumSq {M N : Nat} (y : Mat M N) : Mat 1 N :=
  fun j => ∑ r : Fin M, y (ix2 r (j 1)) * y (ix2 r (j 1))

/-- Normalisation by given column statistics, scale, shift and the rectifier:
    `max (g · (y − mean) · rsqrt (var + ε) + β) 0`, the statistics and parameters one row each. -/
def bnRelu {M N : Nat} (eps : EReal) (y : Mat M N) (mean var g be : Mat 1 N) : Mat M N :=
  fun i => max (g (ix2 (0 : Fin 1) (i 1)) * (y i - mean (ix2 (0 : Fin 1) (i 1)))
      * Ideal.rsqrt (var (ix2 (0 : Fin 1) (i 1)) + eps) + be (ix2 (0 : Fin 1) (i 1))) 0

/-- A row divided entry by entry by a constant. -/
def divRow {N : Nat} (s : Mat 1 N) (n : EReal) : Mat 1 N := fun j => Ideal.div (s j) n

/-- The column means. -/
def colMean {M N : Nat} (n : EReal) (y : Mat M N) : Mat 1 N := divRow (colSum y) n

/-- The variance as the mean of the squares minus the squared mean. -/
def varStats {M N : Nat} (n : EReal) (y : Mat M N) : Mat 1 N :=
  fun j => divRow (colSumSq y) n j - colMean n y j * colMean n y j

/-- The variance as the mean of the squared deviations from the mean. -/
def varCentered {M N : Nat} (n : EReal) (y : Mat M N) : Mat 1 N :=
  divRow (colSumSq (fun i => y i - colMean n y (ix2 (0 : Fin 1) (i 1)))) n

/-- Batch normalisation and rectifier with the variance from the two running sums. -/
def bnStats {M N : Nat} (eps n : EReal) (y : Mat M N) (g be : Mat 1 N) : Mat M N :=
  bnRelu eps y (colMean n y) (varStats n y) g be

/-- Batch normalisation and rectifier with the variance from the squared deviations. -/
def bnCentered {M N : Nat} (eps n : EReal) (y : Mat M N) (g be : Mat 1 N) : Mat M N :=
  bnRelu eps y (colMean n y) (varCentered n y) g be

/-- The zero row. -/
def zeroRow (N : Nat) : Mat 1 N := fun _ => 0

end Cert.Spec

end
-- ==== Proof.LibHostNorm.lean ====
/-
  The host's spelling of the layers, read as the matrix functions of the specification, at the ideal values.

  * A sum over the rows of an [M, N] matrix by the host's reduction from the zero word is the row of column sums.
  * A vector of N entries broadcast first to one row and then over M rows is the bias row added to every row.
  * The host's batch normalisation over the row axis — the mean as the column sum over the count, the variance as
    the mean of the squared deviations, then scale, reciprocal square root of the variance plus a constant, shift
    and the rectifier — is the centred normalisation of the specification.
-/
import proofs.«166389_j81088982548949_1_alg».proof.Proof.LibNormSpec
import Idealize.ShloMosaic.PureOps.Ideal.Laws
import Idealize.ShloMosaic.PureOps.Contract

noncomputable section

open scoped BigOperators

namespace Cert.Spec

open Idealize.ShloMosaic Idealize.ShloMosaic.ValueIdx

variable {M N : Nat}

/-- The source index over a column index with a row coordinate put back on the row axis. -/
theorem lift_rows (hR : (⟨2, ![M, N]⟩ : Shape).Reduces [0] ⟨1, ![N]⟩) (j : (⟨1, ![N]⟩ : Shape).Idx) (k : Fin M) :
    hR.lift j k = ix2 k (j 0) := by
  funext c
  apply Fin.ext
  show hR.liftVal j k.val c = (ix2 k (j 0) c).val
  unfold Shape.Reduces.liftVal
  match c with
  | ⟨0, _⟩ => rfl
  | ⟨1, _⟩ => rfl

/-- The host's sum over the rows, from a word that denotes zero, is the column sum. -/
theorem host_colSum (y : FVec Ideal ⟨2, ![M, N]⟩ .f32) (zw : BitVec 32) (hz : Ideal.ofBits .f32 zw = 0)
    (hr : (⟨2, ![M, N]⟩ : Shape).ReducesTo [0] ⟨1, ![N]⟩) (hR : (⟨2, ![M, N]⟩ : Shape).Reduces [0] ⟨1, ![N]⟩)
    (hu : 0 < (⟨0, ![]⟩ : Shape).numel) (q : Fin N) :
    Host.reduceAdd y (constant (F := Ideal) ⟨0, ![]⟩ .f32 zw) hr hu (ix1 q) = colSum y (ix2 (0 : Fin 1) q) := by
  unfold Host.reduceAdd
  rw [Ideal.hostReduceAdd_def, Ideal.hostReduceAdd_single hr hR]
  show Ideal.ofBits .f32 zw + _ = _
  rw [hz, zero_add]
  unfold colSum
  exact Finset.sum_congr rfl fun k _ => congrArg y (lift_rows hR (ix1 q) k)

/-- A vector broadcast to one row and then over the rows. -/
abbrev upRows (h1 : (⟨1, ![N]⟩ : Shape).BroadcastsInDim ⟨2, ![1, N]⟩ ![1])
    (h2 : (⟨2, ![1, N]⟩ : Shape).BroadcastsInDim ⟨2, ![M, N]⟩ ![0, 1]) (v : FVec Ideal ⟨1, ![N]⟩ .f32) :
    FVec Ideal ⟨2, ![M, N]⟩ .f32 :=
  broadcastInDim ⟨2, ![M, N]⟩ ![0, 1] h2 (broadcastInDim ⟨2, ![1, N]⟩ ![1] h1 v)

/-- The host's column mean: the sum over the rows from the zero word, divided by the count word. -/
abbrev hostMean (zw nw : BitVec 32) (hr : (⟨2, ![M, N]⟩ : Shape).ReducesTo [0] ⟨1, ![N]⟩)
    (hu : 0 < (⟨0, ![]⟩ : Shape).numel) (hsN : (⟨0, ![]⟩ : Shape).BroadcastsInDim ⟨1, ![N]⟩ ![])
    (y : FVec Ideal ⟨2, ![M, N]⟩ .f32) : FVec Ideal ⟨1, ![N]⟩ .f32 :=
  Host.divf (Host.reduceAdd y (constant (F := Ideal) ⟨0, ![]⟩ .f32 zw) hr hu)
    (broadcastInDim ⟨1, ![N]⟩ ![] hsN (constant (F := Ideal) ⟨0, ![]⟩ .f32 nw))

theorem upRows_apply (h1 : (⟨1, ![N]⟩ : Shape).BroadcastsInDim ⟨2, ![1, N]⟩ ![1])
    (h2 : (⟨2, ![1, N]⟩ : Shape).BroadcastsInDim ⟨2, ![M, N]⟩ ![0, 1]) (v : FVec Ideal ⟨1, ![N]⟩ .f32)
    (p : Fin M) (q : Fin N) : upRows h1 h2 v (ix2 p q) = v (ix1 q) := by
  unfold upRows
  rw [broadcastInDim_1b_ab_apply, broadcastInDim_b_1b_apply]

theorem hostMean_apply (zw nw : BitVec 32) (hz : Ideal.ofBits .f32 zw = 0)
    (hr : (⟨2, ![M, N]⟩ : Shape).ReducesTo [0] ⟨1, ![N]⟩) (hR : (⟨2, ![M, N]⟩ : Shape).Reduces [0] ⟨1, ![N]⟩)
    (hu : 0 < (⟨0, ![]⟩ : Shape).numel) (hsN : (⟨0, ![]⟩ : Shape).BroadcastsInDim ⟨1, ![N]⟩ ![])
    (y : FVec Ideal ⟨2, ![M, N]⟩ .f32) (q : Fin N) :
    hostMean zw nw hr hu hsN y (ix1 q) = colMean (Ideal.ofBits .f32 nw) y (ix2 (0 : Fin 1) q) := by
  unfold hostMean
  show Ideal.div (Host.reduceAdd y _ hr hu (ix1 q)) _ = _
  rw [host_colSum y zw hz hr hR hu q, broadcastInDim_scalar_apply]
  rfl

/-- A matrix plus a vector broadcast over its rows is the matrix plus the bias row. -/
theorem host_addRow (x : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf x (upRows h1 h2 b) = addRow x (row b) := by
  funext i
  obtain ⟨p, q, rfl⟩ : ∃ (p : Fin M) (q : Fin N), i = ix2 p q := ⟨i 0, i 1, eq_ix2 i⟩
  show x (ix2 p q) + upRows h1 h2 b (ix2 p q) = x (ix2 p q) + row b (ix2 (0 : Fin 1) q)
  rw [upRows_apply]
  rfl

set_option maxHeartbeats 2000000 in
/-- The host's batch normalisation with the variance from the squared deviations, then the rectifier. -/
theorem host_bnCentered (y : FVec Ideal ⟨2, ![M, N]⟩ .f32) (g be : FVec Ideal ⟨1, ![N]⟩ .f32) (zw nw ew : BitVec 32)
    (hz : Ideal.ofBits .f32 zw = 0)
    (hr : (⟨2, ![M, N]⟩ : Shape).ReducesTo [0] ⟨1, ![N]⟩) (hR : (⟨2, ![M, N]⟩ : Shape).Reduces [0] ⟨1, ![N]⟩)
    (hu : 0 < (⟨0, ![]⟩ : Shape).numel)
    (hsN : (⟨0, ![]⟩ : Shape).BroadcastsInDim ⟨1, ![N]⟩ ![])
    (hsMN : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1]) :
    maximumf
      (addf
        (mulf
          (mulf (upRows h1 h2 g) (subf y (upRows h1 h2 (hostMean zw nw hr hu hsN y))))
          (upRows h1 h2
            (Host.rsqrt (addf
              (hostMean zw nw hr hu hsN
                (mulf (subf y (upRows h1 h2 (hostMean zw nw hr hu hsN y)))
                  (subf y (upRows h1 h2 (hostMean zw nw hr hu hsN y)))))
              (broadcastInDim ⟨1, ![N]⟩ ![] hsN (constant (F := Ideal) ⟨0, ![]⟩ .f32 ew))))))
        (upRows h1 h2 be))
      (broadcastInDim ⟨2, ![M, N]⟩ ![] hsMN (constant (F := Ideal) ⟨0, ![]⟩ .f32 zw))
    = bnCentered (Ideal.ofBits .f32 ew) (Ideal.ofBits .f32 nw) y (row g) (row be) := by
  funext i
  obtain ⟨p, q, rfl⟩ : ∃ (p : Fin M) (q : Fin N), i = ix2 p q := ⟨i 0, i 1, eq_ix2 i⟩
  -- the centred matrix at an entry of column q
  have hcen : ∀ p' : Fin M, subf y (upRows h1 h2 (hostMean zw nw hr hu hsN y)) (ix2 p' q)
      = y (ix2 p' q) - colMean (Ideal.ofBits .f32 nw) y (ix2 (0 : Fin 1) q) := fun p' => by
    show y (ix2 p' q) - upRows h1 h2 (hostMean zw nw hr hu hsN y) (ix2 p' q) = _
    rw [upRows_apply, hostMean_apply zw nw hz hr hR hu hsN y q]
  -- the variance vector at column q
  have hvar : hostMean zw nw hr hu hsN
        (mulf (subf y (upRows h1 h2 (hostMean zw nw hr hu hsN y)))
          (subf y (upRows h1 h2 (hostMean zw nw hr hu hsN y)))) (ix1 q)
      = varCentered (Ideal.ofBits .f32 nw) y (ix2 (0 : Fin 1) q) := by
    rw [hostMean_apply zw nw hz hr hR hu hsN _ q]
    unfold varCentered colMean divRow colSum colSumSq
    refine congrArg (Ideal.div · _) (Finset.sum_congr rfl fun r _ => ?_)
    show subf y _ (ix2 r q) * subf y _ (ix2 r q) = _
    rw [hcen r]
    rfl
  show max ((upRows h1 h2 g (ix2 p q) * subf y (upRows h1 h2 (hostMean zw nw hr hu hsN y)) (ix2 p q))
      * upRows h1 h2 (Host.rsqrt _) (ix2 p q) + upRows h1 h2 be (ix2 p q))
      _ = _
  rw [hcen p, upRows_apply, upRows_apply, upRows_apply, broadcastInDim_scalar_apply]
  show max (g (ix1 q) * _ * Ideal.rsqrt (hostMean zw nw hr hu hsN _ (ix1 q) + _)
      + be (ix1 q)) (Ideal.ofBits .f32 zw) = _
  rw [hvar, broadcastInDim_scalar_apply, hz]
  rfl

end Cert.Spec

end
-- ==== Proof.LibFiniteSums.lean ====
import Mathlib
import Idealize.ShloMosaic.PureOps.Ideal

/-!
# Real-valued extended reals: closure under the arithmetic of a normalisation layer, and the variance identity

An extended real is *real* when it is the image of a real number. Real extended reals are closed under
sums, differences, products, finite sums, the maximum with zero, division by a nonzero real, and the
reciprocal square root of a positive number. On real data the two textbook forms of the (biased) variance
agree: the mean of the squared deviations equals the mean of the squares minus the square of the mean, and
since the former is nonnegative, clamping the latter at zero changes nothing.
-/

noncomputable section

open scoped BigOperators

namespace Idealize.ShloMosaic.FiniteSums

open Idealize.ShloMosaic

/-- An extended real that is (the image of) a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither +∞ nor -∞. -/
theorem isReal_iff (x : EReal) : IsReal x ↔ x ≠ ⊤ ∧ x ≠ ⊥ := by
  induction x using EReal.rec with
  | bot => exact ⟨fun ⟨r, h⟩ => absurd h (EReal.coe_ne_bot r).symm, fun h => absurd rfl h.2⟩
  | top => exact ⟨fun ⟨r, h⟩ => absurd h (EReal.coe_ne_top r).symm, fun h => absurd rfl h.1⟩
  | coe r => exact ⟨fun _ => ⟨EReal.coe_ne_top r, EReal.coe_ne_bot r⟩, fun _ => ⟨r, rfl⟩⟩

/-- A real extended real is not +∞. -/
theorem IsReal.ne_top {x : EReal} (h : IsReal x) : x ≠ ⊤ := ((isReal_iff x).1 h).1

/-- A real extended real is not -∞. -/
theorem IsReal.ne_bot {x : EReal} (h : IsReal x) : x ≠ ⊥ := ((isReal_iff x).1 h).2

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is real. -/
theorem isReal_max {x y : EReal} (hx : IsReal x) (hy : IsReal y) : IsReal (max x y) := by
  rcases max_choice x y with h | h <;> rw [h] <;> assumption

/-- The maximum of a real with zero is real. -/
theorem isReal_max_zero {x : EReal} (hx : IsReal x) : IsReal (max x 0) := isReal_max hx isReal_zero

/-- The maximum with zero is nonnegative. -/
theorem zero_le_max_zero (x : EReal) : 0 ≤ max x 0 := le_max_right x 0

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A sum of reals over a whole finite index type is real. -/
theorem IsReal.sum_univ {ι : Type*} [Fintype ι] (f : ι → EReal) (hf : ∀ i, IsReal (f i)) :
    IsReal (∑ i, f i) := IsReal.sum Finset.univ f fun i _ => hf i

/-- A family of real extended reals is the image of a family of real numbers. -/
theorem exists_real_family {ι : Type*} (f : ι → EReal) (hf : ∀ i, IsReal (f i)) :
    ∃ g : ι → ℝ, ∀ i, f i = ((g i : ℝ) : EReal) := ⟨fun i => (hf i).choose, fun i => (hf i).choose_spec⟩

/-- The quotient of a real number by a nonzero real number, as the programs' division computes it on
    extended reals, is the real quotient. -/
theorem div_coe_coe (a N : ℝ) (hN : N ≠ 0) : Ideal.div (a : EReal) (N : EReal) = ((a / N : ℝ) : EReal) := by
  rw [Ideal.div_coe hN, ← EReal.coe_mul, mul_one_div]

/-- A real divided by a nonzero real number is real. -/
theorem IsReal.div_coe {x : EReal} (hx : IsReal x) {N : ℝ} (hN : N ≠ 0) : IsReal (Ideal.div x (N : EReal)) := by
  obtain ⟨a, rfl⟩ := hx; exact ⟨a / N, div_coe_coe a N hN⟩

/-- A real divided by 25000 is real. -/
theorem IsReal.div_25000 {x : EReal} (hx : IsReal x) : IsReal (Ideal.div x ((25000 : ℝ) : EReal)) :=
  hx.div_coe (by norm_num)

/-- The reciprocal square root of a positive real number is the real number `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The reciprocal square root of a positive real extended real is real and positive. -/
theorem IsReal.rsqrt_pos {x : EReal} (hx : IsReal x) (h : 0 < x) :
    IsReal (Ideal.rsqrt x) ∧ 0 < Ideal.rsqrt x := by
  obtain ⟨r, rfl⟩ := hx
  have hr : 0 < r := by exact_mod_cast h
  obtain ⟨e, hp⟩ := rsqrt_coe_pos hr
  rw [e]
  exact ⟨⟨_, rfl⟩, by exact_mod_cast hp⟩

/-- A nonnegative real plus a positive real is a positive real: the argument of the reciprocal square root
    in a normalisation layer (a clamped variance plus a positive constant). -/
theorem IsReal.add_pos {x y : EReal} (hx : IsReal x) (hy : IsReal y) (h0 : 0 ≤ x) (h1 : 0 < y) :
    IsReal (x + y) ∧ 0 < x + y := by
  refine ⟨hx.add hy, ?_⟩
  obtain ⟨a, rfl⟩ := hx; obtain ⟨b, rfl⟩ := hy
  have ha : 0 ≤ a := by exact_mod_cast h0
  have hb : 0 < b := by exact_mod_cast h1
  rw [← EReal.coe_add]
  exact_mod_cast add_pos_of_nonneg_of_pos ha hb

/-! ## The variance identity -/

/-- Over the real numbers: with `N` the number of terms and `m` the mean, the mean of the squared deviations
    from `m` is the mean of the squares minus `m²`. -/
theorem real_variance {ι : Type*} [Fintype ι] (g : ι → ℝ) (N : ℝ) (hN : (Fintype.card ι : ℝ) = N) (h0 : N ≠ 0) :
    (∑ i, (g i - (∑ j, g j) / N) * (g i - (∑ j, g j) / N)) / N
      = (∑ i, g i * g i) / N - ((∑ j, g j) / N) * ((∑ j, g j) / N) := by
  have h1 : ∑ i, (g i - (∑ j, g j) / N) * (g i - (∑ j, g j) / N)
      = (∑ i, g i * g i) - 2 * ((∑ j, g j) / N) * (∑ j, g j) + N * ((∑ j, g j) / N * ((∑ j, g j) / N)) := by
    have e : ∀ i, (g i - (∑ j, g j) / N) * (g i - (∑ j, g j) / N)
        = g i * g i - 2 * ((∑ j, g j) / N) * g i + ((∑ j, g j) / N * ((∑ j, g j) / N)) := fun i => by ring
    simp only [e, Finset.sum_add_distrib, Finset.sum_sub_distrib, ← Finset.mul_sum, Finset.sum_const,
      Finset.card_univ, nsmul_eq_mul, hN]
    ring
  rw [h1]
  field_simp
  ring

/-- Over the real numbers the mean of the squared deviations is nonnegative. -/
theorem real_variance_nonneg {ι : Type*} [Fintype ι] (g : ι → ℝ) (m N : ℝ) (hN : (Fintype.card ι : ℝ) = N) :
    0 ≤ (∑ i, (g i - m) * (g i - m)) / N :=
  div_nonneg (Finset.sum_nonneg fun i _ => mul_self_nonneg _) (hN ▸ Nat.cast_nonneg _)

/-- **The variance identity on real data, in extended-real arithmetic.** For a family `f` of real extended
    reals over a finite index type with `N` elements (`N ≠ 0`), with the mean `μ = (∑ f) / N`: the mean of
    the squared deviations from `μ` equals the mean of the squares minus `μ²`, clamped below at zero. Every
    division is the programs' division of extended reals by the real number `N`. -/
theorem variance_identity {ι : Type*} [Fintype ι] (f : ι → EReal) (hf : ∀ i, IsReal (f i))
    (N : ℝ) (hN : (Fintype.card ι : ℝ) = N) (h0 : N ≠ 0) :
    Ideal.div (∑ i, (f i - Ideal.div (∑ j, f j) (N : EReal)) * (f i - Ideal.div (∑ j, f j) (N : EReal))) (N : EReal)
      = max (Ideal.div (∑ i, f i * f i) (N : EReal)
              - Ideal.div (∑ j, f j) (N : EReal) * Ideal.div (∑ j, f j) (N : EReal)) 0 := by
  obtain ⟨g, hg⟩ := exists_real_family f hf
  have hS : (∑ j, f j) = (((∑ j, g j : ℝ)) : EReal) := by
    rw [coe_finset_sum]; exact Finset.sum_congr rfl fun j _ => hg j
  have hμ : Ideal.div (∑ j, f j) (N : EReal) = (((∑ j, g j) / N : ℝ) : EReal) := by
    rw [hS, div_coe_coe _ _ h0]
  have hQ : (∑ i, f i * f i) = ((∑ i, g i * g i : ℝ) : EReal) := by
    rw [coe_finset_sum]; exact Finset.sum_congr rfl fun i _ => by rw [hg i, EReal.coe_mul]
  have hD : (∑ i, (f i - Ideal.div (∑ j, f j) (N : EReal)) * (f i - Ideal.div (∑ j, f j) (N : EReal)))
      = ((∑ i, (g i - (∑ j, g j) / N) * (g i - (∑ j, g j) / N) : ℝ) : EReal) := by
    rw [coe_finset_sum]
    exact Finset.sum_congr rfl fun i _ => by rw [hμ, hg i, ← EReal.coe_sub, ← EReal.coe_mul]
  rw [hD, hQ, hμ, div_coe_coe _ _ h0, div_coe_coe _ _ h0, ← EReal.coe_mul, ← EReal.coe_sub,
    real_variance g N hN h0]
  have hB : 0 ≤ (∑ i, g i * g i) / N - (∑ j, g j) / N * ((∑ j, g j) / N) :=
    (real_variance g N hN h0) ▸ real_variance_nonneg g _ N hN
  exact (max_eq_left (EReal.coe_nonneg.2 hB)).symm

/-- The variance identity over `Fin n`, `n > 0`, with `N = n` as a real number. -/
theorem variance_identity_fin {n : ℕ} (hn : 0 < n) (f : Fin n → EReal) (hf : ∀ i, IsReal (f i)) :
    Ideal.div (∑ i, (f i - Ideal.div (∑ j, f j) ((n : ℝ) : EReal)) * (f i - Ideal.div (∑ j, f j) ((n : ℝ) : EReal)))
        ((n : ℝ) : EReal)
      = max (Ideal.div (∑ i, f i * f i) ((n : ℝ) : EReal)
              - Ideal.div (∑ j, f j) ((n : ℝ) : EReal) * Ideal.div (∑ j, f j) ((n : ℝ) : EReal)) 0 :=
  variance_identity f hf (n : ℝ) (by simp) (by exact_mod_cast hn.ne')

end Idealize.ShloMosaic.FiniteSums
-- ==== Proof.LibMeanVarLaw.lean ====
/-
  GENERAL: the variance identity on the extended reals, for batch-normalisation kernels that accumulate Σx and Σx²
  against a reference that takes the mean of squared deviations.  For a column of REAL numbers
  f 0, …, f (n-1) with n = N ≠ 0, the mean of the squared deviations from the mean,
      (Σ (f i − S/N)²) / N,       S = Σ f i,
  is the mean of the squares minus the squared mean, (Σ f i²) / N − (S/N)².  Over the reals this is the expansion
  Σ (f i − μ)² = Σ f i² − 2 μ S + N μ² at μ = S/N.  On the extended reals it needs every f i real: subtraction and
  distributivity fail at the infinities.  Also here: the float literals both programs spell, as the reals they denote.
-/
import Idealize.ShloMosaic.PureOps.Ideal

noncomputable section

namespace Cert.MeanVar

open Idealize.ShloMosaic

/-- The zero word denotes 0. -/
theorem ofBits_zero : Ideal.ofBits .f32 0x00000000#32 = 0 := by
  simp [Ideal.ofBits, Ideal.ieee]

/-- The word of 100000.0 denotes the real 100000. -/
theorem ofBits_1e5 : Ideal.ofBits .f32 0x47C35000#32 = ((100000 : ℝ) : EReal) := by
  simp [Ideal.ofBits, Ideal.ieee, -EReal.coe_mul]; norm_num

/-- A finite sum of reals, summed on the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The real identity: the mean squared deviation is the mean square minus the squared mean. -/
theorem real_var {ι : Type*} [Fintype ι] (f : ι → ℝ) (N : ℝ) (hN : N ≠ 0) (hc : (Fintype.card ι : ℝ) = N) :
    (∑ i, (f i - (∑ k, f k) * (1 / N)) * (f i - (∑ k, f k) * (1 / N))) * (1 / N)
      = (∑ i, f i * f i) * (1 / N) - ((∑ k, f k) * (1 / N)) * ((∑ k, f k) * (1 / N)) := by
  set S := ∑ k, f k with hS
  have h1 : ∑ i, (f i - S * (1 / N)) * (f i - S * (1 / N))
      = (∑ i, f i * f i) - 2 * (S * (1 / N)) * S + N * ((S * (1 / N)) * (S * (1 / N))) := by
    have : ∀ i, (f i - S * (1 / N)) * (f i - S * (1 / N))
        = f i * f i - 2 * (S * (1 / N)) * f i + (S * (1 / N)) * (S * (1 / N)) := fun i => by ring
    simp only [this, Finset.sum_add_distrib, Finset.sum_sub_distrib, ← Finset.mul_sum, Finset.sum_const,
      Finset.card_univ, nsmul_eq_mul, hc, ← hS]
    ring
  rw [h1]
  field_simp
  ring

/-- The law on the extended reals, in the operations the two programs use: quotients by the real `N` are
    `Ideal.div`, the column is real. -/
theorem var_eq {ι : Type*} [Fintype ι] (f : ι → ℝ) (N : ℝ) (hN : N ≠ 0) (hc : (Fintype.card ι : ℝ) = N) :
    Ideal.div (∑ i, (((f i : ℝ) : EReal) - Ideal.div (∑ k, ((f k : ℝ) : EReal)) (N : EReal))
        * (((f i : ℝ) : EReal) - Ideal.div (∑ k, ((f k : ℝ) : EReal)) (N : EReal))) (N : EReal)
      = Ideal.div (∑ i, ((f i : ℝ) : EReal) * ((f i : ℝ) : EReal)) (N : EReal)
        - Ideal.div (∑ k, ((f k : ℝ) : EReal)) (N : EReal) * Ideal.div (∑ k, ((f k : ℝ) : EReal)) (N : EReal) := by
  simp only [coe_sum, Ideal.div_coe hN, ← EReal.coe_mul, ← EReal.coe_sub]
  exact congrArg _ (real_var f N hN hc)

/-- The mean squared deviation of a real column is a nonnegative real. -/
theorem var_real_nonneg {ι : Type*} [Fintype ι] (f : ι → ℝ) (N : ℝ) (hN : 0 < N) :
    ∃ v : ℝ, 0 ≤ v ∧
      Ideal.div (∑ i, (((f i : ℝ) : EReal) - Ideal.div (∑ k, ((f k : ℝ) : EReal)) (N : EReal))
        * (((f i : ℝ) : EReal) - Ideal.div (∑ k, ((f k : ℝ) : EReal)) (N : EReal))) (N : EReal) = ((v : ℝ) : EReal) := by
  refine ⟨(∑ i, (f i - (∑ k, f k) * (1 / N)) * (f i - (∑ k, f k) * (1 / N))) * (1 / N), ?_, ?_⟩
  · exact mul_nonneg (Finset.sum_nonneg fun i _ => mul_self_nonneg _) (by positivity)
  · simp only [coe_sum, Ideal.div_coe hN.ne', ← EReal.coe_mul, ← EReal.coe_sub]

end Cert.MeanVar

end
-- ==== Proof.LibNormLaw.lean ====
/-
  The network in the two arrangements the programs use, and their agreement on real data.

  One arrangement (`netK`) computes every dense product with an added zero row and normalises with the variance taken
  as the mean of the squares minus the squared mean; the other (`netR`) uses the bare product and the mean of the
  squared deviations.  The neighbourhood aggregations are kept abstract: any maps of matrices that send matrices of
  real numbers to matrices of real numbers.

  The steps: (1) adding the zero row changes nothing, since `a + 0 = a` on the extended reals; (2) products, and sums
  with a bias row, of matrices of reals are matrices of reals; (3) on a matrix of reals the two variances agree column
  by column -- the one place where finiteness matters, as the expansion of `Σ (y − μ)²` fails at the infinities; (4) a
  normalised and rectified matrix of reals, with real scale and shift and a positive real `ε`, is a matrix of reals: the
  variance is a nonnegative real, so `var + ε` is a positive real and its reciprocal square root is real; (5) the two
  layers are chained through the aggregations.  Also the two float literals of the programs as the reals they denote.
-/
import proofs.«166389_j81088982548949_1_alg».proof.Proof.LibNormSpec
import proofs.«166389_j81088982548949_1_alg».proof.Proof.LibFiniteSums
import proofs.«166389_j81088982548949_1_alg».proof.Proof.LibMeanVarLaw

noncomputable section

open scoped BigOperators

namespace Cert.Spec

open Idealize.ShloMosaic Idealize.ShloMosaic.ValueIdx Idealize.ShloMosaic.FiniteSums

/-- The two-layer network with a linear classifier, every product with an added zero row and the variances from the
    two running sums. -/
def netK {M D H1 H2 C : Nat} (agg1 : Mat M H1 → Mat M H1) (agg2 : Mat M H2 → Mat M H2) (eps n : EReal)
    (x : Mat M D) (W1 : Mat D H1) (b1 g1 be1 : Mat 1 H1) (W2 : Mat H1 H2) (b2 g2 be2 : Mat 1 H2)
    (Wf : Mat H2 C) (bf : Mat 1 C) : Mat M C :=
  dense (bnStats eps n (addRow (agg2 (dense (bnStats eps n (addRow (agg1 (dense x W1 (zeroRow H1))) b1) g1 be1) W2
    (zeroRow H2))) b2) g2 be2) Wf bf

/-- The same network with bare products and the variances from the squared deviations. -/
def netR {M D H1 H2 C : Nat} (agg1 : Mat M H1 → Mat M H1) (agg2 : Mat M H2 → Mat M H2) (eps n : EReal)
    (x : Mat M D) (W1 : Mat D H1) (b1 g1 be1 : Mat 1 H1) (W2 : Mat H1 H2) (b2 g2 be2 : Mat 1 H2)
    (Wf : Mat H2 C) (bf : Mat 1 C) : Mat M C :=
  dense (bnCentered eps n (addRow (agg2 (mm (bnCentered eps n (addRow (agg1 (mm x W1)) b1) g1 be1) W2)) b2) g2 be2)
    Wf bf

/-! ## (1) The zero row -/

/-- A dense layer with the zero bias row is the bare product. -/
theorem dense_zeroRow {M K N : Nat} (x : Mat M K) (W : Mat K N) : dense x W (zeroRow N) = mm x W := by
  funext i
  show mm x W i + 0 = mm x W i
  exact add_zero _

/-! ## (2) Matrices of reals -/

/-- A product of matrices of reals is a matrix of reals. -/
theorem isReal_mm {M K N : Nat} {a : Mat M K} {b : Mat K N} (ha : ∀ i, IsReal (a i)) (hb : ∀ i, IsReal (b i)) :
    ∀ i, IsReal (mm a b i) := fun _ =>
  IsReal.sum_univ _ fun _ => (ha _).mul (hb _)

/-- A matrix of reals plus a row of reals is a matrix of reals. -/
theorem isReal_addRow {M N : Nat} {x : Mat M N} {b : Mat 1 N} (hx : ∀ i, IsReal (x i)) (hb : ∀ i, IsReal (b i)) :
    ∀ i, IsReal (addRow x b i) := fun i => (hx i).add (hb _)

/-- A dense layer of matrices of reals with a row of reals is a matrix of reals. -/
theorem isReal_dense {M K N : Nat} {x : Mat M K} {W : Mat K N} {b : Mat 1 N} (hx : ∀ i, IsReal (x i))
    (hW : ∀ i, IsReal (W i)) (hb : ∀ i, IsReal (b i)) : ∀ i, IsReal (dense x W b i) := fun i =>
  (isReal_mm hx hW i).add (hb _)

/-- The column means of a matrix of reals with a positive number of rows are reals. -/
theorem isReal_colMean {M N : Nat} (hM : 0 < M) {y : Mat M N} (hy : ∀ i, IsReal (y i)) :
    ∀ j, IsReal (colMean ((M : ℝ) : EReal) y j) := fun _ =>
  (IsReal.sum_univ _ fun _ => hy _).div_coe (by exact_mod_cast hM.ne')

/-! ## (3) The two variances agree on a matrix of reals -/

/-- On a matrix of reals with `M > 0` rows, the mean of the squares minus the squared mean is the mean of the squared
    deviations, column by column. -/
theorem varStats_eq_varCentered {M N : Nat} (hM : 0 < M) {y : Mat M N} (hy : ∀ i, IsReal (y i)) :
    varStats ((M : ℝ) : EReal) y = varCentered ((M : ℝ) : EReal) y := by
  funext j
  obtain ⟨f, hf⟩ := exists_real_family (fun r : Fin M => y (ix2 r (j 1))) fun _ => hy _
  have hM' : (M : ℝ) ≠ 0 := by exact_mod_cast hM.ne'
  have hc : (Fintype.card (Fin M) : ℝ) = (M : ℝ) := by simp
  have key := Cert.MeanVar.var_eq f (M : ℝ) hM' hc
  show Ideal.div (∑ r : Fin M, y (ix2 r (j 1)) * y (ix2 r (j 1))) ((M : ℝ) : EReal)
        - Ideal.div (∑ r : Fin M, y (ix2 r (j 1))) ((M : ℝ) : EReal)
          * Ideal.div (∑ r : Fin M, y (ix2 r (j 1))) ((M : ℝ) : EReal)
      = Ideal.div (∑ r : Fin M, (y (ix2 r (j 1)) - Ideal.div (∑ k : Fin M, y (ix2 k (j 1))) ((M : ℝ) : EReal))
          * (y (ix2 r (j 1)) - Ideal.div (∑ k : Fin M, y (ix2 k (j 1))) ((M : ℝ) : EReal))) ((M : ℝ) : EReal)
  simp only [show ∀ r, y (ix2 r (j 1)) = ((f r : ℝ) : EReal) from hf]
  exact key.symm

/-- Hence the two normalisations agree on a matrix of reals. -/
theorem bnStats_eq_bnCentered {M N : Nat} (hM : 0 < M) (eps : EReal) {y : Mat M N} (hy : ∀ i, IsReal (y i))
    (g be : Mat 1 N) :
    bnStats eps ((M : ℝ) : EReal) y g be = bnCentered eps ((M : ℝ) : EReal) y g be := by
  unfold bnStats bnCentered
  rw [varStats_eq_varCentered hM hy]

/-! ## (4) The normalised matrix is a matrix of reals -/

/-- The mean of the squared deviations of a matrix of reals is, in every column, a nonnegative real. -/
theorem varCentered_real_nonneg {M N : Nat} (hM : 0 < M) {y : Mat M N} (hy : ∀ i, IsReal (y i)) :
    ∀ j, IsReal (varCentered ((M : ℝ) : EReal) y j) ∧ 0 ≤ varCentered ((M : ℝ) : EReal) y j := by
  intro j
  obtain ⟨f, hf⟩ := exists_real_family (fun r : Fin M => y (ix2 r (j 1))) fun _ => hy _
  obtain ⟨v, hv0, hv⟩ := Cert.MeanVar.var_real_nonneg f (M : ℝ) (by exact_mod_cast hM)
  have e : varCentered ((M : ℝ) : EReal) y j = ((v : ℝ) : EReal) := by
    rw [← hv]
    show Ideal.div (∑ r : Fin M, (y (ix2 r (j 1)) - Ideal.div (∑ k : Fin M, y (ix2 k (j 1))) ((M : ℝ) : EReal))
          * (y (ix2 r (j 1)) - Ideal.div (∑ k : Fin M, y (ix2 k (j 1))) ((M : ℝ) : EReal))) ((M : ℝ) : EReal) = _
    simp only [show ∀ r, y (ix2 r (j 1)) = ((f r : ℝ) : EReal) from hf]
  rw [e]
  exact ⟨⟨v, rfl⟩, by exact_mod_cast hv0⟩

/-- Normalisation by the squared deviations, scale, shift and rectifier: of a matrix of reals, with rows of reals
    for scale and shift and a positive real `ε`, a matrix of reals. -/
theorem isReal_bnCentered {M N : Nat} (hM : 0 < M) (e : ℝ) (he : 0 < e) {y : Mat M N} {g be : Mat 1 N}
    (hy : ∀ i, IsReal (y i)) (hg : ∀ i, IsReal (g i)) (hbe : ∀ i, IsReal (be i)) :
    ∀ i, IsReal (bnCentered (e : EReal) ((M : ℝ) : EReal) y g be i) := by
  intro i
  obtain ⟨hv, hv0⟩ := varCentered_real_nonneg hM hy (ix2 (0 : Fin 1) (i 1))
  obtain ⟨hs, hs0⟩ := IsReal.add_pos hv (isReal_coe e) hv0 (by exact_mod_cast he)
  obtain ⟨hr, _⟩ := IsReal.rsqrt_pos hs hs0
  exact isReal_max_zero ((((hg _).mul ((hy i).sub (isReal_colMean hM hy _))).mul hr).add (hbe _))

/-- The same for the normalisation by the two running sums. -/
theorem isReal_bnStats {M N : Nat} (hM : 0 < M) (e : ℝ) (he : 0 < e) {y : Mat M N} {g be : Mat 1 N}
    (hy : ∀ i, IsReal (y i)) (hg : ∀ i, IsReal (g i)) (hbe : ∀ i, IsReal (be i)) :
    ∀ i, IsReal (bnStats (e : EReal) ((M : ℝ) : EReal) y g be i) := by
  rw [bnStats_eq_bnCentered hM _ hy]
  exact isReal_bnCentered hM e he hy hg hbe

/-! ## (5) The two networks agree on real data -/

/-- **The network law.**  With `M > 0` nodes, aggregations that keep matrices of reals real, a positive real `ε`,
    `n = M`, and real features, weights, biases, scales and shifts of the two layers, the two arrangements of the
    network are the same matrix.  The classifier's weights and bias are arbitrary. -/
theorem netK_eq_netR {M D H1 H2 C : Nat} {agg1 : Mat M H1 → Mat M H1} {agg2 : Mat M H2 → Mat M H2}
    {x : Mat M D} {W1 : Mat D H1} {b1 g1 be1 : Mat 1 H1} {W2 : Mat H1 H2} {b2 g2 be2 : Mat 1 H2}
    {Wf : Mat H2 C} {bf : Mat 1 C} (hM : 0 < M)
    (hagg1 : ∀ h : Mat M H1, (∀ i, IsReal (h i)) → ∀ i, IsReal (agg1 h i))
    (hagg2 : ∀ h : Mat M H2, (∀ i, IsReal (h i)) → ∀ i, IsReal (agg2 h i))
    (e : ℝ) (he : 0 < e) (hx : ∀ i, IsReal (x i)) (hW1 : ∀ i, IsReal (W1 i)) (hb1 : ∀ i, IsReal (b1 i))
    (hg1 : ∀ i, IsReal (g1 i)) (hbe1 : ∀ i, IsReal (be1 i)) (hW2 : ∀ i, IsReal (W2 i))
    (hb2 : ∀ i, IsReal (b2 i)) (hg2 : ∀ i, IsReal (g2 i)) (hbe2 : ∀ i, IsReal (be2 i)) :
    netK agg1 agg2 (e : EReal) ((M : ℝ) : EReal) x W1 b1 g1 be1 W2 b2 g2 be2 Wf bf
      = netR agg1 agg2 (e : EReal) ((M : ℝ) : EReal) x W1 b1 g1 be1 W2 b2 g2 be2 Wf bf := by
  have h1 : ∀ i, IsReal (addRow (agg1 (mm x W1)) b1 i) := isReal_addRow (hagg1 _ (isReal_mm hx hW1)) hb1
  have h2 : ∀ i, IsReal (bnCentered (e : EReal) ((M : ℝ) : EReal) (addRow (agg1 (mm x W1)) b1) g1 be1 i) :=
    isReal_bnCentered hM e he h1 hg1 hbe1
  have h3 : ∀ i, IsReal (addRow (agg2 (mm (bnCentered (e : EReal) ((M : ℝ) : EReal)
      (addRow (agg1 (mm x W1)) b1) g1 be1) W2)) b2 i) := isReal_addRow (hagg2 _ (isReal_mm h2 hW2)) hb2
  unfold netK netR
  simp only [dense_zeroRow]
  rw [bnStats_eq_bnCentered hM _ h1, bnStats_eq_bnCentered hM _ h3]

/-! ## The two float literals -/

/-- The word `0x3727C5AC` (the single-precision number nearest `10⁻⁵`) denotes a positive real:
    `2⁻¹⁷ · (1 + 0x27C5AC / 2²³) = 10995116 / 2⁴⁰`. -/
theorem ofBits_eps : ∃ e : ℝ, 0 < e ∧ Ideal.ofBits .f32 0x3727C5AC#32 = ((e : ℝ) : EReal) := by
  refine ⟨(10995116 : ℝ) / 1099511627776, by norm_num, ?_⟩
  simp [Ideal.ofBits, Ideal.ieee, -EReal.coe_mul]; norm_num

/-- The word `0x47C35000` denotes the number of nodes, 100000. -/
theorem n_eq : Ideal.ofBits .f32 0x47C35000#32 = (((100000 : ℕ) : ℝ) : EReal) := by
  rw [Cert.MeanVar.ofBits_1e5]; norm_num

end Cert.Spec

end
-- ==== Proof.RefSpec.lean ====
/-
  The reference program's result as the network of the specification in the reference's arrangement.

  Stage by stage: the first product is the matrix product; the neighbourhood aggregation is one fixed map of
  matrices (its index arrays and edge weights depend on the edge list only); the bias vector broadcast over the rows
  is a bias row; the normalisation over the node axis, in the host's spelling, is the centred normalisation; and the
  same again for the second layer and the classifier.
-/
import proofs.«166389_j81088982548949_1_alg».proof.Proof.Gen.ReferenceIdeal.Read
import proofs.«166389_j81088982548949_1_alg».proof.Proof.LibHostNorm
import proofs.«166389_j81088982548949_1_alg».proof.Proof.LibNormLaw
import proofs.«166389_j81088982548949_1_alg».proof.Proof.LibMeanVarLaw

set_option maxRecDepth 16384

noncomputable section

namespace Cert.RefSpec

open Cert.ReferenceIdeal Cert.ReferenceIdeal.Facts₀ Cert.ReferenceIdeal.Read Cert.Spec
open Idealize.ShloMosaic Idealize.ShloMosaic.ValueIdx

/-- The edge list's type. -/
abbrev Edges : Type := (⟨S2x1600000, .i32⟩ : BufTy).Contents (Elt Ideal)

/-- The first layer's neighbourhood aggregation: the rows gathered at the (wrapped) sources, scaled by the edge
    weights and accumulated at the destinations, from zeros. -/
def agg1 (e : Edges) (h : Mat 100000 128) : Mat 100000 128 :=
  (Host.scatterAdd (F := Ideal) (φ := .f32) scatter_S100000x128_S1700000x1_S1700000x128_1_0_0_1 (val_main_v38 (F := Ideal))
    (val_main_v39 (F := Ideal) e)
    (mulf (Host.gather gather_S100000x128_S1700000x1_S1700000x128_1_0_n_n_0_1_1128 (h : FVec Ideal S100000x128 .f32)
      (val_main_v33 (F := Ideal) e)) (val_main_v36 (F := Ideal) e)) : FVec Ideal S100000x128 .f32)

/-- The second layer's neighbourhood aggregation. -/
def agg2 (e : Edges) (h : Mat 100000 64) : Mat 100000 64 :=
  (Host.scatterAdd (F := Ideal) (φ := .f32) scatter_S100000x64_S1700000x1_S1700000x64_1_0_0_1 (val_main_v81 (F := Ideal))
    (val_main_v82 (F := Ideal) e)
    (mulf (Host.gather gather_S100000x64_S1700000x1_S1700000x64_1_0_n_n_0_1_164 (h : FVec Ideal S100000x64 .f32)
      (val_main_v76 (F := Ideal) e)) (val_main_v79 (F := Ideal) e)) : FVec Ideal S100000x64 .f32)

/-- The constant added under the reciprocal square root. -/
abbrev epsW : EReal := Ideal.ofBits .f32 0x3727C5AC#32
/-- The node count as both programs spell it. -/
abbrev cntW : EReal := Ideal.ofBits .f32 0x47C35000#32

variable (x0 : (⟨S100000x128, .f32⟩ : BufTy).Contents (Elt Ideal)) (x1 : Edges)
  (x2 : (⟨S128x128, .f32⟩ : BufTy).Contents (Elt Ideal)) (x3 x4 x5 : (⟨S128, .f32⟩ : BufTy).Contents (Elt Ideal))
  (x6 : (⟨S128x64, .f32⟩ : BufTy).Contents (Elt Ideal)) (x7 x8 x9 : (⟨S64, .f32⟩ : BufTy).Contents (Elt Ideal))
  (x10 : (⟨S64x2, .f32⟩ : BufTy).Contents (Elt Ideal)) (x11 : (⟨S2, .f32⟩ : BufTy).Contents (Elt Ideal))

theorem s27 : val_main_v27 (F := Ideal) x0 x2 = mm (x0 : Mat 100000 128) (x2 : Mat 128 128) :=
  host_dot_eq_mm dot_S100000x128_S128x128_S100000x128_1_0_0_1_n_n rfl rfl rfl rfl rfl rfl x0 x2

theorem s40 : val_main_v40 (F := Ideal) x0 x1 x2 = agg1 x1 (mm (x0 : Mat 100000 128) (x2 : Mat 128 128)) :=
  (show val_main_v40 (F := Ideal) x0 x1 x2 = agg1 x1 (val_main_v27 (F := Ideal) x0 x2) from rfl).trans
    (congrArg (agg1 x1) (s27 x0 x2))

theorem s43 : val_main_v43 (F := Ideal) x0 x1 x2 x3
    = addRow (agg1 x1 (mm (x0 : Mat 100000 128) (x2 : Mat 128 128))) (row x3) :=
  (show val_main_v43 (F := Ideal) x0 x1 x2 x3
      = addf (val_main_v40 (F := Ideal) x0 x1 x2) (upRows bcast_S128_S1x128_1 bcast_S1x128_S100000x128_0_1 x3) from rfl).trans
    ((congrArg (fun t : FVec Ideal S100000x128 .f32 => addf t (upRows bcast_S128_S1x128_1 bcast_S1x128_S100000x128_0_1 x3))
        (s40 x0 x1 x2)).trans
      (host_addRow _ x3 bcast_S128_S1x128_1 bcast_S1x128_S100000x128_0_1))

set_option maxHeartbeats 4000000 in
theorem s69 : val_main_v69 (F := Ideal) x0 x1 x2 x3 x4 x5
    = bnCentered epsW cntW (addRow (agg1 x1 (mm (x0 : Mat 100000 128) (x2 : Mat 128 128))) (row x3)) (row x4) (row x5) :=
  (show val_main_v69 (F := Ideal) x0 x1 x2 x3 x4 x5
      = bnCentered epsW cntW (val_main_v43 (F := Ideal) x0 x1 x2 x3 : Mat 100000 128) (row x4) (row x5) from
    host_bnCentered (val_main_v43 (F := Ideal) x0 x1 x2 x3) x4 x5 0x00000000#32 0x47C35000#32 0x3727C5AC#32
      Cert.MeanVar.ofBits_zero reducesTo_S100000x128_S128_d0 (by decide) h_S_ bcast_S_S128 bcast_S_S100000x128
      bcast_S128_S1x128_1 bcast_S1x128_S100000x128_0_1).trans
    (congrArg (fun t : Mat 100000 128 => bnCentered epsW cntW t (row x4) (row x5)) (s43 x0 x1 x2 x3))

theorem s70 : val_main_v70 (F := Ideal) x0 x1 x2 x3 x4 x5 x6
    = mm (bnCentered epsW cntW (addRow (agg1 x1 (mm (x0 : Mat 100000 128) (x2 : Mat 128 128))) (row x3)) (row x4) (row x5))
        (x6 : Mat 128 64) :=
  (show val_main_v70 (F := Ideal) x0 x1 x2 x3 x4 x5 x6
      = mm (val_main_v69 (F := Ideal) x0 x1 x2 x3 x4 x5 : Mat 100000 128) (x6 : Mat 128 64) from
    host_dot_eq_mm dot_S100000x128_S128x64_S100000x64_1_0_0_1_n_n rfl rfl rfl rfl rfl rfl _ x6).trans
    (congrArg (fun t : Mat 100000 128 => mm t (x6 : Mat 128 64)) (s69 x0 x1 x2 x3 x4 x5))

theorem s83 : val_main_v83 (F := Ideal) x0 x1 x2 x3 x4 x5 x6
    = agg2 x1 (mm (bnCentered epsW cntW (addRow (agg1 x1 (mm (x0 : Mat 100000 128) (x2 : Mat 128 128))) (row x3)) (row x4) (row x5))
        (x6 : Mat 128 64)) :=
  (show val_main_v83 (F := Ideal) x0 x1 x2 x3 x4 x5 x6 = agg2 x1 (val_main_v70 (F := Ideal) x0 x1 x2 x3 x4 x5 x6) from rfl).trans
    (congrArg (agg2 x1) (s70 x0 x1 x2 x3 x4 x5 x6))

theorem s86 : val_main_v86 (F := Ideal) x0 x1 x2 x3 x4 x5 x6 x7
    = addRow (agg2 x1 (mm (bnCentered epsW cntW (addRow (agg1 x1 (mm (x0 : Mat 100000 128) (x2 : Mat 128 128))) (row x3))
        (row x4) (row x5)) (x6 : Mat 128 64))) (row x7) :=
  (show val_main_v86 (F := Ideal) x0 x1 x2 x3 x4 x5 x6 x7
      = addf (val_main_v83 (F := Ideal) x0 x1 x2 x3 x4 x5 x6) (upRows bcast_S64_S1x64_1 bcast_S1x64_S100000x64_0_1 x7) from rfl).trans
    ((congrArg (fun t : FVec Ideal S100000x64 .f32 => addf t (upRows bcast_S64_S1x64_1 bcast_S1x64_S100000x64_0_1 x7))
        (s83 x0 x1 x2 x3 x4 x5 x6)).trans
      (host_addRow _ x7 bcast_S64_S1x64_1 bcast_S1x64_S100000x64_0_1))

set_option maxHeartbeats 4000000 in
theorem s112 : val_main_v112 (F := Ideal) x0 x1 x2 x3 x4 x5 x6 x7 x8 x9
    = bnCentered epsW cntW (addRow (agg2 x1 (mm (bnCentered epsW cntW (addRow (agg1 x1 (mm (x0 : Mat 100000 128) (x2 : Mat 128 128)))
        (row x3)) (row x4) (row x5)) (x6 : Mat 128 64))) (row x7)) (row x8) (row x9) :=
  (show val_main_v112 (F := Ideal) x0 x1 x2 x3 x4 x5 x6 x7 x8 x9
      = bnCentered epsW cntW (val_main_v86 (F := Ideal) x0 x1 x2 x3 x4 x5 x6 x7 : Mat 100000 64) (row x8) (row x9) from
    host_bnCentered (val_main_v86 (F := Ideal) x0 x1 x2 x3 x4 x5 x6 x7) x8 x9 0x00000000#32 0x47C35000#32 0x3727C5AC#32
      Cert.MeanVar.ofBits_zero reducesTo_S100000x64_S64_d0 (by decide) h_S_ bcast_S_S64 bcast_S_S100000x64
      bcast_S64_S1x64_1 bcast_S1x64_S100000x64_0_1).trans
    (congrArg (fun t : Mat 100000 64 => bnCentered epsW cntW t (row x8) (row x9)) (s86 x0 x1 x2 x3 x4 x5 x6 x7))

/-- The reference's result is the network in the reference's arrangement. -/
theorem result_eq : val_main_v116 (F := Ideal) x0 x1 x2 x3 x4 x5 x6 x7 x8 x9 x10 x11
    = netR (agg1 x1) (agg2 x1) epsW cntW (x0 : Mat 100000 128) (x2 : Mat 128 128) (row x3) (row x4) (row x5) (x6 : Mat 128 64)
        (row x7) (row x8) (row x9) (x10 : Mat 64 2) (row x11) :=
  (show val_main_v116 (F := Ideal) x0 x1 x2 x3 x4 x5 x6 x7 x8 x9 x10 x11
      = dense (val_main_v112 (F := Ideal) x0 x1 x2 x3 x4 x5 x6 x7 x8 x9 : Mat 100000 64) (x10 : Mat 64 2) (row x11) from
    host_dense dot_S100000x64_S64x2_S100000x2_1_0_0_1_n_n rfl rfl rfl rfl rfl rfl _ x10 x11
      bcast_S2_S1x2_1 bcast_S1x2_S100000x2_0_1).trans
    (congrArg (fun t : Mat 100000 64 => dense t (x10 : Mat 64 2) (row x11)) (s112 x0 x1 x2 x3 x4 x5 x6 x7 x8 x9))

end Cert.RefSpec

end
-- ==== Proof.KChain.lean ====
/-
  The idealized kernel program's result as the network of the specification in the kernel's arrangement.

  The program alternates stretches of host operations with seven pipelined regions.  Walking the buffer contents
  from the launch to the return: the edge list's index arrays and edge weights are the reference's; each affine region
  leaves a dense layer of its input array; each statistics region the column sums and sums of squares of its input
  plus the bias row; each normalisation region the normalised, rectified array; the host stretches between them
  aggregate over the neighbourhoods and turn the two sums into the mean and the variance.
-/
import proofs.«166389_j81088982548949_1_alg».proof.Proof.Gen.KernelIdeal.Frame
import proofs.«166389_j81088982548949_1_alg».proof.Proof.RefSpec
import Idealize.ShloMosaic.Lib.StableHlo.Run

set_option maxRecDepth 16384

noncomputable section

namespace Cert.KernelIdeal.Chain

open Cert.KernelIdeal Cert.KernelIdeal.Gen Cert.Spec Cert.RefSpec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A buffer that no operation of a host stretch writes keeps its contents over the stretch. -/
macro "host_keeps" : tactic => `(tactic|
  exact StableHlo.after_of_forall_not_mem _ _ (List.forall_iff_forall_mem.mp (by
    simp only [hostOps0, hostOps1, hostOps2, hostOps3, hostOps4, hostOps5, hostOps6, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The edge list as launched. -/
abbrev edges : Edges := m ((c : Thread nD τ).loc main_arg1)

/-! ## Before the first region: the sources, the destinations and the edge weights -/

set_option maxHeartbeats 8000000 in
theorem W1_v3 : W1 m ρ c (Proc.devRef .tc main_v3) = Cert.ReferenceIdeal.Read.val_main_v3 (F := Ideal) (edges m c) := by
  show StableHlo.after hostOps0 (W0 m ρ c) (Proc.devRef .tc main_v3) = _
  after_results_simp
  rfl

set_option maxHeartbeats 8000000 in
theorem W1_v6 : W1 m ρ c (Proc.devRef .tc main_v6) = Cert.ReferenceIdeal.Read.val_main_v6 (F := Ideal) (edges m c) := by
  show StableHlo.after hostOps0 (W0 m ρ c) (Proc.devRef .tc main_v6) = _
  after_results_simp
  rfl

set_option maxHeartbeats 8000000 in
theorem W1_v26 : W1 m ρ c (Proc.devRef .tc main_v26) = Cert.ReferenceIdeal.Read.val_main_v26 (F := Ideal) (edges m c) := by
  show StableHlo.after hostOps0 (W0 m ρ c) (Proc.devRef .tc main_v26) = _
  after_results_simp
  rfl

set_option maxHeartbeats 8000000 in
/-- The first affine region's bias: zeros reshaped to one row. -/
theorem W1_v28 : W1 m ρ c (Proc.devRef .tc main_v28) = zeroRow 128 := by
  show StableHlo.after hostOps0 (W0 m ρ c) (Proc.devRef .tc main_v28) = _
  after_results_simp
  show shapeCast S1x128 (broadcastInDim S128 ![] bcast_S_S128 (constant (F := Ideal) S_ .f32 0x00000000#32)) shapeCasts_S128_S1x128 = _
  rw [shapeCast_row]
  funext j
  show broadcastInDim S128 ![] bcast_S_S128 (constant (F := Ideal) S_ .f32 0x00000000#32) (ix1 (j 1)) = 0
  rw [broadcastInDim_scalar_apply]
  exact Cert.MeanVar.ofBits_zero

theorem W1_arg0 : W1 m ρ c (Proc.devRef .tc main_arg0) = m ((c : Thread nD τ).loc main_arg0) := by
  refine Eq.trans (b := W0 m ρ c (Proc.devRef .tc main_arg0)) ?_ rfl
  host_keeps

theorem W1_arg2 : W1 m ρ c (Proc.devRef .tc main_arg2) = m ((c : Thread nD τ).loc main_arg2) := by
  refine Eq.trans (b := W0 m ρ c (Proc.devRef .tc main_arg2)) ?_ rfl
  host_keeps

/-! ## What the regions leave, as hypotheses: one equation per output array, at any entry contents -/

set_option maxHeartbeats 8000000 in
/-- The value of each region's output arrays at the region's exit, as a function of its input arrays at entry. -/
structure RegionFacts : Prop where
  arr0 : ∀ (V : (c : Dev nD) → (b : Ref sig .tc) → Buf (Elt Ideal) ((c : Thread nD τ).loc b)) (c : Dev nD),
    (dat0 (F := Ideal) V c).arrAt 3 cfg0.N = dense (V c (Pipeline.arrRef spec0 0) : Mat 100000 128)
      (V c (Pipeline.arrRef spec0 1) : Mat 128 128) (V c (Pipeline.arrRef spec0 2) : Mat 1 128)
  sum1 : ∀ (V : (c : Dev nD) → (b : Ref sig .tc) → Buf (Elt Ideal) ((c : Thread nD τ).loc b)) (c : Dev nD),
    (dat1 (F := Ideal) V c).arrAt 2 cfg1.N = colSum (addRow (V c (Pipeline.arrRef spec1 0) : Mat 100000 128)
      (V c (Pipeline.arrRef spec1 1) : Mat 1 128))
  sumsq1 : ∀ (V : (c : Dev nD) → (b : Ref sig .tc) → Buf (Elt Ideal) ((c : Thread nD τ).loc b)) (c : Dev nD),
    (dat1 (F := Ideal) V c).arrAt 3 cfg1.N = colSumSq (addRow (V c (Pipeline.arrRef spec1 0) : Mat 100000 128)
      (V c (Pipeline.arrRef spec1 1) : Mat 1 128))
  arr2 : ∀ (V : (c : Dev nD) → (b : Ref sig .tc) → Buf (Elt Ideal) ((c : Thread nD τ).loc b)) (c : Dev nD),
    (dat2 (F := Ideal) V c).arrAt 6 cfg2.N = bnRelu epsW (addRow (V c (Pipeline.arrRef spec2 0) : Mat 100000 128)
      (V c (Pipeline.arrRef spec2 1) : Mat 1 128)) (V c (Pipeline.arrRef spec2 2) : Mat 1 128)
      (V c (Pipeline.arrRef spec2 3) : Mat 1 128) (V c (Pipeline.arrRef spec2 4) : Mat 1 128)
      (V c (Pipeline.arrRef spec2 5) : Mat 1 128)
  arr3 : ∀ (V : (c : Dev nD) → (b : Ref sig .tc) → Buf (Elt Ideal) ((c : Thread nD τ).loc b)) (c : Dev nD),
    (dat3 (F := Ideal) V c).arrAt 3 cfg3.N = dense (V c (Pipeline.arrRef spec3 0) : Mat 100000 128)
      (V c (Pipeline.arrRef spec3 1) : Mat 128 64) (V c (Pipeline.arrRef spec3 2) : Mat 1 64)
  sum4 : ∀ (V : (c : Dev nD) → (b : Ref sig .tc) → Buf (Elt Ideal) ((c : Thread nD τ).loc b)) (c : Dev nD),
    (dat4 (F := Ideal) V c).arrAt 2 cfg4.N = colSum (addRow (V c (Pipeline.arrRef spec4 0) : Mat 100000 64)
      (V c (Pipeline.arrRef spec4 1) : Mat 1 64))
  sumsq4 : ∀ (V : (c : Dev nD) → (b : Ref sig .tc) → Buf (Elt Ideal) ((c : Thread nD τ).loc b)) (c : Dev nD),
    (dat4 (F := Ideal) V c).arrAt 3 cfg4.N = colSumSq (addRow (V c (Pipeline.arrRef spec4 0) : Mat 100000 64)
      (V c (Pipeline.arrRef spec4 1) : Mat 1 64))
  arr5 : ∀ (V : (c : Dev nD) → (b : Ref sig .tc) → Buf (Elt Ideal) ((c : Thread nD τ).loc b)) (c : Dev nD),
    (dat5 (F := Ideal) V c).arrAt 6 cfg5.N = bnRelu epsW (addRow (V c (Pipeline.arrRef spec5 0) : Mat 100000 64)
      (V c (Pipeline.arrRef spec5 1) : Mat 1 64)) (V c (Pipeline.arrRef spec5 2) : Mat 1 64)
      (V c (Pipeline.arrRef spec5 3) : Mat 1 64) (V c (Pipeline.arrRef spec5 4) : Mat 1 64)
      (V c (Pipeline.arrRef spec5 5) : Mat 1 64)
  arr6 : ∀ (V : (c : Dev nD) → (b : Ref sig .tc) → Buf (Elt Ideal) ((c : Thread nD τ).loc b)) (c : Dev nD),
    (dat6 (F := Ideal) V c).arrAt 3 cfg6.N = dense (V c (Pipeline.arrRef spec6 0) : Mat 100000 64)
      (V c (Pipeline.arrRef spec6 1) : Mat 64 2) (V c (Pipeline.arrRef spec6 2) : Mat 1 2)

variable (R : RegionFacts)

/-! ## Layer 1 -/

/-- The arguments as launched, for short. -/
abbrev a0 : Mat 100000 128 := m ((c : Thread nD τ).loc main_arg0)
abbrev a2 : Mat 128 128 := m ((c : Thread nD τ).loc main_arg2)
abbrev a3 : (⟨1, ![128]⟩ : Shape).Idx → EReal := m ((c : Thread nD τ).loc main_arg3)
abbrev a4 : (⟨1, ![128]⟩ : Shape).Idx → EReal := m ((c : Thread nD τ).loc main_arg4)
abbrev a5 : (⟨1, ![128]⟩ : Shape).Idx → EReal := m ((c : Thread nD τ).loc main_arg5)
abbrev a6 : Mat 128 64 := m ((c : Thread nD τ).loc main_arg6)
abbrev a7 : (⟨1, ![64]⟩ : Shape).Idx → EReal := m ((c : Thread nD τ).loc main_arg7)
abbrev a8 : (⟨1, ![64]⟩ : Shape).Idx → EReal := m ((c : Thread nD τ).loc main_arg8)
abbrev a9 : (⟨1, ![64]⟩ : Shape).Idx → EReal := m ((c : Thread nD τ).loc main_arg9)
abbrev a10 : Mat 64 2 := m ((c : Thread nD τ).loc main_arg10)
abbrev a11 : (⟨1, ![2]⟩ : Shape).Idx → EReal := m ((c : Thread nD τ).loc main_arg11)

/-- The first product. -/
abbrev h1pre : Mat 100000 128 := dense (a0 m c) (a2 m c) (zeroRow 128)

include R in
theorem W2_v29 : W2 m ρ c (Proc.devRef .tc main_v29) = h1pre m c := by
  refine ((W2_arr m ρ c 3).trans (R.arr0 (V1 m ρ) c)).trans ?_
  show dense (W1 m ρ c (Proc.devRef .tc main_arg0)) (W1 m ρ c (Proc.devRef .tc main_arg2))
    (W1 m ρ c (Proc.devRef .tc main_v28)) = _
  rw [W1_arg0, W1_arg2, W1_v28]

theorem W2_v3 : W2 m ρ c (Proc.devRef .tc main_v3) = Cert.ReferenceIdeal.Read.val_main_v3 (F := Ideal) (edges m c) :=
  (W2_of_ne m ρ c main_v3 (by decide)).trans (W1_v3 m ρ c)
theorem W2_v6 : W2 m ρ c (Proc.devRef .tc main_v6) = Cert.ReferenceIdeal.Read.val_main_v6 (F := Ideal) (edges m c) :=
  (W2_of_ne m ρ c main_v6 (by decide)).trans (W1_v6 m ρ c)
theorem W2_v26 : W2 m ρ c (Proc.devRef .tc main_v26) = Cert.ReferenceIdeal.Read.val_main_v26 (F := Ideal) (edges m c) :=
  (W2_of_ne m ρ c main_v26 (by decide)).trans (W1_v26 m ρ c)

theorem W2_arg (b : Ref sig .tc) (hb : ∀ w, Pipeline.arrRef spec0 w ≠ b)
    (h0 : W1 m ρ c (Proc.devRef .tc b) = W0 m ρ c (Proc.devRef .tc b)) :
    W2 m ρ c (Proc.devRef .tc b) = W0 m ρ c (Proc.devRef .tc b) :=
  (W2_of_ne m ρ c b hb).trans h0

theorem W2_arg3 : W2 m ρ c (Proc.devRef .tc main_arg3) = m ((c : Thread nD τ).loc main_arg3) :=
  W2_arg m ρ c main_arg3 (by decide) (by host_keeps)

include R in
set_option maxHeartbeats 8000000 in
/-- The first aggregation. -/
theorem W3_v42 : W3 m ρ c (Proc.devRef .tc main_v42) = agg1 (edges m c) (h1pre m c) := by
  show StableHlo.after hostOps1 (W2 m ρ c) (Proc.devRef .tc main_v42) = _
  after_results_simp
  rw [W2_v3, W2_v6, W2_v26, W2_v29 m ρ c R]
  rfl

set_option maxHeartbeats 8000000 in
theorem W3_v43 : W3 m ρ c (Proc.devRef .tc main_v43) = row (a3 m c) := by
  show StableHlo.after hostOps1 (W2 m ρ c) (Proc.devRef .tc main_v43) = _
  after_results_simp
  rw [W2_arg3]
  exact shapeCast_row _ _

/-! ## Layer 1: the statistics, the normalisation -/

/-- The first layer before normalisation: the aggregated product plus the bias row. -/
abbrev y1 : Mat 100000 128 := addRow (agg1 (edges m c) (h1pre m c)) (row (a3 m c))

include R in
theorem W4_sum : W4 m ρ c (Proc.devRef .tc main_v44_0) = colSum (y1 m c) := by
  refine ((W4_arr m ρ c 2).trans (R.sum1 (V3 m ρ) c)).trans ?_
  show colSum (addRow (W3 m ρ c (Proc.devRef .tc main_v42)) (W3 m ρ c (Proc.devRef .tc main_v43))) = _
  rw [W3_v42 m ρ c R, W3_v43]

include R in
theorem W4_sumsq : W4 m ρ c (Proc.devRef .tc main_v44_1) = colSumSq (y1 m c) := by
  refine ((W4_arr m ρ c 3).trans (R.sumsq1 (V3 m ρ) c)).trans ?_
  show colSumSq (addRow (W3 m ρ c (Proc.devRef .tc main_v42)) (W3 m ρ c (Proc.devRef .tc main_v43))) = _
  rw [W3_v42 m ρ c R, W3_v43]

theorem W4_arg3 : W4 m ρ c (Proc.devRef .tc main_arg3) = m ((c : Thread nD τ).loc main_arg3) :=
  ((W4_of_ne m ρ c main_arg3 (by decide))).trans (
    ((by host_keeps : W3 m ρ c (Proc.devRef .tc main_arg3) = W2 m ρ c (Proc.devRef .tc main_arg3))).trans (
    W2_arg3 m ρ c))
theorem W4_arg4 : W4 m ρ c (Proc.devRef .tc main_arg4) = m ((c : Thread nD τ).loc main_arg4) :=
  ((W4_of_ne m ρ c main_arg4 (by decide))).trans (
    ((by host_keeps : W3 m ρ c (Proc.devRef .tc main_arg4) = W2 m ρ c (Proc.devRef .tc main_arg4))).trans (
    ((W2_of_ne m ρ c main_arg4 (by decide))).trans (
    ((by host_keeps : W1 m ρ c (Proc.devRef .tc main_arg4) = W0 m ρ c (Proc.devRef .tc main_arg4))).trans (
    rfl))))
theorem W4_arg5 : W4 m ρ c (Proc.devRef .tc main_arg5) = m ((c : Thread nD τ).loc main_arg5) :=
  ((W4_of_ne m ρ c main_arg5 (by decide))).trans (
    ((by host_keeps : W3 m ρ c (Proc.devRef .tc main_arg5) = W2 m ρ c (Proc.devRef .tc main_arg5))).trans (
    ((W2_of_ne m ρ c main_arg5 (by decide))).trans (
    ((by host_keeps : W1 m ρ c (Proc.devRef .tc main_arg5) = W0 m ρ c (Proc.devRef .tc main_arg5))).trans (
    rfl))))

/-- An input array of the first statistics region is as it was entered. -/
theorem W4_v42 : W4 m ρ c (Proc.devRef .tc main_v42) = W3 m ρ c (Proc.devRef .tc main_v42) :=
  (W4_arr m ρ c 0).trans (((dat1 (V3 m ρ) c).arrAt_in 0 rfl _).trans (A_eq1 (V3 m ρ) c 0))

include R in
set_option maxHeartbeats 8000000 in
theorem W5_v46 : W5 m ρ c (Proc.devRef .tc main_v46) = colMean cntW (y1 m c) := by
  show StableHlo.after hostOps2 (W4 m ρ c) (Proc.devRef .tc main_v46) = _
  after_results_simp
  rw [W4_sum m ρ c R]
  funext j
  show Ideal.div (colSum (y1 m c) j) _ = Ideal.div (colSum (y1 m c) j) cntW
  rw [broadcastInDim_scalar_apply]
  rfl

include R in
set_option maxHeartbeats 8000000 in
theorem W5_v50 : W5 m ρ c (Proc.devRef .tc main_v50) = varStats cntW (y1 m c) := by
  show StableHlo.after hostOps2 (W4 m ρ c) (Proc.devRef .tc main_v50) = _
  after_results_simp
  rw [W4_sum m ρ c R, W4_sumsq m ρ c R]
  funext j
  show Ideal.div (colSumSq (y1 m c) j) _ - Ideal.div (colSum (y1 m c) j) _ * Ideal.div (colSum (y1 m c) j) _
    = Ideal.div (colSumSq (y1 m c) j) cntW - Ideal.div (colSum (y1 m c) j) cntW * Ideal.div (colSum (y1 m c) j) cntW
  rw [broadcastInDim_scalar_apply]
  rfl

set_option maxHeartbeats 8000000 in
theorem W5_v51 : W5 m ρ c (Proc.devRef .tc main_v51) = row (a3 m c) := by
  show StableHlo.after hostOps2 (W4 m ρ c) (Proc.devRef .tc main_v51) = _
  after_results_simp
  rw [W4_arg3]
  exact shapeCast_row _ _
set_option maxHeartbeats 8000000 in
theorem W5_v52 : W5 m ρ c (Proc.devRef .tc main_v52) = row (a4 m c) := by
  show StableHlo.after hostOps2 (W4 m ρ c) (Proc.devRef .tc main_v52) = _
  after_results_simp
  rw [W4_arg4]
  exact shapeCast_row _ _
set_option maxHeartbeats 8000000 in
theorem W5_v53 : W5 m ρ c (Proc.devRef .tc main_v53) = row (a5 m c) := by
  show StableHlo.after hostOps2 (W4 m ρ c) (Proc.devRef .tc main_v53) = _
  after_results_simp
  rw [W4_arg5]
  exact shapeCast_row _ _

include R in
theorem W5_v42 : W5 m ρ c (Proc.devRef .tc main_v42) = agg1 (edges m c) (h1pre m c) :=
  ((by host_keeps : W5 m ρ c (Proc.devRef .tc main_v42) = W4 m ρ c (Proc.devRef .tc main_v42))).trans ((W4_v42 m ρ c).trans (W3_v42 m ρ c R))

/-- The first layer's output: normalised with the variance from the two sums, rectified. -/
abbrev h1 : Mat 100000 128 := bnStats epsW cntW (y1 m c) (row (a4 m c)) (row (a5 m c))

include R in
theorem W6_v54 : W6 m ρ c (Proc.devRef .tc main_v54) = h1 m c := by
  refine ((W6_arr m ρ c 6).trans (R.arr2 (V5 m ρ) c)).trans ?_
  show bnRelu epsW (addRow (W5 m ρ c (Proc.devRef .tc main_v42)) (W5 m ρ c (Proc.devRef .tc main_v51)))
    (W5 m ρ c (Proc.devRef .tc main_v46)) (W5 m ρ c (Proc.devRef .tc main_v50))
    (W5 m ρ c (Proc.devRef .tc main_v52)) (W5 m ρ c (Proc.devRef .tc main_v53)) = _
  rw [W5_v42 m ρ c R, W5_v51, W5_v46 m ρ c R, W5_v50 m ρ c R, W5_v52, W5_v53]
  rfl

/-! ## Layer 2 -/

set_option maxHeartbeats 8000000 in
/-- The second affine region's bias: zeros reshaped to one row. -/
theorem W7_v56 : W7 m ρ c (Proc.devRef .tc main_v56) = zeroRow 64 := by
  show StableHlo.after hostOps3 (W6 m ρ c) (Proc.devRef .tc main_v56) = _
  after_results_simp
  show shapeCast S1x64 (broadcastInDim S64 ![] bcast_S_S64 (constant (F := Ideal) S_ .f32 0x00000000#32)) shapeCasts_S64_S1x64 = _
  rw [shapeCast_row]
  funext j
  show broadcastInDim S64 ![] bcast_S_S64 (constant (F := Ideal) S_ .f32 0x00000000#32) (ix1 (j 1)) = 0
  rw [broadcastInDim_scalar_apply]
  exact Cert.MeanVar.ofBits_zero

include R in
theorem W7_v54 : W7 m ρ c (Proc.devRef .tc main_v54) = h1 m c :=
  ((by host_keeps : W7 m ρ c (Proc.devRef .tc main_v54) = W6 m ρ c (Proc.devRef .tc main_v54))).trans (W6_v54 m ρ c R)

theorem W7_arg6 : W7 m ρ c (Proc.devRef .tc main_arg6) = m ((c : Thread nD τ).loc main_arg6) :=
  ((by host_keeps : W7 m ρ c (Proc.devRef .tc main_arg6) = W6 m ρ c (Proc.devRef .tc main_arg6))).trans (
    ((W6_of_ne m ρ c main_arg6 (by decide))).trans (
    ((by host_keeps : W5 m ρ c (Proc.devRef .tc main_arg6) = W4 m ρ c (Proc.devRef .tc main_arg6))).trans (
    ((W4_of_ne m ρ c main_arg6 (by decide))).trans (
    ((by host_keeps : W3 m ρ c (Proc.devRef .tc main_arg6) = W2 m ρ c (Proc.devRef .tc main_arg6))).trans (
    ((W2_of_ne m ρ c main_arg6 (by decide))).trans (
    ((by host_keeps : W1 m ρ c (Proc.devRef .tc main_arg6) = W0 m ρ c (Proc.devRef .tc main_arg6))).trans (
    rfl)))))))

/-- The second product. -/
abbrev h2pre : Mat 100000 64 := dense (h1 m c) (a6 m c) (zeroRow 64)

include R in
theorem W8_v57 : W8 m ρ c (Proc.devRef .tc main_v57) = h2pre m c := by
  refine ((W8_arr m ρ c 3).trans (R.arr3 (V7 m ρ) c)).trans ?_
  show dense (W7 m ρ c (Proc.devRef .tc main_v54)) (W7 m ρ c (Proc.devRef .tc main_arg6))
    (W7 m ρ c (Proc.devRef .tc main_v56)) = _
  rw [W7_v54 m ρ c R, W7_arg6, W7_v56]

theorem W8_v3 : W8 m ρ c (Proc.devRef .tc main_v3) = Cert.ReferenceIdeal.Read.val_main_v3 (F := Ideal) (edges m c) :=
  ((W8_of_ne m ρ c main_v3 (by decide))).trans (
    ((by host_keeps : W7 m ρ c (Proc.devRef .tc main_v3) = W6 m ρ c (Proc.devRef .tc main_v3))).trans (
    ((W6_of_ne m ρ c main_v3 (by decide))).trans (
    ((by host_keeps : W5 m ρ c (Proc.devRef .tc main_v3) = W4 m ρ c (Proc.devRef .tc main_v3))).trans (
    ((W4_of_ne m ρ c main_v3 (by decide))).trans (
    ((by host_keeps : W3 m ρ c (Proc.devRef .tc main_v3) = W2 m ρ c (Proc.devRef .tc main_v3))).trans (
    W2_v3 m ρ c))))))
theorem W8_v6 : W8 m ρ c (Proc.devRef .tc main_v6) = Cert.ReferenceIdeal.Read.val_main_v6 (F := Ideal) (edges m c) :=
  ((W8_of_ne m ρ c main_v6 (by decide))).trans (
    ((by host_keeps : W7 m ρ c (Proc.devRef .tc main_v6) = W6 m ρ c (Proc.devRef .tc main_v6))).trans (
    ((W6_of_ne m ρ c main_v6 (by decide))).trans (
    ((by host_keeps : W5 m ρ c (Proc.devRef .tc main_v6) = W4 m ρ c (Proc.devRef .tc main_v6))).trans (
    ((W4_of_ne m ρ c main_v6 (by decide))).trans (
    ((by host_keeps : W3 m ρ c (Proc.devRef .tc main_v6) = W2 m ρ c (Proc.devRef .tc main_v6))).trans (
    W2_v6 m ρ c))))))
theorem W8_v26 : W8 m ρ c (Proc.devRef .tc main_v26) = Cert.ReferenceIdeal.Read.val_main_v26 (F := Ideal) (edges m c) :=
  ((W8_of_ne m ρ c main_v26 (by decide))).trans (
    ((by host_keeps : W7 m ρ c (Proc.devRef .tc main_v26) = W6 m ρ c (Proc.devRef .tc main_v26))).trans (
    ((W6_of_ne m ρ c main_v26 (by decide))).trans (
    ((by host_keeps : W5 m ρ c (Proc.devRef .tc main_v26) = W4 m ρ c (Proc.devRef .tc main_v26))).trans (
    ((W4_of_ne m ρ c main_v26 (by decide))).trans (
    ((by host_keeps : W3 m ρ c (Proc.devRef .tc main_v26) = W2 m ρ c (Proc.devRef .tc main_v26))).trans (
    W2_v26 m ρ c))))))
theorem W8_arg7 : W8 m ρ c (Proc.devRef .tc main_arg7) = m ((c : Thread nD τ).loc main_arg7) :=
  ((W8_of_ne m ρ c main_arg7 (by decide))).trans (
    ((by host_keeps : W7 m ρ c (Proc.devRef .tc main_arg7) = W6 m ρ c (Proc.devRef .tc main_arg7))).trans (
    ((W6_of_ne m ρ c main_arg7 (by decide))).trans (
    ((by host_keeps : W5 m ρ c (Proc.devRef .tc main_arg7) = W4 m ρ c (Proc.devRef .tc main_arg7))).trans (
    ((W4_of_ne m ρ c main_arg7 (by decide))).trans (
    ((by host_keeps : W3 m ρ c (Proc.devRef .tc main_arg7) = W2 m ρ c (Proc.devRef .tc main_arg7))).trans (
    ((W2_of_ne m ρ c main_arg7 (by decide))).trans (
    ((by host_keeps : W1 m ρ c (Proc.devRef .tc main_arg7) = W0 m ρ c (Proc.devRef .tc main_arg7))).trans (
    rfl))))))))

include R in
set_option maxHeartbeats 8000000 in
/-- The second aggregation. -/
theorem W9_v70 : W9 m ρ c (Proc.devRef .tc main_v70) = agg2 (edges m c) (h2pre m c) := by
  show StableHlo.after hostOps4 (W8 m ρ c) (Proc.devRef .tc main_v70) = _
  after_results_simp
  rw [W8_v3, W8_v6, W8_v26, W8_v57 m ρ c R]
  rfl

set_option maxHeartbeats 8000000 in
theorem W9_v71 : W9 m ρ c (Proc.devRef .tc main_v71) = row (a7 m c) := by
  show StableHlo.after hostOps4 (W8 m ρ c) (Proc.devRef .tc main_v71) = _
  after_results_simp
  rw [W8_arg7]
  exact shapeCast_row _ _

/-- The second layer before normalisation. -/
abbrev y2 : Mat 100000 64 := addRow (agg2 (edges m c) (h2pre m c)) (row (a7 m c))

include R in
theorem W10_sum : W10 m ρ c (Proc.devRef .tc main_v72_0) = colSum (y2 m c) := by
  refine ((W10_arr m ρ c 2).trans (R.sum4 (V9 m ρ) c)).trans ?_
  show colSum (addRow (W9 m ρ c (Proc.devRef .tc main_v70)) (W9 m ρ c (Proc.devRef .tc main_v71))) = _
  rw [W9_v70 m ρ c R, W9_v71]

include R in
theorem W10_sumsq : W10 m ρ c (Proc.devRef .tc main_v72_1) = colSumSq (y2 m c) := by
  refine ((W10_arr m ρ c 3).trans (R.sumsq4 (V9 m ρ) c)).trans ?_
  show colSumSq (addRow (W9 m ρ c (Proc.devRef .tc main_v70)) (W9 m ρ c (Proc.devRef .tc main_v71))) = _
  rw [W9_v70 m ρ c R, W9_v71]

theorem W10_arg7 : W10 m ρ c (Proc.devRef .tc main_arg7) = m ((c : Thread nD τ).loc main_arg7) :=
  ((W10_of_ne m ρ c main_arg7 (by decide))).trans (
    ((by host_keeps : W9 m ρ c (Proc.devRef .tc main_arg7) = W8 m ρ c (Proc.devRef .tc main_arg7))).trans (
    W8_arg7 m ρ c))
theorem W10_arg8 : W10 m ρ c (Proc.devRef .tc main_arg8) = m ((c : Thread nD τ).loc main_arg8) :=
  ((W10_of_ne m ρ c main_arg8 (by decide))).trans (
    ((by host_keeps : W9 m ρ c (Proc.devRef .tc main_arg8) = W8 m ρ c (Proc.devRef .tc main_arg8))).trans (
    ((W8_of_ne m ρ c main_arg8 (by decide))).trans (
    ((by host_keeps : W7 m ρ c (Proc.devRef .tc main_arg8) = W6 m ρ c (Proc.devRef .tc main_arg8))).trans (
    ((W6_of_ne m ρ c main_arg8 (by decide))).trans (
    ((by host_keeps : W5 m ρ c (Proc.devRef .tc main_arg8) = W4 m ρ c (Proc.devRef .tc main_arg8))).trans (
    ((W4_of_ne m ρ c main_arg8 (by decide))).trans (
    ((by host_keeps : W3 m ρ c (Proc.devRef .tc main_arg8) = W2 m ρ c (Proc.devRef .tc main_arg8))).trans (
    ((W2_of_ne m ρ c main_arg8 (by decide))).trans (
    ((by host_keeps : W1 m ρ c (Proc.devRef .tc main_arg8) = W0 m ρ c (Proc.devRef .tc main_arg8))).trans (
    rfl))))))))))
theorem W10_arg9 : W10 m ρ c (Proc.devRef .tc main_arg9) = m ((c : Thread nD τ).loc main_arg9) :=
  ((W10_of_ne m ρ c main_arg9 (by decide))).trans (
    ((by host_keeps : W9 m ρ c (Proc.devRef .tc main_arg9) = W8 m ρ c (Proc.devRef .tc main_arg9))).trans (
    ((W8_of_ne m ρ c main_arg9 (by decide))).trans (
    ((by host_keeps : W7 m ρ c (Proc.devRef .tc main_arg9) = W6 m ρ c (Proc.devRef .tc main_arg9))).trans (
    ((W6_of_ne m ρ c main_arg9 (by decide))).trans (
    ((by host_keeps : W5 m ρ c (Proc.devRef .tc main_arg9) = W4 m ρ c (Proc.devRef .tc main_arg9))).trans (
    ((W4_of_ne m ρ c main_arg9 (by decide))).trans (
    ((by host_keeps : W3 m ρ c (Proc.devRef .tc main_arg9) = W2 m ρ c (Proc.devRef .tc main_arg9))).trans (
    ((W2_of_ne m ρ c main_arg9 (by decide))).trans (
    ((by host_keeps : W1 m ρ c (Proc.devRef .tc main_arg9) = W0 m ρ c (Proc.devRef .tc main_arg9))).trans (
    rfl))))))))))

theorem W10_v70 : W10 m ρ c (Proc.devRef .tc main_v70) = W9 m ρ c (Proc.devRef .tc main_v70) :=
  (W10_arr m ρ c 0).trans (((dat4 (V9 m ρ) c).arrAt_in 0 rfl _).trans (A_eq4 (V9 m ρ) c 0))

include R in
set_option maxHeartbeats 8000000 in
theorem W11_v74 : W11 m ρ c (Proc.devRef .tc main_v74) = colMean cntW (y2 m c) := by
  show StableHlo.after hostOps5 (W10 m ρ c) (Proc.devRef .tc main_v74) = _
  after_results_simp
  rw [W10_sum m ρ c R]
  funext j
  show Ideal.div (colSum (y2 m c) j) _ = Ideal.div (colSum (y2 m c) j) cntW
  rw [broadcastInDim_scalar_apply]
  rfl

include R in
set_option maxHeartbeats 8000000 in
theorem W11_v78 : W11 m ρ c (Proc.devRef .tc main_v78) = varStats cntW (y2 m c) := by
  show StableHlo.after hostOps5 (W10 m ρ c) (Proc.devRef .tc main_v78) = _
  after_results_simp
  rw [W10_sum m ρ c R, W10_sumsq m ρ c R]
  funext j
  show Ideal.div (colSumSq (y2 m c) j) _ - Ideal.div (colSum (y2 m c) j) _ * Ideal.div (colSum (y2 m c) j) _
    = Ideal.div (colSumSq (y2 m c) j) cntW - Ideal.div (colSum (y2 m c) j) cntW * Ideal.div (colSum (y2 m c) j) cntW
  rw [broadcastInDim_scalar_apply]
  rfl

set_option maxHeartbeats 8000000 in
theorem W11_v79 : W11 m ρ c (Proc.devRef .tc main_v79) = row (a7 m c) := by
  show StableHlo.after hostOps5 (W10 m ρ c) (Proc.devRef .tc main_v79) = _
  after_results_simp
  rw [W10_arg7]
  exact shapeCast_row _ _
set_option maxHeartbeats 8000000 in
theorem W11_v80 : W11 m ρ c (Proc.devRef .tc main_v80) = row (a8 m c) := by
  show StableHlo.after hostOps5 (W10 m ρ c) (Proc.devRef .tc main_v80) = _
  after_results_simp
  rw [W10_arg8]
  exact shapeCast_row _ _
set_option maxHeartbeats 8000000 in
theorem W11_v81 : W11 m ρ c (Proc.devRef .tc main_v81) = row (a9 m c) := by
  show StableHlo.after hostOps5 (W10 m ρ c) (Proc.devRef .tc main_v81) = _
  after_results_simp
  rw [W10_arg9]
  exact shapeCast_row _ _

include R in
theorem W11_v70 : W11 m ρ c (Proc.devRef .tc main_v70) = agg2 (edges m c) (h2pre m c) :=
  ((by host_keeps : W11 m ρ c (Proc.devRef .tc main_v70) = W10 m ρ c (Proc.devRef .tc main_v70))).trans ((W10_v70 m ρ c).trans (W9_v70 m ρ c R))

/-- The second layer's output. -/
abbrev h2 : Mat 100000 64 := bnStats epsW cntW (y2 m c) (row (a8 m c)) (row (a9 m c))

include R in
theorem W12_v82 : W12 m ρ c (Proc.devRef .tc main_v82) = h2 m c := by
  refine ((W12_arr m ρ c 6).trans (R.arr5 (V11 m ρ) c)).trans ?_
  show bnRelu epsW (addRow (W11 m ρ c (Proc.devRef .tc main_v70)) (W11 m ρ c (Proc.devRef .tc main_v79)))
    (W11 m ρ c (Proc.devRef .tc main_v74)) (W11 m ρ c (Proc.devRef .tc main_v78))
    (W11 m ρ c (Proc.devRef .tc main_v80)) (W11 m ρ c (Proc.devRef .tc main_v81)) = _
  rw [W11_v70 m ρ c R, W11_v79, W11_v74 m ρ c R, W11_v78 m ρ c R, W11_v80, W11_v81]
  rfl

/-! ## The classifier -/

theorem W12_arg11 : W12 m ρ c (Proc.devRef .tc main_arg11) = m ((c : Thread nD τ).loc main_arg11) :=
  ((W12_of_ne m ρ c main_arg11 (by decide))).trans (
    ((by host_keeps : W11 m ρ c (Proc.devRef .tc main_arg11) = W10 m ρ c (Proc.devRef .tc main_arg11))).trans (
    ((W10_of_ne m ρ c main_arg11 (by decide))).trans (
    ((by host_keeps : W9 m ρ c (Proc.devRef .tc main_arg11) = W8 m ρ c (Proc.devRef .tc main_arg11))).trans (
    ((W8_of_ne m ρ c main_arg11 (by decide))).trans (
    ((by host_keeps : W7 m ρ c (Proc.devRef .tc main_arg11) = W6 m ρ c (Proc.devRef .tc main_arg11))).trans (
    ((W6_of_ne m ρ c main_arg11 (by decide))).trans (
    ((by host_keeps : W5 m ρ c (Proc.devRef .tc main_arg11) = W4 m ρ c (Proc.devRef .tc main_arg11))).trans (
    ((W4_of_ne m ρ c main_arg11 (by decide))).trans (
    ((by host_keeps : W3 m ρ c (Proc.devRef .tc main_arg11) = W2 m ρ c (Proc.devRef .tc main_arg11))).trans (
    ((W2_of_ne m ρ c main_arg11 (by decide))).trans (
    ((by host_keeps : W1 m ρ c (Proc.devRef .tc main_arg11) = W0 m ρ c (Proc.devRef .tc main_arg11))).trans (
    rfl))))))))))))
theorem W13_arg10 : W13 m ρ c (Proc.devRef .tc main_arg10) = m ((c : Thread nD τ).loc main_arg10) :=
  ((by host_keeps : W13 m ρ c (Proc.devRef .tc main_arg10) = W12 m ρ c (Proc.devRef .tc main_arg10))).trans (
    ((W12_of_ne m ρ c main_arg10 (by decide))).trans (
    ((by host_keeps : W11 m ρ c (Proc.devRef .tc main_arg10) = W10 m ρ c (Proc.devRef .tc main_arg10))).trans (
    ((W10_of_ne m ρ c main_arg10 (by decide))).trans (
    ((by host_keeps : W9 m ρ c (Proc.devRef .tc main_arg10) = W8 m ρ c (Proc.devRef .tc main_arg10))).trans (
    ((W8_of_ne m ρ c main_arg10 (by decide))).trans (
    ((by host_keeps : W7 m ρ c (Proc.devRef .tc main_arg10) = W6 m ρ c (Proc.devRef .tc main_arg10))).trans (
    ((W6_of_ne m ρ c main_arg10 (by decide))).trans (
    ((by host_keeps : W5 m ρ c (Proc.devRef .tc main_arg10) = W4 m ρ c (Proc.devRef .tc main_arg10))).trans (
    ((W4_of_ne m ρ c main_arg10 (by decide))).trans (
    ((by host_keeps : W3 m ρ c (Proc.devRef .tc main_arg10) = W2 m ρ c (Proc.devRef .tc main_arg10))).trans (
    ((W2_of_ne m ρ c main_arg10 (by decide))).trans (
    ((by host_keeps : W1 m ρ c (Proc.devRef .tc main_arg10) = W0 m ρ c (Proc.devRef .tc main_arg10))).trans (
    rfl)))))))))))))

set_option maxHeartbeats 8000000 in
theorem W13_v83 : W13 m ρ c (Proc.devRef .tc main_v83) = row (a11 m c) := by
  show StableHlo.after hostOps6 (W12 m ρ c) (Proc.devRef .tc main_v83) = _
  after_results_simp
  rw [W12_arg11]
  exact shapeCast_row _ _

include R in
theorem W13_v82 : W13 m ρ c (Proc.devRef .tc main_v82) = h2 m c :=
  ((by host_keeps : W13 m ρ c (Proc.devRef .tc main_v82) = W12 m ρ c (Proc.devRef .tc main_v82))).trans (W12_v82 m ρ c R)

include R in
/-- The program's result array, at the last boundary, is the network in the kernel's arrangement. -/
theorem result_eq : W14 m ρ c (Proc.devRef .tc main_v84)
    = netK (agg1 (edges m c)) (agg2 (edges m c)) epsW cntW (a0 m c) (a2 m c) (row (a3 m c)) (row (a4 m c)) (row (a5 m c))
        (a6 m c) (row (a7 m c)) (row (a8 m c)) (row (a9 m c)) (a10 m c) (row (a11 m c)) := by
  refine ((W14_arr m ρ c 3).trans (R.arr6 (V13 m ρ) c)).trans ?_
  show dense (W13 m ρ c (Proc.devRef .tc main_v82)) (W13 m ρ c (Proc.devRef .tc main_arg10))
    (W13 m ρ c (Proc.devRef .tc main_v83)) = _
  rw [W13_v82 m ρ c R, W13_arg10, W13_v83]
  rfl

end Cert.KernelIdeal.Chain

end
-- ==== Proof.LibAffineTile.lean ====
/-
  A dense layer computed on a tile of rows.

  Entry (p, q) of `x · W + b` is `Σ_k x[p, k] · W[k, q] + b[0, q]`: it reads row p of `x` and nothing else of `x`.
  So when a tile of rows of `x` is multiplied by the whole of `W` and the whole bias row is added, entry (p, q) of the
  tile's result is the entry of the full layer at the row where the tile's row p sits in the array, same column.
-/
import proofs.«166389_j81088982548949_1_alg».proof.Proof.LibNormSpec

noncomputable section

namespace Cert.AffineTile

open Cert.Spec Idealize.ShloMosaic Idealize.ShloMosaic.ValueIdx

/-- The offsets of a rectangle that starts at the origin of a rank-2 buffer. -/
theorem origin2 : (![0, 0] : Fin 2 → Nat) = fun _ => 0 := funext fun a => by fin_cases a <;> rfl

/-- A tile's entry of the dense layer is the array's entry at the row the tile's row holds, in the same column. -/
theorem dense_at {B M K N : Nat} (xb : Mat B K) (x : Mat M K) (W : Mat K N) (b : Mat 1 N)
    (j : (⟨2, ![B, N]⟩ : Shape).Idx) (i : (⟨2, ![M, N]⟩ : Shape).Idx) (hq : i 1 = j 1)
    (hx : ∀ k, xb (ix2 (j 0) k) = x (ix2 (i 0) k)) : dense xb W b j = dense x W b i := by
  show mm xb W j + b (ix2 (0 : Fin 1) (j 1)) = mm x W i + b (ix2 (0 : Fin 1) (i 1))
  rw [mm_at xb x W j i hq hx, hq]

end Cert.AffineTile

end
-- ==== Proof.KAffine0.lean ====
/-
  The first affine layer of the network (128 features to 128), read off the kernel's blocks.

  The array of 100000 rows is processed in 50 blocks of 2000 rows.  At block t the body multiplies rows
  2000 t … 2000 t + 1999 of the input by the whole weight matrix and adds the whole bias row to every row.  A row of a
  product depends on the same row of the left factor only, so what block t writes back is rows 2000 t … 2000 t + 1999 of
  the dense layer of the whole input; the blocks tile the output, so the output array ends holding that dense layer.
-/
import proofs.«166389_j81088982548949_1_alg».proof.Proof.Gen.KernelIdeal.Frame
import proofs.«166389_j81088982548949_1_alg».proof.Proof.LibAffineTile
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Cert.Spec Cert.AffineTile Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The body on whole tiles: the casts to the narrow format change nothing, the product starts from zero, the bias row
    is repeated over the rows — a dense layer of the tile. -/
theorem pay0_eq (x : Vec Ideal S2000x128 .f32) (W : Vec Ideal S128x128 .f32) (b : Vec Ideal S1x128 .f32) :
    k0_pay1 (F := Ideal) x W b = dense x W b := by
  unfold k0_pay1
  simp only [shapeCast_self]
  exact dense_vec dot_S2000x128_S128x128_S2000x128_1_0_0_1_n_n rfl rfl rfl rfl rfl rfl _ _ _ broadcasts_S1x128_S2000x128

/-- The dense layer of the whole arrays as the region finds them. -/
abbrev layer0 : Mat 100000 128 :=
  dense (V c (Pipeline.arrRef spec0 0) : Mat 100000 128) (V c (Pipeline.arrRef spec0 1) : Mat 128 128)
    (V c (Pipeline.arrRef spec0 2) : Mat 1 128)

/-- Where the blocks sit: the input and the output move down one block of rows per point, the weights and the bias row
    stay whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights' block is the whole weight matrix at every point. -/
theorem weights0 (t : Fin cfg0.N) :
    (iblk0 V c 1 t : Vec Ideal S128x128 .f32) = (V c (Pipeline.arrRef spec0 1) : Vec Ideal S128x128 .f32) := by
  obtain ⟨-, -, e0, e1, -, -, -, -⟩ := idx0 t
  funext y
  show (V c (Pipeline.arrRef spec0 1) : Vec Ideal S128x128 .f32) (((cfg0.win 1).blk t).view.emb y)
    = (V c (Pipeline.arrRef spec0 1) : Vec Ideal S128x128 .f32) y
  refine congrArg (V c (Pipeline.arrRef spec0 1) : Vec Ideal S128x128 .f32) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block is the whole bias row at every point. -/
theorem bias0 (t : Fin cfg0.N) :
    (iblk0 V c 2 t : Vec Ideal S1x128 .f32) = (V c (Pipeline.arrRef spec0 2) : Vec Ideal S1x128 .f32) := by
  obtain ⟨-, -, -, -, e0, e1, -, -⟩ := idx0 t
  funext y
  show (V c (Pipeline.arrRef spec0 2) : Vec Ideal S1x128 .f32) (((cfg0.win 2).blk t).view.emb y)
    = (V c (Pipeline.arrRef spec0 2) : Vec Ideal S1x128 .f32) y
  refine congrArg (V c (Pipeline.arrRef spec0 2) : Vec Ideal S1x128 .f32) ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Row p of the input's block at point t is row 2000 t + p of the input. -/
theorem rows0 (t : Fin cfg0.N) (p : Fin 2000) (r : Fin 100000) (hr : r.val = t.val * 2000 + p.val) (k : Fin 128) :
    (iblk0 V c 0 t : Vec Ideal S2000x128 .f32) (ix2 p k)
      = (V c (Pipeline.arrRef spec0 0) : Vec Ideal S100000x128 .f32) (ix2 r k) := by
  obtain ⟨e0, e1, -, -, -, -, -, -⟩ := idx0 t
  show (V c (Pipeline.arrRef spec0 0) : Vec Ideal S100000x128 .f32) (((cfg0.win 0).blk t).view.emb (ix2 p k))
    = (V c (Pipeline.arrRef spec0 0) : Vec Ideal S100000x128 .f32) (ix2 r k)
  refine congrArg (V c (Pipeline.arrRef spec0 0) : Vec Ideal S100000x128 .f32) ?_
  funext a; apply Fin.ext
  match a with
  | ⟨0, _⟩ => show win0_0.index t (0 : Fin 2) * 2000 + 1 * p.val = r.val; omega
  | ⟨1, _⟩ => show win0_0.index t (1 : Fin 2) * 128 + 1 * k.val = k.val; omega

/-- What point t writes back is block t of the dense layer of the whole arrays. -/
theorem flushed0 (t : Fin cfg0.N) :
    (dat0 (F := Ideal) V c).flushed 3 t = ((cfg0.win 3).blk t).view.read (Elt Ideal) (layer0 V c) := by
  show (cfg0.win 3).cut (grid0.coords t) ((dat0 V c).after 3 t) = _
  rw [after0_3]
  unfold out0_3
  rw [View.canon_unit_zero origin2]
  simp only [View.ld_unit_zero (S := S2000x128) origin2, View.ld_unit_zero (S := S128x128) origin2,
    View.ld_unit_zero (S := S1x128) origin2]
  rw [pay0_eq, weights0, bias0]
  obtain ⟨-, -, -, -, -, -, e0, e1⟩ := idx0 t
  funext j
  show dense (iblk0 V c 0 t : Vec Ideal S2000x128 .f32) (V c (Pipeline.arrRef spec0 1) : Mat 128 128)
      (V c (Pipeline.arrRef spec0 2) : Mat 1 128) j
    = layer0 V c (((cfg0.win 3).blk t).view.emb j)
  have h0 : ((((cfg0.win 3).blk t).view.emb j : S100000x128.Idx) 0).val = t.val * 2000 + (j 0).val := by
    show win0_3.index t (0 : Fin 2) * 2000 + 1 * (j 0).val = _; omega
  have h1 : (((cfg0.win 3).blk t).view.emb j : S100000x128.Idx) 1 = j 1 := by
    apply Fin.ext
    show win0_3.index t (1 : Fin 2) * 128 + 1 * (j 1).val = _; omega
  exact dense_at _ _ _ _ j _ h1 fun k =>
    rows0 V c t (j 0) ((((cfg0.win 3).blk t).view.emb j : S100000x128.Idx) 0) h0 k

/-- An entry of the output array is in point t's block iff its row is one of the block's 2000 rows. -/
theorem mem_blk0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v29).slice (win0_3.rect t)).set ↔ _
  rw [View.set_slice_whole, Rect.mem_set_unit]
  exact Iff.rfl

/-- Every entry of the output is in the block of the point its row falls in: row r is in block r / 2000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_3 _, ?_⟩
  rw [mem_blk0]
  obtain ⟨-, -, -, -, -, -, e0, e1⟩ := idx0 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e1]; omega

/-- The first layer's output array after the region: the dense layer of the arrays the region found. -/
theorem arr0 : (dat0 (F := Ideal) V c).arrAt 3 cfg0.N
    = dense (V c (Pipeline.arrRef spec0 0) : Mat 100000 128) (V c (Pipeline.arrRef spec0 1) : Mat 128 128)
        (V c (Pipeline.arrRef spec0 2) : Mat 1 128) :=
  (dat0 (F := Ideal) V c).arrAt_eq_of_cover 3 (layer0 V c) (fun t _ => flushed0 V c t) cover0

end Cert.KernelIdeal.RegionValue

end
-- ==== Proof.KAffine3.lean ====
/-
  The second affine layer of the network (128 features to 64), read off the kernel's blocks.

  The array of 100000 rows is processed in 50 blocks of 2000 rows.  At block t the body multiplies rows
  2000 t … 2000 t + 1999 of the input by the whole weight matrix and adds the whole bias row to every row.  A row of a
  product depends on the same row of the left factor only, so what block t writes back is rows 2000 t … 2000 t + 1999 of
  the dense layer of the whole input; the blocks tile the output, so the output array ends holding that dense layer.
-/
import proofs.«166389_j81088982548949_1_alg».proof.Proof.Gen.KernelIdeal.Frame
import proofs.«166389_j81088982548949_1_alg».proof.Proof.LibAffineTile
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Cert.Spec Cert.AffineTile Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The body on whole tiles: the casts to the narrow format change nothing, the product starts from zero, the bias row
    is repeated over the rows — a dense layer of the tile. -/
theorem pay3_eq (x : Vec Ideal S2000x128 .f32) (W : Vec Ideal S128x64 .f32) (b : Vec Ideal S1x64 .f32) :
    k3_pay1 (F := Ideal) x W b = dense x W b := by
  unfold k3_pay1
  simp only [shapeCast_self]
  exact dense_vec dot_S2000x128_S128x64_S2000x64_1_0_0_1_n_n rfl rfl rfl rfl rfl rfl _ _ _ broadcasts_S1x64_S2000x64

/-- The dense layer of the whole arrays as the region finds them. -/
abbrev layer3 : Mat 100000 64 :=
  dense (V c (Pipeline.arrRef spec3 0) : Mat 100000 128) (V c (Pipeline.arrRef spec3 1) : Mat 128 64)
    (V c (Pipeline.arrRef spec3 2) : Mat 1 64)

/-- Where the blocks sit: the input and the output move down one block of rows per point, the weights and the bias row
    stay whole. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The weights' block is the whole weight matrix at every point. -/
theorem weights3 (t : Fin cfg3.N) :
    (iblk3 V c 1 t : Vec Ideal S128x64 .f32) = (V c (Pipeline.arrRef spec3 1) : Vec Ideal S128x64 .f32) := by
  obtain ⟨-, -, e0, e1, -, -, -, -⟩ := idx3 t
  funext y
  show (V c (Pipeline.arrRef spec3 1) : Vec Ideal S128x64 .f32) (((cfg3.win 1).blk t).view.emb y)
    = (V c (Pipeline.arrRef spec3 1) : Vec Ideal S128x64 .f32) y
  refine congrArg (V c (Pipeline.arrRef spec3 1) : Vec Ideal S128x64 .f32) ?_
  funext a; apply Fin.ext
  match a with
  | ⟨0, _⟩ => show win3_1.index t (0 : Fin 2) * 128 + 1 * (y 0).val = (y 0).val; omega
  | ⟨1, _⟩ => show win3_1.index t (1 : Fin 2) * 64 + 1 * (y 1).val = (y 1).val; omega

/-- The bias row's block is the whole bias row at every point. -/
theorem bias3 (t : Fin cfg3.N) :
    (iblk3 V c 2 t : Vec Ideal S1x64 .f32) = (V c (Pipeline.arrRef spec3 2) : Vec Ideal S1x64 .f32) := by
  obtain ⟨-, -, -, -, e0, e1, -, -⟩ := idx3 t
  funext y
  show (V c (Pipeline.arrRef spec3 2) : Vec Ideal S1x64 .f32) (((cfg3.win 2).blk t).view.emb y)
    = (V c (Pipeline.arrRef spec3 2) : Vec Ideal S1x64 .f32) y
  refine congrArg (V c (Pipeline.arrRef spec3 2) : Vec Ideal S1x64 .f32) ?_
  funext a; apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- Row p of the input's block at point t is row 2000 t + p of the input. -/
theorem rows3 (t : Fin cfg3.N) (p : Fin 2000) (r : Fin 100000) (hr : r.val = t.val * 2000 + p.val) (k : Fin 128) :
    (iblk3 V c 0 t : Vec Ideal S2000x128 .f32) (ix2 p k)
      = (V c (Pipeline.arrRef spec3 0) : Vec Ideal S100000x128 .f32) (ix2 r k) := by
  obtain ⟨e0, e1, -, -, -, -, -, -⟩ := idx3 t
  show (V c (Pipeline.arrRef spec3 0) : Vec Ideal S100000x128 .f32) (((cfg3.win 0).blk t).view.emb (ix2 p k))
    = (V c (Pipeline.arrRef spec3 0) : Vec Ideal S100000x128 .f32) (ix2 r k)
  refine congrArg (V c (Pipeline.arrRef spec3 0) : Vec Ideal S100000x128 .f32) ?_
  funext a; apply Fin.ext
  match a with
  | ⟨0, _⟩ => show win3_0.index t (0 : Fin 2) * 2000 + 1 * p.val = r.val; omega
  | ⟨1, _⟩ => show win3_0.index t (1 : Fin 2) * 128 + 1 * k.val = k.val; omega

/-- What point t writes back is block t of the dense layer of the whole arrays. -/
theorem flushed3 (t : Fin cfg3.N) :
    (dat3 (F := Ideal) V c).flushed 3 t = ((cfg3.win 3).blk t).view.read (Elt Ideal) (layer3 V c) := by
  show (cfg3.win 3).cut (grid3.coords t) ((dat3 V c).after 3 t) = _
  rw [after3_3]
  unfold out3_3
  rw [View.canon_unit_zero origin2]
  simp only [View.ld_unit_zero (S := S2000x128) origin2, View.ld_unit_zero (S := S128x64) origin2,
    View.ld_unit_zero (S := S1x64) origin2]
  rw [pay3_eq, weights3, bias3]
  obtain ⟨-, -, -, -, -, -, e0, e1⟩ := idx3 t
  funext j
  show dense (iblk3 V c 0 t : Vec Ideal S2000x128 .f32) (V c (Pipeline.arrRef spec3 1) : Mat 128 64)
      (V c (Pipeline.arrRef spec3 2) : Mat 1 64) j
    = layer3 V c (((cfg3.win 3).blk t).view.emb j)
  have h0 : ((((cfg3.win 3).blk t).view.emb j : S100000x64.Idx) 0).val = t.val * 2000 + (j 0).val := by
    show win3_3.index t (0 : Fin 2) * 2000 + 1 * (j 0).val = _; omega
  have h1 : (((cfg3.win 3).blk t).view.emb j : S100000x64.Idx) 1 = j 1 := by
    apply Fin.ext
    show win3_3.index t (1 : Fin 2) * 64 + 1 * (j 1).val = _; omega
  exact dense_at _ _ _ _ j _ h1 fun k =>
    rows3 V c t (j 0) ((((cfg3.win 3).blk t).view.emb j : S100000x64.Idx) 0) h0 k

/-- An entry of the output array is in point t's block iff its row is one of the block's 2000 rows. -/
theorem mem_blk3 (t : Fin cfg3.N) (i : S100000x64.Idx) :
    i ∈ ((cfg3.win 3).blk t).view.set ↔ ∀ a : Fin 2, win3_3.index t a * S2000x64.size a ≤ (i a).val
      ∧ (i a).val < win3_3.index t a * S2000x64.size a + S2000x64.size a := by
  show i ∈ ((View.whole main_v57).slice (win3_3.rect t)).set ↔ _
  rw [View.set_slice_whole, Rect.mem_set_unit]
  exact Iff.rfl

/-- Every entry of the output is in the block of the point its row falls in: row r is in block r / 2000. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 50 := N_3
  refine ⟨⟨(i 0).val / 2000, by rw [hN]; omega⟩, flush3_3 _, ?_⟩
  rw [mem_blk3]
  obtain ⟨-, -, -, -, -, -, e0, e1⟩ := idx3 ⟨(i 0).val / 2000, by rw [hN]; omega⟩
  intro a
  match a with
  | ⟨0, _⟩ =>
    show win3_3.index _ (0 : Fin 2) * 2000 ≤ (i 0).val ∧ (i 0).val < win3_3.index _ (0 : Fin 2) * 2000 + 2000
    rw [e0]; show (i 0).val / 2000 * 2000 ≤ (i 0).val ∧ (i 0).val < (i 0).val / 2000 * 2000 + 2000; omega
  | ⟨1, _⟩ =>
    show win3_3.index _ (1 : Fin 2) * 64 ≤ (i 1).val ∧ (i 1).val < win3_3.index _ (1 : Fin 2) * 64 + 64
    rw [e1]; omega

/-- The second layer's output array after the region: the dense layer of the arrays the region found. -/
theorem arr3 : (dat3 (F := Ideal) V c).arrAt 3 cfg3.N
    = dense (V c (Pipeline.arrRef spec3 0) : Mat 100000 128) (V c (Pipeline.arrRef spec3 1) : Mat 128 64)
        (V c (Pipeline.arrRef spec3 2) : Mat 1 64) :=
  (dat3 (F := Ideal) V c).arrAt_eq_of_cover 3 (layer3 V c) (fun t _ => flushed3 V c t) cover3

end Cert.KernelIdeal.RegionValue

end
-- ==== Proof.KAffine6.lean ====
/-
  The classifier layer of the network (64 features to 2 classes), read off the kernel's blocks.

  The array of 100000 rows is processed in 50 blocks of 2000 rows.  At block t the body multiplies rows
  2000 t … 2000 t + 1999 of the input by the whole weight matrix and adds the whole bias row to every row.  A row of a
  product depends on the same row of the left factor only, so what block t writes back is rows 2000 t … 2000 t + 1999 of
  the dense layer of the whole input; the blocks tile the output, so the output array ends holding that dense layer.
-/
import proofs.«166389_j81088982548949_1_alg».proof.Proof.Gen.KernelIdeal.Frame
import proofs.«166389_j81088982548949_1_alg».proof.Proof.LibAffineTile
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Cert.Spec Cert.AffineTile Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The body on whole tiles: the casts to the narrow format change nothing, the product starts from zero, the bias row
    is repeated over the rows — a dense layer of the tile. -/
theorem pay6_eq (x : Vec Ideal S2000x64 .f32) (W : Vec Ideal S64x2 .f32) (b : Vec Ideal S1x2 .f32) :
    k6_pay1 (F := Ideal) x W b = dense x W b := by
  unfold k6_pay1
  simp only [shapeCast_self]
  exact dense_vec dot_S2000x64_S64x2_S2000x2_1_0_0_1_n_n rfl rfl rfl rfl rfl rfl _ _ _ broadcasts_S1x2_S2000x2

/-- The dense layer of the whole arrays as the region finds them. -/
abbrev layer6 : Mat 100000 2 :=
  dense (V c (Pipeline.arrRef spec6 0) : Mat 100000 64) (V c (Pipeline.arrRef spec6 1) : Mat 64 2)
    (V c (Pipeline.arrRef spec6 2) : Mat 1 2)

/-- Where the blocks sit: the input and the output move down one block of rows per point, the weights and the bias row
    stay whole. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The weights' block is the whole weight matrix at every point. -/
theorem weights6 (t : Fin cfg6.N) :
    (iblk6 V c 1 t : Vec Ideal S64x2 .f32) = (V c (Pipeline.arrRef spec6 1) : Vec Ideal S64x2 .f32) := by
  obtain ⟨-, -, e0, e1, -, -, -, -⟩ := idx6 t
  funext y
  show (V c (Pipeline.arrRef spec6 1) : Vec Ideal S64x2 .f32) (((cfg6.win 1).blk t).view.emb y)
    = (V c (Pipeline.arrRef spec6 1) : Vec Ideal S64x2 .f32) y
  refine congrArg (V c (Pipeline.arrRef spec6 1) : Vec Ideal S64x2 .f32) ?_
  funext a; apply Fin.ext
  match a with
  | ⟨0, _⟩ => show win6_1.index t (0 : Fin 2) * 64 + 1 * (y 0).val = (y 0).val; omega
  | ⟨1, _⟩ => show win6_1.index t (1 : Fin 2) * 2 + 1 * (y 1).val = (y 1).val; omega

/-- The bias row's block is the whole bias row at every point. -/
theorem bias6 (t : Fin cfg6.N) :
    (iblk6 V c 2 t : Vec Ideal S1x2 .f32) = (V c (Pipeline.arrRef spec6 2) : Vec Ideal S1x2 .f32) := by
  obtain ⟨-, -, -, -, e0, e1, -, -⟩ := idx6 t
  funext y
  show (V c (Pipeline.arrRef spec6 2) : Vec Ideal S1x2 .f32) (((cfg6.win 2).blk t).view.emb y)
    = (V c (Pipeline.arrRef spec6 2) : Vec Ideal S1x2 .f32) y
  refine congrArg (V c (Pipeline.arrRef spec6 2) : Vec Ideal S1x2 .f32) ?_
  funext a; apply Fin.ext
  match a with
  | ⟨0, _⟩ => show win6_2.index t (0 : Fin 2) * 1 + 1 * (y 0).val = (y 0).val; omega
  | ⟨1, _⟩ => show win6_2.index t (1 : Fin 2) * 2 + 1 * (y 1).val = (y 1).val; omega

/-- Row p of the input's block at point t is row 2000 t + p of the input. -/
theorem rows6 (t : Fin cfg6.N) (p : Fin 2000) (r : Fin 100000) (hr : r.val = t.val * 2000 + p.val) (k : Fin 64) :
    (iblk6 V c 0 t : Vec Ideal S2000x64 .f32) (ix2 p k)
      = (V c (Pipeline.arrRef spec6 0) : Vec Ideal S100000x64 .f32) (ix2 r k) := by
  obtain ⟨e0, e1, -, -, -, -, -, -⟩ := idx6 t
  show (V c (Pipeline.arrRef spec6 0) : Vec Ideal S100000x64 .f32) (((cfg6.win 0).blk t).view.emb (ix2 p k))
    = (V c (Pipeline.arrRef spec6 0) : Vec Ideal S100000x64 .f32) (ix2 r k)
  refine congrArg (V c (Pipeline.arrRef spec6 0) : Vec Ideal S100000x64 .f32) ?_
  funext a; apply Fin.ext
  match a with
  | ⟨0, _⟩ => show win6_0.index t (0 : Fin 2) * 2000 + 1 * p.val = r.val; omega
  | ⟨1, _⟩ => show win6_0.index t (1 : Fin 2) * 64 + 1 * k.val = k.val; omega

/-- What point t writes back is block t of the dense layer of the whole arrays. -/
theorem flushed6 (t : Fin cfg6.N) :
    (dat6 (F := Ideal) V c).flushed 3 t = ((cfg6.win 3).blk t).view.read (Elt Ideal) (layer6 V c) := by
  show (cfg6.win 3).cut (grid6.coords t) ((dat6 V c).after 3 t) = _
  rw [after6_3]
  unfold out6_3
  rw [View.canon_unit_zero origin2]
  simp only [View.ld_unit_zero (S := S2000x64) origin2, View.ld_unit_zero (S := S64x2) origin2,
    View.ld_unit_zero (S := S1x2) origin2]
  rw [pay6_eq, weights6, bias6]
  obtain ⟨-, -, -, -, -, -, e0, e1⟩ := idx6 t
  funext j
  show dense (iblk6 V c 0 t : Vec Ideal S2000x64 .f32) (V c (Pipeline.arrRef spec6 1) : Mat 64 2)
      (V c (Pipeline.arrRef spec6 2) : Mat 1 2) j
    = layer6 V c (((cfg6.win 3).blk t).view.emb j)
  have h0 : ((((cfg6.win 3).blk t).view.emb j : S100000x2.Idx) 0).val = t.val * 2000 + (j 0).val := by
    show win6_3.index t (0 : Fin 2) * 2000 + 1 * (j 0).val = _; omega
  have h1 : (((cfg6.win 3).blk t).view.emb j : S100000x2.Idx) 1 = j 1 := by
    apply Fin.ext
    show win6_3.index t (1 : Fin 2) * 2 + 1 * (j 1).val = _; omega
  exact dense_at _ _ _ _ j _ h1 fun k =>
    rows6 V c t (j 0) ((((cfg6.win 3).blk t).view.emb j : S100000x2.Idx) 0) h0 k

/-- An entry of the output array is in point t's block iff its row is one of the block's 2000 rows. -/
theorem mem_blk6 (t : Fin cfg6.N) (i : S100000x2.Idx) :
    i ∈ ((cfg6.win 3).blk t).view.set ↔ ∀ a : Fin 2, win6_3.index t a * S2000x2.size a ≤ (i a).val
      ∧ (i a).val < win6_3.index t a * S2000x2.size a + S2000x2.size a := by
  show i ∈ ((View.whole main_v84).slice (win6_3.rect t)).set ↔ _
  rw [View.set_slice_whole, Rect.mem_set_unit]
  exact Iff.rfl

/-- Every entry of the output is in the block of the point its row falls in: row r is in block r / 2000. -/
theorem cover6 (i : S100000x2.Idx) :
    ∃ t : Fin cfg6.N, (cfg6.win 3).flush t = true ∧ i ∈ ((cfg6.win 3).blk t).view.set := by
  have hi0 : (i 0).val < 100000 := (i 0).isLt
  have hi1 : (i 1).val < 2 := (i 1).isLt
  have hN : cfg6.N = 50 := N_6
  refine ⟨⟨(i 0).val / 2000, by rw [hN]; omega⟩, flush6_3 _, ?_⟩
  rw [mem_blk6]
  obtain ⟨-, -, -, -, -, -, e0, e1⟩ := idx6 ⟨(i 0).val / 2000, by rw [hN]; omega⟩
  intro a
  match a with
  | ⟨0, _⟩ =>
    show win6_3.index _ (0 : Fin 2) * 2000 ≤ (i 0).val ∧ (i 0).val < win6_3.index _ (0 : Fin 2) * 2000 + 2000
    rw [e0]; show (i 0).val / 2000 * 2000 ≤ (i 0).val ∧ (i 0).val < (i 0).val / 2000 * 2000 + 2000; omega
  | ⟨1, _⟩ =>
    show win6_3.index _ (1 : Fin 2) * 2 ≤ (i 1).val ∧ (i 1).val < win6_3.index _ (1 : Fin 2) * 2 + 2
    rw [e1]; omega

/-- The classifier's output array after the region: the dense layer of the arrays the region found. -/
theorem arr6 : (dat6 (F := Ideal) V c).arrAt 3 cfg6.N
    = dense (V c (Pipeline.arrRef spec6 0) : Mat 100000 64) (V c (Pipeline.arrRef spec6 1) : Mat 64 2)
        (V c (Pipeline.arrRef spec6 2) : Mat 1 2) :=
  (dat6 (F := Ideal) V c).arrAt_eq_of_cover 3 (layer6 V c) (fun t _ => flushed6 V c t) cover6

end Cert.KernelIdeal.RegionValue

end
-- ==== Proof.KBnRelu2.lean ====
/-
  The first batch-normalisation region, read as a function of the arrays it finds.

  The region walks the 100000 rows of its input in 50 blocks of 2000 rows.  At block row t it holds rows 2000 t … 2000 t + 1999
  of the input (128 columns) and the five parameter rows — bias, mean, variance, scale γ and shift β, each one row of 128
  entries, whole at every point — and writes, at entry (r, q) of the output block,

      max (γ[q] · ((x[r, q] + bias[q]) − mean[q]) · rsqrt (var[q] + ε) + β[q]) 0 .

  An entry of the output depends on the same entry of the input and on column q of the rows, so block t of the output is
  block t of ONE matrix, `bnRelu ε (addRow x bias) mean var γ β`; the 50 blocks tile the output, which therefore ends
  holding that matrix (row p is written by point p / 2000).
-/
import proofs.«166389_j81088982548949_1_alg».proof.Proof.Gen.KernelIdeal.Frame
import proofs.«166389_j81088982548949_1_alg».proof.Proof.LibNormSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

namespace Bn2

/-- The zero offset of a rank-2 rectangle. -/
theorem zeroOffset : (![0, 0] : Fin 2 → Nat) = fun _ => 0 := funext fun a => by fin_cases a <;> rfl

/-! ## The body at one entry -/

/-- The body's value at entry (r, q) of the block: the bias row is added to the entry, the mean row subtracted, the
    difference scaled by the γ row and by the reciprocal square root of the variance row plus ε, the β row added, and
    the rectifier applied; every row is read at column q. -/
theorem body_entry (x : Vec Ideal S2000x128 .f32) (b var g mean be : Vec Ideal S1x128 .f32) (r : Fin 2000) (q : Fin 128) :
    k2_pay1 (F := Ideal) x b var g mean be (ix2 r q)
      = max (g (ix2 (0 : Fin 1) q) * ((x (ix2 r q) + b (ix2 (0 : Fin 1) q)) - mean (ix2 (0 : Fin 1) q))
          * Ideal.rsqrt (var (ix2 (0 : Fin 1) q) + Ideal.ofBits .f32 0x3727C5AC#32) + be (ix2 (0 : Fin 1) q)) 0 := by
  unfold k2_pay1
  simp only [shapeCast_self]
  simp only [maximumf_apply, addf_apply, mulf_apply, subf_apply, broadcast_apply, broadcastTo_1b_ab_apply]
  show max (_ * _ * Ideal.rsqrt (var (ix2 (0 : Fin 1) q) + Ideal.ofBits .f32 0x3727C5AC#32) + _) (Ideal.ofBits .f32 0x00000000#32) = _
  rw [Ideal.ofBits_zero_f32]

/-! ## Where the blocks sit -/

/-- The block indices of the seven windows at the 50 grid points: the input and output matrices' blocks sit at block
    row t, column 0; each parameter row has the one block (0, 0). -/
theorem blockIndex : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Entry (r, q) of the input matrix's block at point t is entry (2000 t + r, q) of the array. -/
theorem xBlock_entry (t : Fin cfg2.N) (r : Fin 2000) (q : Fin 128) (p : Fin 100000) (hp : p.val = t.val * 2000 + r.val) :
    (iblk2 V c 0 t : Vec Ideal S2000x128 .f32) (ix2 r q) = (V c (Pipeline.arrRef spec2 0) : Mat 100000 128) (ix2 p q) := by
  obtain ⟨e0, e1, -⟩ := blockIndex t
  show (V c (Pipeline.arrRef spec2 0) : Mat 100000 128) (((cfg2.win 0).blk t).view.emb (ix2 r q)) = _
  refine congrArg _ ?_
  funext a; apply Fin.ext
  match a with
  | ⟨0, _⟩ => show win2_0.index t (0 : Fin 2) * 2000 + 1 * r.val = p.val; rw [e0, hp]; omega
  | ⟨1, _⟩ => show win2_0.index t (1 : Fin 2) * 128 + 1 * q.val = q.val; rw [e1]; omega

/-! Each parameter row's one block is its whole array, at every point. -/

theorem rowBlock1_entry (t : Fin cfg2.N) (q : Fin 128) :
    (iblk2 V c 1 t : Vec Ideal S1x128 .f32) (ix2 (0 : Fin 1) q) = (V c (Pipeline.arrRef spec2 1) : Mat 1 128) (ix2 (0 : Fin 1) q) := by
  obtain ⟨-, -, e0, e1, -⟩ := blockIndex t
  show (V c (Pipeline.arrRef spec2 1) : Mat 1 128) (((cfg2.win 1).blk t).view.emb (ix2 (0 : Fin 1) q)) = _
  refine congrArg _ ?_
  funext a; apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

theorem rowBlock2_entry (t : Fin cfg2.N) (q : Fin 128) :
    (iblk2 V c 2 t : Vec Ideal S1x128 .f32) (ix2 (0 : Fin 1) q) = (V c (Pipeline.arrRef spec2 2) : Mat 1 128) (ix2 (0 : Fin 1) q) := by
  obtain ⟨-, -, -, -, e0, e1, -⟩ := blockIndex t
  show (V c (Pipeline.arrRef spec2 2) : Mat 1 128) (((cfg2.win 2).blk t).view.emb (ix2 (0 : Fin 1) q)) = _
  refine congrArg _ ?_
  funext a; apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

theorem rowBlock3_entry (t : Fin cfg2.N) (q : Fin 128) :
    (iblk2 V c 3 t : Vec Ideal S1x128 .f32) (ix2 (0 : Fin 1) q) = (V c (Pipeline.arrRef spec2 3) : Mat 1 128) (ix2 (0 : Fin 1) q) := by
  obtain ⟨-, -, -, -, -, -, e0, e1, -⟩ := blockIndex t
  show (V c (Pipeline.arrRef spec2 3) : Mat 1 128) (((cfg2.win 3).blk t).view.emb (ix2 (0 : Fin 1) q)) = _
  refine congrArg _ ?_
  funext a; apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

theorem rowBlock4_entry (t : Fin cfg2.N) (q : Fin 128) :
    (iblk2 V c 4 t : Vec Ideal S1x128 .f32) (ix2 (0 : Fin 1) q) = (V c (Pipeline.arrRef spec2 4) : Mat 1 128) (ix2 (0 : Fin 1) q) := by
  obtain ⟨-, -, -, -, -, -, -, -, e0, e1, -⟩ := blockIndex t
  show (V c (Pipeline.arrRef spec2 4) : Mat 1 128) (((cfg2.win 4).blk t).view.emb (ix2 (0 : Fin 1) q)) = _
  refine congrArg _ ?_
  funext a; apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

theorem rowBlock5_entry (t : Fin cfg2.N) (q : Fin 128) :
    (iblk2 V c 5 t : Vec Ideal S1x128 .f32) (ix2 (0 : Fin 1) q) = (V c (Pipeline.arrRef spec2 5) : Mat 1 128) (ix2 (0 : Fin 1) q) := by
  obtain ⟨-, -, -, -, -, -, -, -, -, -, e0, e1, -⟩ := blockIndex t
  show (V c (Pipeline.arrRef spec2 5) : Mat 1 128) (((cfg2.win 5).blk t).view.emb (ix2 (0 : Fin 1) q)) = _
  refine congrArg _ ?_
  funext a; apply Fin.ext
  match a with
  | ⟨0, _⟩ => show win2_5.index t (0 : Fin 2) * 1 + 1 * 0 = 0; rw [e0]
  | ⟨1, _⟩ => show win2_5.index t (1 : Fin 2) * 128 + 1 * q.val = q.val; rw [e1]; omega

/-! ## From blocks to the array -/

/-- What the output array holds after the region: the normalisation and rectifier of the input plus its bias row, with
    the statistics and parameters the row arrays hold. -/
abbrev normalized : Mat 100000 128 :=
  bnRelu (Ideal.ofBits .f32 0x3727C5AC#32)
    (addRow (V c (Pipeline.arrRef spec2 0) : Mat 100000 128) (V c (Pipeline.arrRef spec2 1) : Mat 1 128))
    (V c (Pipeline.arrRef spec2 2) : Mat 1 128) (V c (Pipeline.arrRef spec2 3) : Mat 1 128)
    (V c (Pipeline.arrRef spec2 4) : Mat 1 128) (V c (Pipeline.arrRef spec2 5) : Mat 1 128)

/-- What point t writes back is block t of that matrix. -/
theorem writeBack_eq (t : Fin cfg2.N) :
    (dat2 (F := Ideal) V c).flushed 6 t = ((cfg2.win 6).blk t).view.read (Elt Ideal) (normalized V c) := by
  show (cfg2.win 6).cut (grid2.coords t) ((dat2 V c).after 6 t) = _
  rw [after2_6]
  unfold out2_6
  rw [View.canon_unit_zero zeroOffset]
  simp only [View.ld_unit_zero (S := S2000x128) zeroOffset, View.ld_unit_zero (S := S1x128) zeroOffset]
  funext j
  obtain ⟨r, q, rfl⟩ : ∃ (r : Fin 2000) (q : Fin 128), j = ix2 r q := ⟨j 0, j 1, eq_ix2 j⟩
  have ht : t.val < 50 := lt_of_lt_of_eq t.isLt N_2
  have hp : t.val * 2000 + r.val < 100000 := by have := r.isLt; omega
  show k2_pay1 (iblk2 V c 0 t) (iblk2 V c 1 t) (iblk2 V c 3 t) (iblk2 V c 4 t) (iblk2 V c 2 t) (iblk2 V c 5 t) (ix2 r q)
    = normalized V c (((cfg2.win 6).blk t).view.emb (ix2 r q))
  have hemb : ((cfg2.win 6).blk t).view.emb (ix2 r q) = ix2 (⟨t.val * 2000 + r.val, hp⟩ : Fin 100000) q := by
    obtain ⟨-, -, -, -, -, -, -, -, -, -, -, -, e6, e7⟩ := blockIndex t
    funext a; apply Fin.ext
    match a with
    | ⟨0, _⟩ => show win2_6.index t (0 : Fin 2) * 2000 + 1 * r.val = t.val * 2000 + r.val; rw [e6]; omega
    | ⟨1, _⟩ => show win2_6.index t (1 : Fin 2) * 128 + 1 * q.val = q.val; rw [e7]; omega
  rw [hemb]
  refine (body_entry _ _ _ _ _ _ r q).trans ?_
  rw [xBlock_entry V c t r q ⟨_, hp⟩ rfl, rowBlock1_entry, rowBlock2_entry, rowBlock3_entry, rowBlock4_entry, rowBlock5_entry]
  rfl

/-- An index of the output array is in point t's block iff each coordinate is in the block's range on its axis. -/
theorem mem_outBlock (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v54).slice (win2_6.rect t)).set ↔ _
  rw [View.set_slice_whole, Rect.mem_set_unit]
  exact Iff.rfl

/-- The 50 output blocks cover the array: row p is in the block of point p / 2000. -/
theorem outBlocks_cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : grid2.N = 50 := N_2
  have ht : (i 0).val / 2000 < cfg2.N := by show _ < grid2.N; rw [hN]; omega
  refine ⟨⟨(i 0).val / 2000, ht⟩, flush2_6 _, ?_⟩
  rw [mem_outBlock]
  obtain ⟨-, -, -, -, -, -, -, -, -, -, -, -, e6, e7⟩ := blockIndex ⟨(i 0).val / 2000, ht⟩
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    rw [e6]; show (i 0).val / 2000 * 2000 ≤ (i 0).val ∧ (i 0).val < (i 0).val / 2000 * 2000 + 2000
    omega
  | ⟨1, _⟩ =>
    show win2_6.index ⟨(i 0).val / 2000, ht⟩ (1 : Fin 2) * 128 ≤ (i 1).val ∧ (i 1).val < win2_6.index ⟨(i 0).val / 2000, ht⟩ (1 : Fin 2) * 128 + 128
    rw [e7]; omega

end Bn2

/-- The output array after the region: the batch normalisation and rectifier of the input array plus the bias row, with
    the mean, variance, γ and β rows as the region finds them. -/
theorem arr2 : (dat2 (F := Ideal) V c).arrAt 6 cfg2.N
    = bnRelu (Ideal.ofBits .f32 0x3727C5AC#32)
        (addRow (V c (Pipeline.arrRef spec2 0) : Mat 100000 128) (V c (Pipeline.arrRef spec2 1) : Mat 1 128))
        (V c (Pipeline.arrRef spec2 2) : Mat 1 128) (V c (Pipeline.arrRef spec2 3) : Mat 1 128)
        (V c (Pipeline.arrRef spec2 4) : Mat 1 128) (V c (Pipeline.arrRef spec2 5) : Mat 1 128) :=
  (dat2 (F := Ideal) V c).arrAt_eq_of_cover 6 (Bn2.normalized V c) (fun t _ => Bn2.writeBack_eq V c t) Bn2.outBlocks_cover

end Cert.KernelIdeal.RegionValue

end
-- ==== Proof.KBnRelu5.lean ====
/-
  The second batch-normalisation region, read as a function of the arrays it finds.

  The region walks the 100000 rows of its input in 50 blocks of 2000 rows.  At block row t it holds rows 2000 t … 2000 t + 1999
  of the input (64 columns) and the five parameter rows — bias, mean, variance, scale γ and shift β, each one row of 64
  entries, whole at every point — and writes, at entry (r, q) of the output block,

      max (γ[q] · ((x[r, q] + bias[q]) − mean[q]) · rsqrt (var[q] + ε) + β[q]) 0 .

  An entry of the output depends on the same entry of the input and on column q of the rows, so block t of the output is
  block t of ONE matrix, `bnRelu ε (addRow x bias) mean var γ β`; the 50 blocks tile the output, which therefore ends
  holding that matrix (row p is written by point p / 2000).
-/
import proofs.«166389_j81088982548949_1_alg».proof.Proof.Gen.KernelIdeal.Frame
import proofs.«166389_j81088982548949_1_alg».proof.Proof.LibNormSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

namespace Bn5

/-- The zero offset of a rank-2 rectangle. -/
theorem zeroOffset : (![0, 0] : Fin 2 → Nat) = fun _ => 0 := funext fun a => by fin_cases a <;> rfl

/-! ## The body at one entry -/

/-- The body's value at entry (r, q) of the block: the bias row is added to the entry, the mean row subtracted, the
    difference scaled by the γ row and by the reciprocal square root of the variance row plus ε, the β row added, and
    the rectifier applied; every row is read at column q. -/
theorem body_entry (x : Vec Ideal S2000x64 .f32) (b var g mean be : Vec Ideal S1x64 .f32) (r : Fin 2000) (q : Fin 64) :
    k5_pay1 (F := Ideal) x b var g mean be (ix2 r q)
      = max (g (ix2 (0 : Fin 1) q) * ((x (ix2 r q) + b (ix2 (0 : Fin 1) q)) - mean (ix2 (0 : Fin 1) q))
          * Ideal.rsqrt (var (ix2 (0 : Fin 1) q) + Ideal.ofBits .f32 0x3727C5AC#32) + be (ix2 (0 : Fin 1) q)) 0 := by
  unfold k5_pay1
  simp only [shapeCast_self]
  simp only [maximumf_apply, addf_apply, mulf_apply, subf_apply, broadcast_apply, broadcastTo_1b_ab_apply]
  show max (_ * _ * Ideal.rsqrt (var (ix2 (0 : Fin 1) q) + Ideal.ofBits .f32 0x3727C5AC#32) + _) (Ideal.ofBits .f32 0x00000000#32) = _
  rw [Ideal.ofBits_zero_f32]

/-! ## Where the blocks sit -/

/-- The block indices of the seven windows at the 50 grid points: the input and output matrices' blocks sit at block
    row t, column 0; each parameter row has the one block (0, 0). -/
theorem blockIndex : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Entry (r, q) of the input matrix's block at point t is entry (2000 t + r, q) of the array. -/
theorem xBlock_entry (t : Fin cfg5.N) (r : Fin 2000) (q : Fin 64) (p : Fin 100000) (hp : p.val = t.val * 2000 + r.val) :
    (iblk5 V c 0 t : Vec Ideal S2000x64 .f32) (ix2 r q) = (V c (Pipeline.arrRef spec5 0) : Mat 100000 64) (ix2 p q) := by
  obtain ⟨e0, e1, -⟩ := blockIndex t
  show (V c (Pipeline.arrRef spec5 0) : Mat 100000 64) (((cfg5.win 0).blk t).view.emb (ix2 r q)) = _
  refine congrArg _ ?_
  funext a; apply Fin.ext
  match a with
  | ⟨0, _⟩ => show win5_0.index t (0 : Fin 2) * 2000 + 1 * r.val = p.val; rw [e0, hp]; omega
  | ⟨1, _⟩ => show win5_0.index t (1 : Fin 2) * 64 + 1 * q.val = q.val; rw [e1]; omega

/-! Each parameter row's one block is its whole array, at every point. -/

theorem rowBlock1_entry (t : Fin cfg5.N) (q : Fin 64) :
    (iblk5 V c 1 t : Vec Ideal S1x64 .f32) (ix2 (0 : Fin 1) q) = (V c (Pipeline.arrRef spec5 1) : Mat 1 64) (ix2 (0 : Fin 1) q) := by
  obtain ⟨-, -, e0, e1, -⟩ := blockIndex t
  show (V c (Pipeline.arrRef spec5 1) : Mat 1 64) (((cfg5.win 1).blk t).view.emb (ix2 (0 : Fin 1) q)) = _
  refine congrArg _ ?_
  funext a; apply Fin.ext
  match a with
  | ⟨0, _⟩ => show win5_1.index t (0 : Fin 2) * 1 + 1 * 0 = 0; rw [e0]
  | ⟨1, _⟩ => show win5_1.index t (1 : Fin 2) * 64 + 1 * q.val = q.val; rw [e1]; omega

theorem rowBlock2_entry (t : Fin cfg5.N) (q : Fin 64) :
    (iblk5 V c 2 t : Vec Ideal S1x64 .f32) (ix2 (0 : Fin 1) q) = (V c (Pipeline.arrRef spec5 2) : Mat 1 64) (ix2 (0 : Fin 1) q) := by
  obtain ⟨-, -, -, -, e0, e1, -⟩ := blockIndex t
  show (V c (Pipeline.arrRef spec5 2) : Mat 1 64) (((cfg5.win 2).blk t).view.emb (ix2 (0 : Fin 1) q)) = _
  refine congrArg _ ?_
  funext a; apply Fin.ext
  match a with
  | ⟨0, _⟩ => show win5_2.index t (0 : Fin 2) * 1 + 1 * 0 = 0; rw [e0]
  | ⟨1, _⟩ => show win5_2.index t (1 : Fin 2) * 64 + 1 * q.val = q.val; rw [e1]; omega

theorem rowBlock3_entry (t : Fin cfg5.N) (q : Fin 64) :
    (iblk5 V c 3 t : Vec Ideal S1x64 .f32) (ix2 (0 : Fin 1) q) = (V c (Pipeline.arrRef spec5 3) : Mat 1 64) (ix2 (0 : Fin 1) q) := by
  obtain ⟨-, -, -, -, -, -, e0, e1, -⟩ := blockIndex t
  show (V c (Pipeline.arrRef spec5 3) : Mat 1 64) (((cfg5.win 3).blk t).view.emb (ix2 (0 : Fin 1) q)) = _
  refine congrArg _ ?_
  funext a; apply Fin.ext
  match a with
  | ⟨0, _⟩ => show win5_3.index t (0 : Fin 2) * 1 + 1 * 0 = 0; rw [e0]
  | ⟨1, _⟩ => show win5_3.index t (1 : Fin 2) * 64 + 1 * q.val = q.val; rw [e1]; omega

theorem rowBlock4_entry (t : Fin cfg5.N) (q : Fin 64) :
    (iblk5 V c 4 t : Vec Ideal S1x64 .f32) (ix2 (0 : Fin 1) q) = (V c (Pipeline.arrRef spec5 4) : Mat 1 64) (ix2 (0 : Fin 1) q) := by
  obtain ⟨-, -, -, -, -, -, -, -, e0, e1, -⟩ := blockIndex t
  show (V c (Pipeline.arrRef spec5 4) : Mat 1 64) (((cfg5.win 4).blk t).view.emb (ix2 (0 : Fin 1) q)) = _
  refine congrArg _ ?_
  funext a; apply Fin.ext
  match a with
  | ⟨0, _⟩ => show win5_4.index t (0 : Fin 2) * 1 + 1 * 0 = 0; rw [e0]
  | ⟨1, _⟩ => show win5_4.index t (1 : Fin 2) * 64 + 1 * q.val = q.val; rw [e1]; omega

theorem rowBlock5_entry (t : Fin cfg5.N) (q : Fin 64) :
    (iblk5 V c 5 t : Vec Ideal S1x64 .f32) (ix2 (0 : Fin 1) q) = (V c (Pipeline.arrRef spec5 5) : Mat 1 64) (ix2 (0 : Fin 1) q) := by
  obtain ⟨-, -, -, -, -, -, -, -, -, -, e0, e1, -⟩ := blockIndex t
  show (V c (Pipeline.arrRef spec5 5) : Mat 1 64) (((cfg5.win 5).blk t).view.emb (ix2 (0 : Fin 1) q)) = _
  refine congrArg _ ?_
  funext a; apply Fin.ext
  match a with
  | ⟨0, _⟩ => show win5_5.index t (0 : Fin 2) * 1 + 1 * 0 = 0; rw [e0]
  | ⟨1, _⟩ => show win5_5.index t (1 : Fin 2) * 64 + 1 * q.val = q.val; rw [e1]; omega

/-! ## From blocks to the array -/

/-- What the output array holds after the region: the normalisation and rectifier of the input plus its bias row, with
    the statistics and parameters the row arrays hold. -/
abbrev normalized : Mat 100000 64 :=
  bnRelu (Ideal.ofBits .f32 0x3727C5AC#32)
    (addRow (V c (Pipeline.arrRef spec5 0) : Mat 100000 64) (V c (Pipeline.arrRef spec5 1) : Mat 1 64))
    (V c (Pipeline.arrRef spec5 2) : Mat 1 64) (V c (Pipeline.arrRef spec5 3) : Mat 1 64)
    (V c (Pipeline.arrRef spec5 4) : Mat 1 64) (V c (Pipeline.arrRef spec5 5) : Mat 1 64)

/-- What point t writes back is block t of that matrix. -/
theorem writeBack_eq (t : Fin cfg5.N) :
    (dat5 (F := Ideal) V c).flushed 6 t = ((cfg5.win 6).blk t).view.read (Elt Ideal) (normalized V c) := by
  show (cfg5.win 6).cut (grid5.coords t) ((dat5 V c).after 6 t) = _
  rw [after5_6]
  unfold out5_6
  rw [View.canon_unit_zero zeroOffset]
  simp only [View.ld_unit_zero (S := S2000x64) zeroOffset, View.ld_unit_zero (S := S1x64) zeroOffset]
  funext j
  obtain ⟨r, q, rfl⟩ : ∃ (r : Fin 2000) (q : Fin 64), j = ix2 r q := ⟨j 0, j 1, eq_ix2 j⟩
  have ht : t.val < 50 := lt_of_lt_of_eq t.isLt N_5
  have hp : t.val * 2000 + r.val < 100000 := by have := r.isLt; omega
  show k5_pay1 (iblk5 V c 0 t) (iblk5 V c 1 t) (iblk5 V c 3 t) (iblk5 V c 4 t) (iblk5 V c 2 t) (iblk5 V c 5 t) (ix2 r q)
    = normalized V c (((cfg5.win 6).blk t).view.emb (ix2 r q))
  have hemb : ((cfg5.win 6).blk t).view.emb (ix2 r q) = ix2 (⟨t.val * 2000 + r.val, hp⟩ : Fin 100000) q := by
    obtain ⟨-, -, -, -, -, -, -, -, -, -, -, -, e6, e7⟩ := blockIndex t
    funext a; apply Fin.ext
    match a with
    | ⟨0, _⟩ => show win5_6.index t (0 : Fin 2) * 2000 + 1 * r.val = t.val * 2000 + r.val; rw [e6]; omega
    | ⟨1, _⟩ => show win5_6.index t (1 : Fin 2) * 64 + 1 * q.val = q.val; rw [e7]; omega
  rw [hemb]
  refine (body_entry _ _ _ _ _ _ r q).trans ?_
  rw [xBlock_entry V c t r q ⟨_, hp⟩ rfl, rowBlock1_entry, rowBlock2_entry, rowBlock3_entry, rowBlock4_entry, rowBlock5_entry]
  rfl

/-- An index of the output array is in point t's block iff each coordinate is in the block's range on its axis. -/
theorem mem_outBlock (t : Fin cfg5.N) (i : S100000x64.Idx) :
    i ∈ ((cfg5.win 6).blk t).view.set ↔ ∀ a : Fin 2, win5_6.index t a * S2000x64.size a ≤ (i a).val ∧ (i a).val < win5_6.index t a * S2000x64.size a + S2000x64.size a := by
  show i ∈ ((View.whole main_v82).slice (win5_6.rect t)).set ↔ _
  rw [View.set_slice_whole, Rect.mem_set_unit]
  exact Iff.rfl

/-- The 50 output blocks cover the array: row p is in the block of point p / 2000. -/
theorem outBlocks_cover (i : S100000x64.Idx) : ∃ t : Fin cfg5.N, (cfg5.win 6).flush t = true ∧ i ∈ ((cfg5.win 6).blk t).view.set := by
  have hi0 : (i 0).val < 100000 := (i 0).isLt
  have hi1 : (i 1).val < 64 := (i 1).isLt
  have hN : grid5.N = 50 := N_5
  have ht : (i 0).val / 2000 < cfg5.N := by show _ < grid5.N; rw [hN]; omega
  refine ⟨⟨(i 0).val / 2000, ht⟩, flush5_6 _, ?_⟩
  rw [mem_outBlock]
  obtain ⟨-, -, -, -, -, -, -, -, -, -, -, -, e6, e7⟩ := blockIndex ⟨(i 0).val / 2000, ht⟩
  intro a
  match a with
  | ⟨0, _⟩ =>
    show win5_6.index ⟨(i 0).val / 2000, ht⟩ (0 : Fin 2) * 2000 ≤ (i 0).val ∧ (i 0).val < win5_6.index ⟨(i 0).val / 2000, ht⟩ (0 : Fin 2) * 2000 + 2000
    rw [e6]; show (i 0).val / 2000 * 2000 ≤ (i 0).val ∧ (i 0).val < (i 0).val / 2000 * 2000 + 2000
    omega
  | ⟨1, _⟩ =>
    show win5_6.index ⟨(i 0).val / 2000, ht⟩ (1 : Fin 2) * 64 ≤ (i 1).val ∧ (i 1).val < win5_6.index ⟨(i 0).val / 2000, ht⟩ (1 : Fin 2) * 64 + 64
    rw [e7]; omega

end Bn5

/-- The output array after the region: the batch normalisation and rectifier of the input array plus the bias row, with
    the mean, variance, γ and β rows as the region finds them. -/
theorem arr5 : (dat5 (F := Ideal) V c).arrAt 6 cfg5.N
    = bnRelu (Ideal.ofBits .f32 0x3727C5AC#32)
        (addRow (V c (Pipeline.arrRef spec5 0) : Mat 100000 64) (V c (Pipeline.arrRef spec5 1) : Mat 1 64))
        (V c (Pipeline.arrRef spec5 2) : Mat 1 64) (V c (Pipeline.arrRef spec5 3) : Mat 1 64)
        (V c (Pipeline.arrRef spec5 4) : Mat 1 64) (V c (Pipeline.arrRef spec5 5) : Mat 1 64) :=
  (dat5 (F := Ideal) V c).arrAt_eq_of_cover 6 (Bn5.normalized V c) (fun t _ => Bn5.writeBack_eq V c t) Bn5.outBlocks_cover

end Cert.KernelIdeal.RegionValue

end
-- ==== Proof.LibColumnTiles.lean ====
/-
  Column sums of a tall matrix taken tile by tile.

  A matrix of `T * n` rows is walked in `T` tiles of `n` consecutive rows. Over the extended reals addition is
  commutative and associative with `0` neutral, so the sum down a column of the per-tile column sums is the column
  sum over all rows, and likewise for the squares; no finiteness is needed. The rows are named by natural numbers
  (`rowAt`: the entry of row `k`, zero past the last row) so that a running sum over the first tiles can be stated
  without carrying a bound.
-/
import proofs.«166389_j81088982548949_1_alg».proof.Proof.LibNormSpec
import Mathlib.Algebra.BigOperators.Fin
import Mathlib.Data.Fintype.BigOperators
import Mathlib.Logic.Equiv.Fin.Basic

noncomputable section

open scoped BigOperators

namespace Cert.Spec.Tiles

open Cert.Spec Idealize.ShloMosaic Idealize.ShloMosaic.ValueIdx

/-- A sum over the first `T * n` naturals taken in `T` consecutive runs of `n`. -/
theorem sum_range_tiles {A : Type*} [AddCommMonoid A] (T n : ℕ) (f : ℕ → A) :
    ∑ j ∈ Finset.range T, ∑ i : Fin n, f (n * j + i.val) = ∑ x : Fin (T * n), f x.val := by
  rw [← Fin.sum_univ_eq_sum_range (fun j => ∑ i : Fin n, f (n * j + i.val)) T,
    ← Equiv.sum_comp finProdFinEquiv (fun x : Fin (T * n) => f x.val), Fintype.sum_prod_type]
  refine Finset.sum_congr rfl fun j _ => Finset.sum_congr rfl fun i _ => congrArg f ?_
  simp only [finProdFinEquiv_apply_val]; omega

/-- The entry of row `k` and column `q`, zero past the last row. -/
def rowAt {M N : Nat} (y : Mat M N) (k : ℕ) (q : Fin N) : EReal :=
  if h : k < M then y (ix2 ⟨k, h⟩ q) else 0

theorem rowAt_of_lt {M N : Nat} (y : Mat M N) (k : ℕ) (h : k < M) (q : Fin N) :
    rowAt y k q = y (ix2 ⟨k, h⟩ q) := dif_pos h

/-- The per-tile column sums of `T` tiles of `n` rows add up to the column sum. -/
theorem colSum_tiles {M N : Nat} (T n : ℕ) (hM : T * n = M) (y : Mat M N) (q : Fin N) :
    ∑ j ∈ Finset.range T, ∑ r : Fin n, rowAt y (n * j + r.val) q = colSum y (ix2 (0 : Fin 1) q) := by
  subst hM
  rw [sum_range_tiles T n (fun k => rowAt y k q)]
  show _ = ∑ r : Fin (T * n), y (ix2 r q)
  exact Finset.sum_congr rfl fun x _ => rowAt_of_lt y x.val x.isLt q

/-- The per-tile column sums of squares of `T` tiles of `n` rows add up to the column sum of squares. -/
theorem colSumSq_tiles {M N : Nat} (T n : ℕ) (hM : T * n = M) (y : Mat M N) (q : Fin N) :
    ∑ j ∈ Finset.range T, ∑ r : Fin n, rowAt y (n * j + r.val) q * rowAt y (n * j + r.val) q
      = colSumSq y (ix2 (0 : Fin 1) q) := by
  subst hM
  rw [sum_range_tiles T n (fun k => rowAt y k q * rowAt y k q)]
  show _ = ∑ r : Fin (T * n), y (ix2 r q) * y (ix2 r q)
  exact Finset.sum_congr rfl fun x _ => by rw [rowAt_of_lt y x.val x.isLt q]

/-- Row `k` of a matrix with a bias row added is the matrix's row plus the bias. -/
theorem rowAt_addRow {M N : Nat} (x : Mat M N) (b : Mat 1 N) (k : ℕ) (h : k < M) (q : Fin N) :
    rowAt (addRow x b) k q = x (ix2 ⟨k, h⟩ q) + b (ix2 (0 : Fin 1) q) :=
  rowAt_of_lt (addRow x b) k h q

end Cert.Spec.Tiles

end
-- ==== Proof.KStats1.lean ====
/-
  The column statistics of the first hidden layer, read off the accumulating region of the program.

  The region walks the 100000 rows of its operand `x` in 50 tiles of 2000 rows. At each tile it adds the bias row `b`
  to every row, `y = x + b`, and adds the tile's column sums of `y` and of `y * y` to two running rows; the running
  rows are zeroed before the first tile, kept in place between tiles, and written to their arrays after the last.
  So after tile `n` the running rows hold the sums over the rows of tiles `0 … n` (an induction on the tile), and the
  arrays end holding the column sums and column sums of squares of `y` over all rows (the tiles' sums added up:
  addition on the extended reals is commutative and associative, no finiteness is needed).
-/
import proofs.«166389_j81088982548949_1_alg».proof.Proof.Gen.KernelIdeal.Frame
import proofs.«166389_j81088982548949_1_alg».proof.Proof.LibColumnTiles
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue.Stats1

open Cert.KernelIdeal Cert.KernelIdeal.Gen Cert.Spec Idealize.ShloMosaic Idealize.ShloMosaic.TcCoe
  Idealize.ShloMosaic.ValueIdx Idealize.SL.Sem
open Idealize.ShloMosaic.Pipeline (Dat)

/-! ## What each control case leaves in the two running rows, for any float values -/

section Found

variable {F : FTy → Type} [FloatOps F]

theorem zero2 : (![0, 0] : Fin 2 → Nat) = fun _ => 0 := funext fun a => by fin_cases a <;> rfl

/-- A later tile: the running sum row becomes the sum payload of the tile, the bias row and the row so far. -/
theorem later_sum (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S2000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero zero2]
  simp only [View.readAt_eq_ld, h1.read_unread, h2.read_unread, h3.read_unread, h4.read_unread,
    View.ld_unit_zero (S := S2000x128) zero2, View.ld_unit_zero (S := S1x128) zero2]

/-- A later tile: the running row of squares likewise. -/
theorem later_sumsq (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S2000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero zero2]
  simp only [View.readAt_eq_ld, h1.read_unread, h2.read_unread, h3.read_unread, h4.read_unread,
    View.ld_unit_zero (S := S2000x128) zero2, View.ld_unit_zero (S := S1x128) zero2]

/-- The first tile: the running sum row is zeroed, then the same payload over the zero row. -/
theorem first_sum (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S2000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) zero2]
  simp only [View.readCov_unit_zero (S := S1x128) _ zero2, View.readAt_eq_ld, h1.read_unread, h2.read_unread,
    View.ld_unit_zero (S := S2000x128) zero2, View.ld_unit_zero (S := S1x128) zero2]

/-- The first tile: the running row of squares likewise. -/
theorem first_sumsq (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S2000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) zero2]
  simp only [View.readCov_unit_zero (S := S1x128) _ zero2, View.readAt_eq_ld, h1.read_unread, h2.read_unread,
    View.ld_unit_zero (S := S2000x128) zero2, View.ld_unit_zero (S := S1x128) zero2]

end Found

/-! ## The payloads at an entry, over the extended reals -/

/-- The bias row added to every row of a tile, at an entry. -/
theorem biased_apply (x : FVec Ideal S2000x128 .f32) (b : FVec Ideal S1x128 .f32) (r : Fin 2000) (q : Fin 128) :
    k1_pay3 (F := Ideal) x b (ix2 r q) = x (ix2 r q) + b (ix2 (0 : Fin 1) q) := by
  unfold k1_pay3
  show addf (shapeCast S2000x128 x shapeCasts_S2000x128_S2000x128)
      (broadcastTo S2000x128 (shapeCast S1x128 b shapeCasts_S1x128_S1x128) broadcasts_S1x128_S2000x128) (ix2 r q) = _
  rw [shapeCast_self, shapeCast_self]
  refine (addf_apply _ _ _).trans ?_
  exact congrArg (x (ix2 r q) + ·) (broadcastTo_1b_ab_apply b broadcasts_S1x128_S2000x128 r q)

/-- The reduction over the rows of a tile, at a column: the sum down that column. -/
theorem rowReduce_apply (v : FVec Ideal S2000x128 .f32) (hφ : FKind.Formats .f32)
    (hacc : (0x00000000#32 : BitVec 32) = 0x00000000#32) (q : Fin 128) :
    multiReduction (F := Ideal) .add [0] S128 v 0x00000000#32 reduces_S2000x128_S128 hφ hacc (ix1 q)
      = ∑ r : Fin 2000, v (ix2 r q) := by
  refine (Ideal.multiReduction_add_single v 0x00000000#32 reduces_S2000x128_S128 hφ hacc (ix1 q)).trans ?_
  refine Finset.sum_congr rfl fun r _ => congrArg v ?_
  funext a
  match a with
  | ⟨0, _⟩ => rfl
  | ⟨1, _⟩ => rfl

/-- The running column sum after a tile: the sum so far plus the tile's column sum of `x + b`. -/
theorem sumStep_apply (x : FVec Ideal S2000x128 .f32) (b acc : FVec Ideal S1x128 .f32) (q : Fin 128) :
    k1_pay4 (F := Ideal) x b acc (ix2 (0 : Fin 1) q)
      = acc (ix2 (0 : Fin 1) q) + ∑ r : Fin 2000, (x (ix2 r q) + b (ix2 (0 : Fin 1) q)) := by
  unfold k1_pay4
  show addf (shapeCast S1x128 acc shapeCasts_S1x128_S1x128)
      (shapeCast S1x128 (multiReduction .add [0] S128 (k1_pay3 x b) 0x00000000#32 reduces_S2000x128_S128 (.inl rfl) rfl)
        shapeCasts_S128_S1x128) (ix2 (0 : Fin 1) q) = _
  rw [shapeCast_self]
  refine (addf_apply _ _ _).trans ?_
  refine congrArg (acc (ix2 (0 : Fin 1) q) + ·) ?_
  refine (shapeCast_a_1a_apply _ shapeCasts_S128_S1x128 (0 : Fin 1) q).trans ?_
  refine (rowReduce_apply (k1_pay3 x b) (.inl rfl) rfl q).trans ?_
  exact Finset.sum_congr rfl fun r _ => biased_apply x b r q

/-- The running column sum of squares after a tile. -/
theorem sqStep_apply (x : FVec Ideal S2000x128 .f32) (b acc : FVec Ideal S1x128 .f32) (q : Fin 128) :
    k1_pay5 (F := Ideal) x b acc (ix2 (0 : Fin 1) q)
      = acc (ix2 (0 : Fin 1) q)
        + ∑ r : Fin 2000, (x (ix2 r q) + b (ix2 (0 : Fin 1) q)) * (x (ix2 r q) + b (ix2 (0 : Fin 1) q)) := by
  unfold k1_pay5
  show addf (shapeCast S1x128 acc shapeCasts_S1x128_S1x128)
      (shapeCast S1x128 (multiReduction .add [0] S128 (mulf (k1_pay3 x b) (k1_pay3 x b)) 0x00000000#32
        reduces_S2000x128_S128 (.inl rfl) rfl) shapeCasts_S128_S1x128) (ix2 (0 : Fin 1) q) = _
  rw [shapeCast_self]
  refine (addf_apply _ _ _).trans ?_
  refine congrArg (acc (ix2 (0 : Fin 1) q) + ·) ?_
  refine (shapeCast_a_1a_apply _ shapeCasts_S128_S1x128 (0 : Fin 1) q).trans ?_
  refine (rowReduce_apply (mulf (k1_pay3 x b) (k1_pay3 x b)) (.inl rfl) rfl q).trans ?_
  refine Finset.sum_congr rfl fun r _ => ?_
  refine (mulf_apply _ _ _).trans ?_
  rw [biased_apply x b r q]

/-- The row the running sums are reset to is zero. -/
theorem resetSum_apply (q : Fin 128) : k1_pay1 (F := Ideal) (ix2 (0 : Fin 1) q) = 0 := by
  unfold k1_pay1
  show broadcast S1x128 (Scalar.ofBits (F := Ideal) .f32 0x00000000#32) (ix2 (0 : Fin 1) q) = 0
  exact Ideal.ofBits_zero_f32

theorem resetSq_apply (q : Fin 128) : k1_pay2 (F := Ideal) (ix2 (0 : Fin 1) q) = 0 := by
  unfold k1_pay2
  show broadcast S1x128 (Scalar.ofBits (F := Ideal) .f32 0x00000000#32) (ix2 (0 : Fin 1) q) = 0
  exact Ideal.ofBits_zero_f32

/-! ## The region: its operands, tiles and running rows -/

section Region

variable (V : (c : Dev nD) → (b : Ref sig .tc) → Buf (Elt Ideal) ((c : Thread nD τ).loc b)) (c : Dev nD)

/-- The region's operand `x` and bias row `b`, as it finds them. -/
abbrev xs : Mat 100000 128 := V c (Pipeline.arrRef spec1 0)
abbrev bs : Mat 1 128 := V c (Pipeline.arrRef spec1 1)

/-- Tile `t` of the operand and the bias window's block at tile `t`, as the region's body finds them. -/
abbrev tile (t : Fin cfg1.N) : FVec Ideal S2000x128 .f32 := iblk1 V c 0 t
abbrev tileBias (t : Fin cfg1.N) : FVec Ideal S1x128 .f32 := iblk1 V c 1 t

/-- The block index maps over the grid: tile `t` of the operand is block row `t`; the bias row and the two running
    rows are their whole arrays at every tile. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Tile `t`'s entry `(r, q)` is the operand's entry `(2000 t + r, q)`. -/
theorem tile_apply (t : Fin cfg1.N) (r : Fin 2000) (q : Fin 128) (h : 2000 * t.val + r.val < 100000) :
    tile V c t (ix2 r q) = xs V c (ix2 ⟨2000 * t.val + r.val, h⟩ q) := by
  unfold tile iblk1
  rw [View.read_apply]
  refine congrArg (V c (Pipeline.arrRef spec1 0)) ?_
  obtain ⟨e0, e1, -⟩ := index_facts t
  funext a
  apply Fin.ext
  match a with
  | ⟨0, _⟩ => show win1_0.index t 0 * 2000 + 1 * r.val = 2000 * t.val + r.val; rw [e0]; omega
  | ⟨1, _⟩ => show win1_0.index t 1 * 128 + 1 * q.val = q.val; rw [e1]; omega

/-- The bias window's block at any tile is the bias row. -/
theorem bias_apply (t : Fin cfg1.N) (q : Fin 128) :
    tileBias V c t (ix2 (0 : Fin 1) q) = bs V c (ix2 (0 : Fin 1) q) := by
  unfold tileBias iblk1
  rw [View.read_apply]
  refine congrArg (V c (Pipeline.arrRef spec1 1)) ?_
  obtain ⟨-, -, e0, e1, -⟩ := index_facts t
  funext a
  apply Fin.ext
  match a with
  | ⟨0, _⟩ => show win1_1.index t 0 * 1 + 1 * 0 = 0; rw [e0]
  | ⟨1, _⟩ => show win1_1.index t 1 * 128 + 1 * q.val = q.val; rw [e1]; omega

/-- An entry of tile `t` with the bias added is the entry of `x + b` in row `2000 t + r`. -/
theorem tile_term (t : Fin cfg1.N) (r : Fin 2000) (q : Fin 128) :
    tile V c t (ix2 r q) + tileBias V c t (ix2 (0 : Fin 1) q)
      = Tiles.rowAt (addRow (xs V c) (bs V c)) (2000 * t.val + r.val) q := by
  have hN : cfg1.N = 50 := N_1
  have ht : t.val < 50 := lt_of_lt_of_eq t.isLt hN
  have h : 2000 * t.val + r.val < 100000 := by have := r.isLt; omega
  rw [Tiles.rowAt_addRow _ _ _ h, tile_apply V c t r q h, bias_apply V c t q]

/-- What the two running rows hold after the first tile: the step payloads over the zero rows. -/
theorem first_tile (t : Fin cfg1.N) (h0 : t.val % 50 = 0) :
    outsAt1 V c t.val t.isLt
      = (k1_pay4 (iblk1 V c 0 t) (iblk1 V c 1 t) (k1_pay1 (F := Ideal)), k1_pay5 (iblk1 V c 0 t) (iblk1 V c 1 t) (k1_pay2 (F := Ideal))) := by
  rw [outsAt1_A V c t h0]
  exact Prod.ext
    (first_sum c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))
    (first_sumsq c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))

/-- What they hold after a later tile: the step payloads over what the tile before left. -/
theorem later_tile (t : Fin cfg1.N) (h0 : ¬t.val % 50 = 0) :
    outsAt1 V c t.val t.isLt
      = (k1_pay4 (iblk1 V c 0 t) (iblk1 V c 1 t) (outsAt1 V c (t.val - 1) (Nat.lt_of_le_of_lt (Nat.sub_le _ _) t.isLt)).1,
         k1_pay5 (iblk1 V c 0 t) (iblk1 V c 1 t) (outsAt1 V c (t.val - 1) (Nat.lt_of_le_of_lt (Nat.sub_le _ _) t.isLt)).2) := by
  rw [outsAt1_B V c t h0]
  exact Prod.ext
    (later_sum c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)
    (later_sumsq c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)

/-- THE RUNNING SUM. After tile `n` the sum row holds, at column `q`, the sum of `x + b` over the rows of tiles
    `0 … n`: by induction on the tile. -/
theorem running_sum : ∀ (n : ℕ) (h : n < cfg1.N) (q : Fin 128),
    (outsAt1 V c n h).1 (ix2 (0 : Fin 1) q)
      = ∑ j ∈ Finset.range (n + 1), ∑ r : Fin 2000, Tiles.rowAt (addRow (xs V c) (bs V c)) (2000 * j + r.val) q
  | 0, h, q => by
    have e : outsAt1 V c 0 h = _ := first_tile V c ⟨0, h⟩ rfl
    rw [e]
    refine (sumStep_apply (tile V c ⟨0, h⟩) (tileBias V c ⟨0, h⟩) k1_pay1 q).trans ?_
    rw [resetSum_apply, zero_add, Finset.sum_range_one]
    exact Finset.sum_congr rfl fun r _ => tile_term V c ⟨0, h⟩ r q
  | n + 1, h, q => by
    have hN : cfg1.N = 50 := N_1
    have hB : ¬(⟨n + 1, h⟩ : Fin cfg1.N).val % 50 = 0 := by dsimp only; omega
    have e : outsAt1 V c (n + 1) h = _ := later_tile V c ⟨n + 1, h⟩ hB
    rw [e]
    refine (sumStep_apply (tile V c ⟨n + 1, h⟩) (tileBias V c ⟨n + 1, h⟩) (outsAt1 V c n (Nat.lt_of_succ_lt h)).1 q).trans ?_
    rw [running_sum n (Nat.lt_of_succ_lt h) q, Finset.sum_range_succ _ (n + 1)]
    refine congrArg (_ + ·) ?_
    exact Finset.sum_congr rfl fun r _ => tile_term V c ⟨n + 1, h⟩ r q

/-- THE RUNNING SUM OF SQUARES, likewise. -/
theorem running_sumsq : ∀ (n : ℕ) (h : n < cfg1.N) (q : Fin 128),
    (outsAt1 V c n h).2 (ix2 (0 : Fin 1) q)
      = ∑ j ∈ Finset.range (n + 1), ∑ r : Fin 2000,
          Tiles.rowAt (addRow (xs V c) (bs V c)) (2000 * j + r.val) q * Tiles.rowAt (addRow (xs V c) (bs V c)) (2000 * j + r.val) q
  | 0, h, q => by
    have e : outsAt1 V c 0 h = _ := first_tile V c ⟨0, h⟩ rfl
    rw [e]
    refine (sqStep_apply (tile V c ⟨0, h⟩) (tileBias V c ⟨0, h⟩) k1_pay2 q).trans ?_
    rw [resetSq_apply, zero_add, Finset.sum_range_one]
    exact Finset.sum_congr rfl fun r _ => by rw [tile_term V c ⟨0, h⟩ r q]
  | n + 1, h, q => by
    have hN : cfg1.N = 50 := N_1
    have hB : ¬(⟨n + 1, h⟩ : Fin cfg1.N).val % 50 = 0 := by dsimp only; omega
    have e : outsAt1 V c (n + 1) h = _ := later_tile V c ⟨n + 1, h⟩ hB
    rw [e]
    refine (sqStep_apply (tile V c ⟨n + 1, h⟩) (tileBias V c ⟨n + 1, h⟩) (outsAt1 V c n (Nat.lt_of_succ_lt h)).2 q).trans ?_
    rw [running_sumsq n (Nat.lt_of_succ_lt h) q, Finset.sum_range_succ _ (n + 1)]
    refine congrArg (_ + ·) ?_
    exact Finset.sum_congr rfl fun r _ => by rw [tile_term V c ⟨n + 1, h⟩ r q]

/-- The last tile. -/
def lastTile : Fin cfg1.N := ⟨49, by rw [show cfg1.N = 50 from N_1]; decide⟩

/-- After the last tile the sum row is the column sum of `x + b` over all rows … -/
theorem last_sum : (outsAt1 V c lastTile.val lastTile.isLt).1 = (colSum (addRow (xs V c) (bs V c)) : Mat 1 128) := by
  funext j
  obtain ⟨u, q, rfl⟩ : ∃ (u : Fin 1) (q : Fin 128), j = ix2 u q := ⟨j 0, j 1, eq_ix2 j⟩
  obtain rfl : u = 0 := Subsingleton.elim _ _
  refine (running_sum V c 49 lastTile.isLt q).trans ?_
  exact Tiles.colSum_tiles 50 2000 (by norm_num) (addRow (xs V c) (bs V c)) q

/-- … and the row of squares the column sum of its squares. -/
theorem last_sumsq : (outsAt1 V c lastTile.val lastTile.isLt).2 = (colSumSq (addRow (xs V c) (bs V c)) : Mat 1 128) := by
  funext j
  obtain ⟨u, q, rfl⟩ : ∃ (u : Fin 1) (q : Fin 128), j = ix2 u q := ⟨j 0, j 1, eq_ix2 j⟩
  obtain rfl : u = 0 := Subsingleton.elim _ _
  refine (running_sumsq V c 49 lastTile.isLt q).trans ?_
  exact Tiles.colSumSq_tiles 50 2000 (by norm_num) (addRow (xs V c) (bs V c)) q

/-! ## The arrays after the region -/

/-- The one write-back of the sum row, after the last tile, writes the column sum: the row's block is its whole array. -/
theorem flushed_sum (t : Fin cfg1.N) (hf : (cfg1.win 2).flush t = true) :
    (dat1 V c).flushed 2 t
      = ((cfg1.win 2).blk t).view.read (Elt Ideal) (colSum (addRow (xs V c) (bs V c)) : Mat 1 128) := by
  have hN : cfg1.N = 50 := N_1
  have h49 : t.val = 49 := by have := (flush1_2 t).mp hf; have := t.isLt; omega
  obtain rfl : t = lastTile := Fin.ext h49
  show (cfg1.win 2).cut (grid1.coords lastTile) ((dat1 V c).after 2 lastTile) = _
  rw [after1_2, last_sum]
  obtain ⟨-, -, -, -, e0, e1, -⟩ := index_facts lastTile
  have hz : (fun a => win1_2.index lastTile a * main_v44_0.ty.shape.size a) = fun _ => 0 := funext fun a => by
    match a with
    | ⟨0, _⟩ => show win1_2.index lastTile 0 * 1 = 0; rw [e0]
    | ⟨1, _⟩ => show win1_2.index lastTile 1 * 128 = 0; rw [e1]
  exact (Memref.read_access_unit_zero (Elt Ideal) main_v44_0 hz (fun a => by rw [congrFun hz a]; simp)
    (colSum (addRow (xs V c) (bs V c)) : Mat 1 128)).symm

/-- The one write-back of the row of squares likewise. -/
theorem flushed_sumsq (t : Fin cfg1.N) (hf : (cfg1.win 3).flush t = true) :
    (dat1 V c).flushed 3 t
      = ((cfg1.win 3).blk t).view.read (Elt Ideal) (colSumSq (addRow (xs V c) (bs V c)) : Mat 1 128) := by
  have hN : cfg1.N = 50 := N_1
  have h49 : t.val = 49 := by have := (flush1_3 t).mp hf; have := t.isLt; omega
  obtain rfl : t = lastTile := Fin.ext h49
  show (cfg1.win 3).cut (grid1.coords lastTile) ((dat1 V c).after 3 lastTile) = _
  rw [after1_3, last_sumsq]
  obtain ⟨-, -, -, -, -, -, e0, e1⟩ := index_facts lastTile
  have hz : (fun a => win1_3.index lastTile a * main_v44_1.ty.shape.size a) = fun _ => 0 := funext fun a => by
    match a with
    | ⟨0, _⟩ => show win1_3.index lastTile 0 * 1 = 0; rw [e0]
    | ⟨1, _⟩ => show win1_3.index lastTile 1 * 128 = 0; rw [e1]
  exact (Memref.read_access_unit_zero (Elt Ideal) main_v44_1 hz (fun a => by rw [congrFun hz a]; simp)
    (colSumSq (addRow (xs V c) (bs V c)) : Mat 1 128)).symm

/-- THE COLUMN SUMS. The region's first result array ends holding the column sums of `x + b`. -/
theorem arr1_sum : (dat1 (F := Ideal) V c).arrAt 2 cfg1.N
    = (colSum (addRow (V c (Pipeline.arrRef spec1 0) : Mat 100000 128) (V c (Pipeline.arrRef spec1 1) : Mat 1 128)) : Mat 1 128) :=
  (dat1 V c).arrAt_eq_of_cover 2 (colSum (addRow (xs V c) (bs V c)) : Mat 1 128) (flushed_sum V c) fun i =>
    ⟨lastTile, (flush1_2 lastTile).mpr rfl, by
      show i ∈ ((View.whole main_v44_0).slice (win1_2.rect lastTile)).set
      rw [View.set_slice_whole, Rect.mem_set_unit]
      obtain ⟨-, -, -, -, e0, e1, -⟩ := index_facts lastTile
      have h0 : (i 0 : Nat) < 1 := (i 0).isLt
      have h1 : (i 1 : Nat) < 128 := (i 1).isLt
      intro a
      match a with
      | ⟨0, _⟩ =>
        show win1_2.index lastTile 0 * 1 ≤ (i 0 : Nat) ∧ (i 0 : Nat) < win1_2.index lastTile 0 * 1 + 1
        rw [e0]; omega
      | ⟨1, _⟩ =>
        show win1_2.index lastTile 1 * 128 ≤ (i 1 : Nat) ∧ (i 1 : Nat) < win1_2.index lastTile 1 * 128 + 128
        rw [e1]; omega⟩

/-- THE COLUMN SUMS OF SQUARES. Its second result array ends holding the column sums of `(x + b)²`. -/
theorem arr1_sumsq : (dat1 (F := Ideal) V c).arrAt 3 cfg1.N
    = (colSumSq (addRow (V c (Pipeline.arrRef spec1 0) : Mat 100000 128) (V c (Pipeline.arrRef spec1 1) : Mat 1 128)) : Mat 1 128) :=
  (dat1 V c).arrAt_eq_of_cover 3 (colSumSq (addRow (xs V c) (bs V c)) : Mat 1 128) (flushed_sumsq V c) fun i =>
    ⟨lastTile, (flush1_3 lastTile).mpr rfl, by
      show i ∈ ((View.whole main_v44_1).slice (win1_3.rect lastTile)).set
      rw [View.set_slice_whole, Rect.mem_set_unit]
      obtain ⟨-, -, -, -, -, -, e0, e1⟩ := index_facts lastTile
      have h0 : (i 0 : Nat) < 1 := (i 0).isLt
      have h1 : (i 1 : Nat) < 128 := (i 1).isLt
      intro a
      match a with
      | ⟨0, _⟩ =>
        show win1_3.index lastTile 0 * 1 ≤ (i 0 : Nat) ∧ (i 0 : Nat) < win1_3.index lastTile 0 * 1 + 1
        rw [e0]; omega
      | ⟨1, _⟩ =>
        show win1_3.index lastTile 1 * 128 ≤ (i 1 : Nat) ∧ (i 1 : Nat) < win1_3.index lastTile 1 * 128 + 128
        rw [e1]; omega⟩

end Region

end Cert.KernelIdeal.RegionValue.Stats1

end
-- ==== Proof.KStats4.lean ====
/-
  The column statistics of the second hidden layer, read off the accumulating region of the program.

  The region walks the 100000 rows of its operand `x` in 50 tiles of 2000 rows. At each tile it adds the bias row `b`
  to every row, `y = x + b`, and adds the tile's column sums of `y` and of `y * y` to two running rows; the running
  rows are zeroed before the first tile, kept in place between tiles, and written to their arrays after the last.
  So after tile `n` the running rows hold the sums over the rows of tiles `0 … n` (an induction on the tile), and the
  arrays end holding the column sums and column sums of squares of `y` over all rows (the tiles' sums added up:
  addition on the extended reals is commutative and associative, no finiteness is needed).
-/
import proofs.«166389_j81088982548949_1_alg».proof.Proof.Gen.KernelIdeal.Frame
import proofs.«166389_j81088982548949_1_alg».proof.Proof.LibColumnTiles
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue.Stats4

open Cert.KernelIdeal Cert.KernelIdeal.Gen Cert.Spec Idealize.ShloMosaic Idealize.ShloMosaic.TcCoe
  Idealize.ShloMosaic.ValueIdx Idealize.SL.Sem
open Idealize.ShloMosaic.Pipeline (Dat)

/-! ## What each control case leaves in the two running rows, for any float values -/

section Found

variable {F : FTy → Type} [FloatOps F]

theorem zero2 : (![0, 0] : Fin 2 → Nat) = fun _ => 0 := funext fun a => by fin_cases a <;> rfl

/-- A later tile: the running sum row becomes the sum payload of the tile, the bias row and the row so far. -/
theorem later_sum (c : Dev nD) (i : grid4.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond4_0 i)
    (x0 : Vec F S2000x64 .f32) (x1 xo2 xo3 : Vec F S1x64 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  sl_unfold_words
  rw [View.canon_unit_zero zero2]
  simp only [View.readAt_eq_ld, h1.read_unread, h2.read_unread, h3.read_unread, h4.read_unread,
    View.ld_unit_zero (S := S2000x64) zero2, View.ld_unit_zero (S := S1x64) zero2]

/-- A later tile: the running row of squares likewise. -/
theorem later_sumsq (c : Dev nD) (i : grid4.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond4_0 i)
    (x0 : Vec F S2000x64 .f32) (x1 xo2 xo3 : Vec F S1x64 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  sl_unfold_words
  rw [View.canon_unit_zero zero2]
  simp only [View.readAt_eq_ld, h1.read_unread, h2.read_unread, h3.read_unread, h4.read_unread,
    View.ld_unit_zero (S := S2000x64) zero2, View.ld_unit_zero (S := S1x64) zero2]

/-- The first tile: the running sum row is zeroed, then the same payload over the zero row. -/
theorem first_sum (c : Dev nD) (i : grid4.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond4_0 i)
    (x0 : Vec F S2000x64 .f32) (x1 : Vec F S1x64 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x64) zero2]
  simp only [View.readCov_unit_zero (S := S1x64) _ zero2, View.readAt_eq_ld, h1.read_unread, h2.read_unread,
    View.ld_unit_zero (S := S2000x64) zero2, View.ld_unit_zero (S := S1x64) zero2]

/-- The first tile: the running row of squares likewise. -/
theorem first_sumsq (c : Dev nD) (i : grid4.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond4_0 i)
    (x0 : Vec F S2000x64 .f32) (x1 : Vec F S1x64 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x64) zero2]
  simp only [View.readCov_unit_zero (S := S1x64) _ zero2, View.readAt_eq_ld, h1.read_unread, h2.read_unread,
    View.ld_unit_zero (S := S2000x64) zero2, View.ld_unit_zero (S := S1x64) zero2]

end Found

/-! ## The payloads at an entry, over the extended reals -/

/-- The bias row added to every row of a tile, at an entry. -/
theorem biased_apply (x : FVec Ideal S2000x64 .f32) (b : FVec Ideal S1x64 .f32) (r : Fin 2000) (q : Fin 64) :
    k4_pay3 (F := Ideal) x b (ix2 r q) = x (ix2 r q) + b (ix2 (0 : Fin 1) q) := by
  unfold k4_pay3
  show addf (shapeCast S2000x64 x shapeCasts_S2000x64_S2000x64)
      (broadcastTo S2000x64 (shapeCast S1x64 b shapeCasts_S1x64_S1x64) broadcasts_S1x64_S2000x64) (ix2 r q) = _
  rw [shapeCast_self, shapeCast_self]
  refine (addf_apply _ _ _).trans ?_
  exact congrArg (x (ix2 r q) + ·) (broadcastTo_1b_ab_apply b broadcasts_S1x64_S2000x64 r q)

/-- The reduction over the rows of a tile, at a column: the sum down that column. -/
theorem rowReduce_apply (v : FVec Ideal S2000x64 .f32) (hφ : FKind.Formats .f32)
    (hacc : (0x00000000#32 : BitVec 32) = 0x00000000#32) (q : Fin 64) :
    multiReduction (F := Ideal) .add [0] S64 v 0x00000000#32 reduces_S2000x64_S64 hφ hacc (ix1 q)
      = ∑ r : Fin 2000, v (ix2 r q) := by
  refine (Ideal.multiReduction_add_single v 0x00000000#32 reduces_S2000x64_S64 hφ hacc (ix1 q)).trans ?_
  refine Finset.sum_congr rfl fun r _ => congrArg v ?_
  funext a
  match a with
  | ⟨0, _⟩ => rfl
  | ⟨1, _⟩ => rfl

/-- The running column sum after a tile: the sum so far plus the tile's column sum of `x + b`. -/
theorem sumStep_apply (x : FVec Ideal S2000x64 .f32) (b acc : FVec Ideal S1x64 .f32) (q : Fin 64) :
    k4_pay4 (F := Ideal) x b acc (ix2 (0 : Fin 1) q)
      = acc (ix2 (0 : Fin 1) q) + ∑ r : Fin 2000, (x (ix2 r q) + b (ix2 (0 : Fin 1) q)) := by
  unfold k4_pay4
  show addf (shapeCast S1x64 acc shapeCasts_S1x64_S1x64)
      (shapeCast S1x64 (multiReduction .add [0] S64 (k4_pay3 x b) 0x00000000#32 reduces_S2000x64_S64 (.inl rfl) rfl)
        shapeCasts_S64_S1x64) (ix2 (0 : Fin 1) q) = _
  rw [shapeCast_self]
  refine (addf_apply _ _ _).trans ?_
  refine congrArg (acc (ix2 (0 : Fin 1) q) + ·) ?_
  refine (shapeCast_a_1a_apply _ shapeCasts_S64_S1x64 (0 : Fin 1) q).trans ?_
  refine (rowReduce_apply (k4_pay3 x b) (.inl rfl) rfl q).trans ?_
  exact Finset.sum_congr rfl fun r _ => biased_apply x b r q

/-- The running column sum of squares after a tile. -/
theorem sqStep_apply (x : FVec Ideal S2000x64 .f32) (b acc : FVec Ideal S1x64 .f32) (q : Fin 64) :
    k4_pay5 (F := Ideal) x b acc (ix2 (0 : Fin 1) q)
      = acc (ix2 (0 : Fin 1) q)
        + ∑ r : Fin 2000, (x (ix2 r q) + b (ix2 (0 : Fin 1) q)) * (x (ix2 r q) + b (ix2 (0 : Fin 1) q)) := by
  unfold k4_pay5
  show addf (shapeCast S1x64 acc shapeCasts_S1x64_S1x64)
      (shapeCast S1x64 (multiReduction .add [0] S64 (mulf (k4_pay3 x b) (k4_pay3 x b)) 0x00000000#32
        reduces_S2000x64_S64 (.inl rfl) rfl) shapeCasts_S64_S1x64) (ix2 (0 : Fin 1) q) = _
  rw [shapeCast_self]
  refine (addf_apply _ _ _).trans ?_
  refine congrArg (acc (ix2 (0 : Fin 1) q) + ·) ?_
  refine (shapeCast_a_1a_apply _ shapeCasts_S64_S1x64 (0 : Fin 1) q).trans ?_
  refine (rowReduce_apply (mulf (k4_pay3 x b) (k4_pay3 x b)) (.inl rfl) rfl q).trans ?_
  refine Finset.sum_congr rfl fun r _ => ?_
  refine (mulf_apply _ _ _).trans ?_
  rw [biased_apply x b r q]

/-- The row the running sums are reset to is zero. -/
theorem resetSum_apply (q : Fin 64) : k4_pay1 (F := Ideal) (ix2 (0 : Fin 1) q) = 0 := by
  unfold k4_pay1
  show broadcast S1x64 (Scalar.ofBits (F := Ideal) .f32 0x00000000#32) (ix2 (0 : Fin 1) q) = 0
  exact Ideal.ofBits_zero_f32

theorem resetSq_apply (q : Fin 64) : k4_pay2 (F := Ideal) (ix2 (0 : Fin 1) q) = 0 := by
  unfold k4_pay2
  show broadcast S1x64 (Scalar.ofBits (F := Ideal) .f32 0x00000000#32) (ix2 (0 : Fin 1) q) = 0
  exact Ideal.ofBits_zero_f32

/-! ## The region: its operands, tiles and running rows -/

section Region

variable (V : (c : Dev nD) → (b : Ref sig .tc) → Buf (Elt Ideal) ((c : Thread nD τ).loc b)) (c : Dev nD)

/-- The region's operand `x` and bias row `b`, as it finds them. -/
abbrev xs : Mat 100000 64 := V c (Pipeline.arrRef spec4 0)
abbrev bs : Mat 1 64 := V c (Pipeline.arrRef spec4 1)

/-- Tile `t` of the operand and the bias window's block at tile `t`, as the region's body finds them. -/
abbrev tile (t : Fin cfg4.N) : FVec Ideal S2000x64 .f32 := iblk4 V c 0 t
abbrev tileBias (t : Fin cfg4.N) : FVec Ideal S1x64 .f32 := iblk4 V c 1 t

/-- The block index maps over the grid: tile `t` of the operand is block row `t`; the bias row and the two running
    rows are their whole arrays at every tile. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- Tile `t`'s entry `(r, q)` is the operand's entry `(2000 t + r, q)`. -/
theorem tile_apply (t : Fin cfg4.N) (r : Fin 2000) (q : Fin 64) (h : 2000 * t.val + r.val < 100000) :
    tile V c t (ix2 r q) = xs V c (ix2 ⟨2000 * t.val + r.val, h⟩ q) := by
  unfold tile iblk4
  rw [View.read_apply]
  refine congrArg (V c (Pipeline.arrRef spec4 0)) ?_
  obtain ⟨e0, e1, -⟩ := index_facts t
  funext a
  apply Fin.ext
  match a with
  | ⟨0, _⟩ => show win4_0.index t 0 * 2000 + 1 * r.val = 2000 * t.val + r.val; rw [e0]; omega
  | ⟨1, _⟩ => show win4_0.index t 1 * 64 + 1 * q.val = q.val; rw [e1]; omega

/-- The bias window's block at any tile is the bias row. -/
theorem bias_apply (t : Fin cfg4.N) (q : Fin 64) :
    tileBias V c t (ix2 (0 : Fin 1) q) = bs V c (ix2 (0 : Fin 1) q) := by
  unfold tileBias iblk4
  rw [View.read_apply]
  refine congrArg (V c (Pipeline.arrRef spec4 1)) ?_
  obtain ⟨-, -, e0, e1, -⟩ := index_facts t
  funext a
  apply Fin.ext
  match a with
  | ⟨0, _⟩ => show win4_1.index t 0 * 1 + 1 * 0 = 0; rw [e0]
  | ⟨1, _⟩ => show win4_1.index t 1 * 64 + 1 * q.val = q.val; rw [e1]; omega

/-- An entry of tile `t` with the bias added is the entry of `x + b` in row `2000 t + r`. -/
theorem tile_term (t : Fin cfg4.N) (r : Fin 2000) (q : Fin 64) :
    tile V c t (ix2 r q) + tileBias V c t (ix2 (0 : Fin 1) q)
      = Tiles.rowAt (addRow (xs V c) (bs V c)) (2000 * t.val + r.val) q := by
  have hN : cfg4.N = 50 := N_4
  have ht : t.val < 50 := lt_of_lt_of_eq t.isLt hN
  have h : 2000 * t.val + r.val < 100000 := by have := r.isLt; omega
  rw [Tiles.rowAt_addRow _ _ _ h, tile_apply V c t r q h, bias_apply V c t q]

/-- What the two running rows hold after the first tile: the step payloads over the zero rows. -/
theorem first_tile (t : Fin cfg4.N) (h0 : t.val % 50 = 0) :
    outsAt4 V c t.val t.isLt
      = (k4_pay4 (iblk4 V c 0 t) (iblk4 V c 1 t) (k4_pay1 (F := Ideal)), k4_pay5 (iblk4 V c 0 t) (iblk4 V c 1 t) (k4_pay2 (F := Ideal))) := by
  rw [outsAt4_A V c t h0]
  exact Prod.ext
    (first_sum c (grid4.coords t) (ms4_0 t) (hs4_0 t) (ms4_1 t) (hs4_1 t) (ms4_2 t) (hs4_2 t) (ms4_3 t) (hs4_3 t)
      ((hcond4_0 t).mpr h0) (iblk4 V c 0 t) (iblk4 V c 1 t))
    (first_sumsq c (grid4.coords t) (ms4_0 t) (hs4_0 t) (ms4_1 t) (hs4_1 t) (ms4_2 t) (hs4_2 t) (ms4_3 t) (hs4_3 t)
      ((hcond4_0 t).mpr h0) (iblk4 V c 0 t) (iblk4 V c 1 t))

/-- What they hold after a later tile: the step payloads over what the tile before left. -/
theorem later_tile (t : Fin cfg4.N) (h0 : ¬t.val % 50 = 0) :
    outsAt4 V c t.val t.isLt
      = (k4_pay4 (iblk4 V c 0 t) (iblk4 V c 1 t) (outsAt4 V c (t.val - 1) (Nat.lt_of_le_of_lt (Nat.sub_le _ _) t.isLt)).1,
         k4_pay5 (iblk4 V c 0 t) (iblk4 V c 1 t) (outsAt4 V c (t.val - 1) (Nat.lt_of_le_of_lt (Nat.sub_le _ _) t.isLt)).2) := by
  rw [outsAt4_B V c t h0]
  exact Prod.ext
    (later_sum c (grid4.coords t) (ms4_0 t) (hs4_0 t) (ms4_1 t) (hs4_1 t) (ms4_2 t) (hs4_2 t) (ms4_3 t) (hs4_3 t)
      (fun h => h0 ((hcond4_0 t).mp h)) (iblk4 V c 0 t) (iblk4 V c 1 t)
      (outsAt4 V c (t.val - 1) (Nat.lt_of_le_of_lt (Nat.sub_le _ _) t.isLt)).1
      (outsAt4 V c (t.val - 1) (Nat.lt_of_le_of_lt (Nat.sub_le _ _) t.isLt)).2)
    (later_sumsq c (grid4.coords t) (ms4_0 t) (hs4_0 t) (ms4_1 t) (hs4_1 t) (ms4_2 t) (hs4_2 t) (ms4_3 t) (hs4_3 t)
      (fun h => h0 ((hcond4_0 t).mp h)) (iblk4 V c 0 t) (iblk4 V c 1 t)
      (outsAt4 V c (t.val - 1) (Nat.lt_of_le_of_lt (Nat.sub_le _ _) t.isLt)).1
      (outsAt4 V c (t.val - 1) (Nat.lt_of_le_of_lt (Nat.sub_le _ _) t.isLt)).2)

/-- THE RUNNING SUM. After tile `n` the sum row holds, at column `q`, the sum of `x + b` over the rows of tiles
    `0 … n`: by induction on the tile. -/
theorem running_sum : ∀ (n : ℕ) (h : n < cfg4.N) (q : Fin 64),
    (outsAt4 V c n h).1 (ix2 (0 : Fin 1) q)
      = ∑ j ∈ Finset.range (n + 1), ∑ r : Fin 2000, Tiles.rowAt (addRow (xs V c) (bs V c)) (2000 * j + r.val) q
  | 0, h, q => by
    have e : outsAt4 V c 0 h = _ := first_tile V c ⟨0, h⟩ rfl
    rw [e]
    refine (sumStep_apply (tile V c ⟨0, h⟩) (tileBias V c ⟨0, h⟩) k4_pay1 q).trans ?_
    rw [resetSum_apply, zero_add, Finset.sum_range_one]
    exact Finset.sum_congr rfl fun r _ => tile_term V c ⟨0, h⟩ r q
  | n + 1, h, q => by
    have hN : cfg4.N = 50 := N_4
    have hB : ¬(⟨n + 1, h⟩ : Fin cfg4.N).val % 50 = 0 := by dsimp only; omega
    have e : outsAt4 V c (n + 1) h = _ := later_tile V c ⟨n + 1, h⟩ hB
    rw [e]
    refine (sumStep_apply (tile V c ⟨n + 1, h⟩) (tileBias V c ⟨n + 1, h⟩) (outsAt4 V c n (Nat.lt_of_succ_lt h)).1 q).trans ?_
    rw [running_sum n (Nat.lt_of_succ_lt h) q, Finset.sum_range_succ _ (n + 1)]
    refine congrArg (_ + ·) ?_
    exact Finset.sum_congr rfl fun r _ => tile_term V c ⟨n + 1, h⟩ r q

/-- THE RUNNING SUM OF SQUARES, likewise. -/
theorem running_sumsq : ∀ (n : ℕ) (h : n < cfg4.N) (q : Fin 64),
    (outsAt4 V c n h).2 (ix2 (0 : Fin 1) q)
      = ∑ j ∈ Finset.range (n + 1), ∑ r : Fin 2000,
          Tiles.rowAt (addRow (xs V c) (bs V c)) (2000 * j + r.val) q * Tiles.rowAt (addRow (xs V c) (bs V c)) (2000 * j + r.val) q
  | 0, h, q => by
    have e : outsAt4 V c 0 h = _ := first_tile V c ⟨0, h⟩ rfl
    rw [e]
    refine (sqStep_apply (tile V c ⟨0, h⟩) (tileBias V c ⟨0, h⟩) k4_pay2 q).trans ?_
    rw [resetSq_apply, zero_add, Finset.sum_range_one]
    exact Finset.sum_congr rfl fun r _ => by rw [tile_term V c ⟨0, h⟩ r q]
  | n + 1, h, q => by
    have hN : cfg4.N = 50 := N_4
    have hB : ¬(⟨n + 1, h⟩ : Fin cfg4.N).val % 50 = 0 := by dsimp only; omega
    have e : outsAt4 V c (n + 1) h = _ := later_tile V c ⟨n + 1, h⟩ hB
    rw [e]
    refine (sqStep_apply (tile V c ⟨n + 1, h⟩) (tileBias V c ⟨n + 1, h⟩) (outsAt4 V c n (Nat.lt_of_succ_lt h)).2 q).trans ?_
    rw [running_sumsq n (Nat.lt_of_succ_lt h) q, Finset.sum_range_succ _ (n + 1)]
    refine congrArg (_ + ·) ?_
    exact Finset.sum_congr rfl fun r _ => by rw [tile_term V c ⟨n + 1, h⟩ r q]

/-- The last tile. -/
def lastTile : Fin cfg4.N := ⟨49, by rw [show cfg4.N = 50 from N_4]; decide⟩

/-- After the last tile the sum row is the column sum of `x + b` over all rows … -/
theorem last_sum : (outsAt4 V c lastTile.val lastTile.isLt).1 = (colSum (addRow (xs V c) (bs V c)) : Mat 1 64) := by
  funext j
  obtain ⟨u, q, rfl⟩ : ∃ (u : Fin 1) (q : Fin 64), j = ix2 u q := ⟨j 0, j 1, eq_ix2 j⟩
  obtain rfl : u = 0 := Subsingleton.elim _ _
  refine (running_sum V c 49 lastTile.isLt q).trans ?_
  exact Tiles.colSum_tiles 50 2000 (by norm_num) (addRow (xs V c) (bs V c)) q

/-- … and the row of squares the column sum of its squares. -/
theorem last_sumsq : (outsAt4 V c lastTile.val lastTile.isLt).2 = (colSumSq (addRow (xs V c) (bs V c)) : Mat 1 64) := by
  funext j
  obtain ⟨u, q, rfl⟩ : ∃ (u : Fin 1) (q : Fin 64), j = ix2 u q := ⟨j 0, j 1, eq_ix2 j⟩
  obtain rfl : u = 0 := Subsingleton.elim _ _
  refine (running_sumsq V c 49 lastTile.isLt q).trans ?_
  exact Tiles.colSumSq_tiles 50 2000 (by norm_num) (addRow (xs V c) (bs V c)) q

/-! ## The arrays after the region -/

/-- The one write-back of the sum row, after the last tile, writes the column sum: the row's block is its whole array. -/
theorem flushed_sum (t : Fin cfg4.N) (hf : (cfg4.win 2).flush t = true) :
    (dat4 V c).flushed 2 t
      = ((cfg4.win 2).blk t).view.read (Elt Ideal) (colSum (addRow (xs V c) (bs V c)) : Mat 1 64) := by
  have hN : cfg4.N = 50 := N_4
  have h49 : t.val = 49 := by have := (flush4_2 t).mp hf; have := t.isLt; omega
  obtain rfl : t = lastTile := Fin.ext h49
  show (cfg4.win 2).cut (grid4.coords lastTile) ((dat4 V c).after 2 lastTile) = _
  rw [after4_2, last_sum]
  obtain ⟨-, -, -, -, e0, e1, -⟩ := index_facts lastTile
  have hz : (fun a => win4_2.index lastTile a * main_v72_0.ty.shape.size a) = fun _ => 0 := funext fun a => by
    match a with
    | ⟨0, _⟩ => show win4_2.index lastTile 0 * 1 = 0; rw [e0]
    | ⟨1, _⟩ => show win4_2.index lastTile 1 * 64 = 0; rw [e1]
  exact (Memref.read_access_unit_zero (Elt Ideal) main_v72_0 hz (fun a => by rw [congrFun hz a]; simp)
    (colSum (addRow (xs V c) (bs V c)) : Mat 1 64)).symm

/-- The one write-back of the row of squares likewise. -/
theorem flushed_sumsq (t : Fin cfg4.N) (hf : (cfg4.win 3).flush t = true) :
    (dat4 V c).flushed 3 t
      = ((cfg4.win 3).blk t).view.read (Elt Ideal) (colSumSq (addRow (xs V c) (bs V c)) : Mat 1 64) := by
  have hN : cfg4.N = 50 := N_4
  have h49 : t.val = 49 := by have := (flush4_3 t).mp hf; have := t.isLt; omega
  obtain rfl : t = lastTile := Fin.ext h49
  show (cfg4.win 3).cut (grid4.coords lastTile) ((dat4 V c).after 3 lastTile) = _
  rw [after4_3, last_sumsq]
  obtain ⟨-, -, -, -, -, -, e0, e1⟩ := index_facts lastTile
  have hz : (fun a => win4_3.index lastTile a * main_v72_1.ty.shape.size a) = fun _ => 0 := funext fun a => by
    match a with
    | ⟨0, _⟩ => show win4_3.index lastTile 0 * 1 = 0; rw [e0]
    | ⟨1, _⟩ => show win4_3.index lastTile 1 * 64 = 0; rw [e1]
  exact (Memref.read_access_unit_zero (Elt Ideal) main_v72_1 hz (fun a => by rw [congrFun hz a]; simp)
    (colSumSq (addRow (xs V c) (bs V c)) : Mat 1 64)).symm

/-- THE COLUMN SUMS. The region's first result array ends holding the column sums of `x + b`. -/
theorem arr4_sum : (dat4 (F := Ideal) V c).arrAt 2 cfg4.N
    = (colSum (addRow (V c (Pipeline.arrRef spec4 0) : Mat 100000 64) (V c (Pipeline.arrRef spec4 1) : Mat 1 64)) : Mat 1 64) :=
  (dat4 V c).arrAt_eq_of_cover 2 (colSum (addRow (xs V c) (bs V c)) : Mat 1 64) (flushed_sum V c) fun i =>
    ⟨lastTile, (flush4_2 lastTile).mpr rfl, by
      show i ∈ ((View.whole main_v72_0).slice (win4_2.rect lastTile)).set
      rw [View.set_slice_whole, Rect.mem_set_unit]
      obtain ⟨-, -, -, -, e0, e1, -⟩ := index_facts lastTile
      have h0 : (i 0 : Nat) < 1 := (i 0).isLt
      have h1 : (i 1 : Nat) < 64 := (i 1).isLt
      intro a
      match a with
      | ⟨0, _⟩ =>
        show win4_2.index lastTile 0 * 1 ≤ (i 0 : Nat) ∧ (i 0 : Nat) < win4_2.index lastTile 0 * 1 + 1
        rw [e0]; omega
      | ⟨1, _⟩ =>
        show win4_2.index lastTile 1 * 64 ≤ (i 1 : Nat) ∧ (i 1 : Nat) < win4_2.index lastTile 1 * 64 + 64
        rw [e1]; omega⟩

/-- THE COLUMN SUMS OF SQUARES. Its second result array ends holding the column sums of `(x + b)²`. -/
theorem arr4_sumsq : (dat4 (F := Ideal) V c).arrAt 3 cfg4.N
    = (colSumSq (addRow (V c (Pipeline.arrRef spec4 0) : Mat 100000 64) (V c (Pipeline.arrRef spec4 1) : Mat 1 64)) : Mat 1 64) :=
  (dat4 V c).arrAt_eq_of_cover 3 (colSumSq (addRow (xs V c) (bs V c)) : Mat 1 64) (flushed_sumsq V c) fun i =>
    ⟨lastTile, (flush4_3 lastTile).mpr rfl, by
      show i ∈ ((View.whole main_v72_1).slice (win4_3.rect lastTile)).set
      rw [View.set_slice_whole, Rect.mem_set_unit]
      obtain ⟨-, -, -, -, -, -, e0, e1⟩ := index_facts lastTile
      have h0 : (i 0 : Nat) < 1 := (i 0).isLt
      have h1 : (i 1 : Nat) < 64 := (i 1).isLt
      intro a
      match a with
      | ⟨0, _⟩ =>
        show win4_3.index lastTile 0 * 1 ≤ (i 0 : Nat) ∧ (i 0 : Nat) < win4_3.index lastTile 0 * 1 + 1
        rw [e0]; omega
      | ⟨1, _⟩ =>
        show win4_3.index lastTile 1 * 64 ≤ (i 1 : Nat) ∧ (i 1 : Nat) < win4_3.index lastTile 1 * 64 + 64
        rw [e1]; omega⟩

end Region

end Cert.KernelIdeal.RegionValue.Stats4

end
-- ==== Proof.LibFiniteScatter.lean ====
/-
  Real data through the host's indexed reads and accumulating writes, at the ideal values:

  * a gather reads entries of its operand, so a gather from an array of reals is an array of reals, whatever the
    indices;
  * an accumulating scatter adds, to every entry of its operand, the finite sum of the updates that land on that entry,
    so from an operand of reals and updates that are reals it is an array of reals, whatever the indices;
  * the zero word broadcast to any shape is the zero array;
  * hence an array of reals plus the accumulating scatter, into zeros, of rows gathered from an array of reals, is an
    array of reals — the neighbourhood sum of a graph layer.
-/
import Mathlib
import Idealize.ShloMosaic.PureOps.Ideal.Laws
import Idealize.ShloMosaic.Lib.ValueIdx
import Idealize.ShloMosaic.Lib.Pipeline.Value
import proofs.«166389_j81088982548949_1_alg».proof.Proof.LibFiniteSums

noncomputable section

open scoped BigOperators

namespace Idealize.ShloMosaic.FiniteSums

open Idealize.ShloMosaic Idealize.ShloMosaic.ValueIdx

/-- A gather from an array of reals reads reals. -/
theorem isReal_gather {s si t : Shape} {w : Nat} (d : GatherDims s si t) (x : s.Idx → EReal) (idx : IVec si w)
    (hx : ∀ i, IsReal (x i)) (j : t.Idx) : IsReal (Host.gather d x idx j) :=
  hx (d.operandIdx j idx)

/-- The accumulating scatter of real updates into an operand of reals: every entry is the operand's entry plus a finite
    sum of updates, a real. -/
theorem isReal_hostScatterAdd {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

/-- The same for the host operation as a program spells it. -/
theorem isReal_scatterAdd {s si su : Shape} {φ : FTy} {w : Nat} (d : ScatterDims s si su) (x : FVec Ideal s φ) (idx : IVec si w)
    (upd : FVec Ideal su φ) (hx : ∀ i, IsReal (x i)) (hu : ∀ j, IsReal (upd j)) (i : s.Idx) :
    IsReal (Host.scatterAdd d x idx upd i) :=
  isReal_hostScatterAdd d x idx upd hx hu i

/-- The zero word broadcast to any shape is zero at every index. -/
theorem zeros_apply {t : Shape} (h : (⟨0, ![]⟩ : Shape).BroadcastsInDim t ![]) (j : t.Idx) :
    broadcastInDim t ![] h (constant (F := Ideal) ⟨0, ![]⟩ .f32 0x00000000#32) j = 0 := by
  rw [broadcastInDim_apply _ h _ j ix0 fun ax => ax.elim0, constant_apply, Ideal.ofBits_zero_f32]

/-- The zero array is an array of reals. -/
theorem isReal_zeros {t : Shape} (h : (⟨0, ![]⟩ : Shape).BroadcastsInDim t ![]) (j : t.Idx) :
    IsReal (broadcastInDim t ![] h (constant (F := Ideal) ⟨0, ![]⟩ .f32 0x00000000#32) j) := by
  rw [zeros_apply]; exact isReal_zero

/-- An array of reals plus the accumulating scatter, into zeros, of entries gathered from an array of reals: an array
    of reals, whatever the two index arrays. -/
theorem isReal_add_scatterAdd_zeros_gather {s si su sg : Shape} {w w' : Nat} (ds : ScatterDims s si su)
    (dg : GatherDims s sg su) (h : (⟨0, ![]⟩ : Shape).BroadcastsInDim s ![]) (a x : FVec Ideal s .f32) (idx : IVec si w)
    (idx' : IVec sg w') (ha : ∀ i, IsReal (a i)) (hx : ∀ i, IsReal (x i)) (i : s.Idx) :
    IsReal (addf a (Host.scatterAdd ds (broadcastInDim s ![] h (constant (F := Ideal) ⟨0, ![]⟩ .f32 0x00000000#32)) idx
      (Host.gather dg x idx')) i) := by
  rw [addf_apply]
  exact (ha i).add (isReal_scatterAdd ds _ idx _ (isReal_zeros h) (isReal_gather dg x idx' hx) i)

end Idealize.ShloMosaic.FiniteSums

end
-- ==== Proof.DegreeLaw.lean ====
/-
  The degree-normalised neighbourhood aggregation of a graph layer keeps real data real.

  The degree of a node (its self-loop included) is the accumulating scatter of ones into zeros at the target
  indices; the targets are the edges' targets followed by `0, 1, …, N − 1` (the self-loops), so on every node at least
  one update lands and the degree is a natural number, at least one.  Hence its reciprocal square root is a positive
  real, the edge weights (products of two gathered reciprocal roots) are reals, and the aggregation -- the accumulating
  scatter, into zeros, of gathered rows scaled by the edge weights -- sends a matrix of reals to a matrix of reals.

  The general statements are over arbitrary extents and arbitrary gather / scatter records; the last section instantiates
  the degree at the records and shapes of the printed reference program.
-/
import proofs.«166389_j81088982548949_1_alg».proof.Proof.Gen.ReferenceIdeal
import proofs.«166389_j81088982548949_1_alg».proof.Proof.LibFiniteScatter

noncomputable section

open scoped BigOperators

namespace Cert.Degree

open Idealize.ShloMosaic Idealize.ShloMosaic.ValueIdx Idealize.ShloMosaic.FiniteSums

/-! ## Scattering entries into a flat array: operand `[N]`, scatter indices `[E, 1]`, updates `[E]` -/

/-- The dimension numbers for scattering entries into a flat array: no update window axis, inserted window axis `0`,
    the single component of a scatter index names operand axis `0`, the index vector on axis `1`. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `i` when its scatter index `idx[e, 0]`, read signed, is `i`. -/
theorem scatter_flat_lands {N E w : Nat} (wf : ScatterDims.WF ⟨1, ![N]⟩ ⟨2, ![E, 1]⟩ ⟨1, ![E]⟩ [] [0] [0] 1)
    (idx : IVec ⟨2, ![E, 1]⟩ w) (e : Fin E) (i : Fin N)
    (h : (idx (ix2 e ⟨0, Nat.one_pos⟩)).toInt = (i.val : Int)) :
    (flatScatterDims N E wf).resultIdx? (ix1 e) idx = some (ix1 i) := by
  have hw : (flatScatterDims N E wf).window (ix1 e) 0 = 0 := by
    unfold ScatterDims.window
    rw [dif_neg]
    simp [ScatterDims.sKept, Shape.kept, List.mem_filter]
  have hs : (flatScatterDims N E wf).start (ix1 e) idx 0 = (i.val : Int) := by
    unfold ScatterDims.start
    rw [dif_pos (show (0 : Fin 1) ∈ (flatScatterDims N E wf).scatterDimsToOperandDims from
      List.mem_singleton.mpr rfl)]
    have hsi : (flatScatterDims N E wf).siIdx (ix1 e)
        ⟨List.idxOf (0 : Fin 1) (flatScatterDims N E wf).scatterDimsToOperandDims,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]; exact h
  have hall : ∀ a, 0 ≤ (flatScatterDims N E wf).start (ix1 e) idx a + (flatScatterDims N E wf).window (ix1 e) a ∧
      (flatScatterDims N E wf).start (ix1 e) idx a + (flatScatterDims N E wf).window (ix1 e) a
        < (⟨1, ![N]⟩ : Shape).size a := by
    intro a
    obtain rfl : a = 0 := Subsingleton.elim _ _
    rw [hs, hw]
    have := i.isLt
    refine ⟨by omega, ?_⟩
    show (i.val : Int) + ((0 : Nat) : Int) < ((N : Nat) : Int)
    omega
  unfold ScatterDims.resultIdx?
  rw [dif_pos hall]
  refine congrArg some (funext fun a => Fin.ext ?_)
  obtain rfl : a = 0 := Subsingleton.elim _ _
  show ((flatScatterDims N E wf).start (ix1 e) idx 0 + (flatScatterDims N E wf).window (ix1 e) 0).toNat = i.val
  rw [hs, hw]
  simp

/-! ## The target indices read at an entry -/

/-- An `[a]` vector placed as the column of `[a, 1]` (along `[0]`) reads, at `(p, u)`, the vector at `p`. -/
theorem broadcastInDim_a_a1_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- Two flat arrays laid end to end read, at a position `E₁ + i` past the first, the second at `i`. -/
theorem concatenate_flat_right {α : Type} {E1 N T : Nat} (x₁ : (⟨1, ![E1]⟩ : Shape).Idx → α)
    (x₂ : (⟨1, ![N]⟩ : Shape).Idx → α) (h : Shape.Concatenates [⟨1, ![E1]⟩, ⟨1, ![N]⟩] (⟨1, ![T]⟩ : Shape) 0)
    (i : Fin N) (hlt : E1 + i.val < T) :
    concatenate (⟨1, ![T]⟩ : Shape) 0 [⟨⟨1, ![E1]⟩, x₁⟩, ⟨⟨1, ![N]⟩, x₂⟩] h (ix1 ⟨E1 + i.val, hlt⟩) = x₂ (ix1 i) := by
  refine concatenate_pair_apply_right (0 : Fin 1) x₁ x₂ h (ix1 ⟨E1 + i.val, hlt⟩) rfl rfl (ix1 i) ?_ ?_
  · intro b hb
    exact absurd (Subsingleton.elim _ _) hb
  · show i.val + E1 = E1 + i.val
    omega

/-- The 32-bit word of `i < 2³¹`, read signed, is `i`. -/
theorem toInt_iota {N : Nat} (hN : N ≤ 2 ^ 31) (i : Fin N) :
    (iotaInDim (⟨1, ![N]⟩ : Shape) 32 0 (ix1 i)).toInt = (i.val : Int) := by
  show (BitVec.ofNat 32 i.val).toInt = (i.val : Int)
  have hi : i.val < 2 ^ 31 := lt_of_lt_of_le i.isLt hN
  have hm : (BitVec.ofNat 32 i.val).toNat = i.val := by
    rw [BitVec.toNat_ofNat]; exact Nat.mod_eq_of_lt (by omega)
  rw [BitVec.toInt_eq_toNat_of_lt (by rw [hm]; omega), hm]

/-! ## Counting the updates that land on an entry -/

/-- The word of `1.0` broadcast to any shape is one at every index. -/
theorem ones_apply {t : Shape} (h : (⟨0, ![]⟩ : Shape).BroadcastsInDim t ![]) (j : t.Idx) :
    broadcastInDim t ![] h (constant (F := Ideal) ⟨0, ![]⟩ .f32 0x3F800000#32) j = 1 := by
  rw [broadcastInDim_apply _ h _ j ix0 fun ax => ax.elim0, constant_apply]
  simp [Ideal.ofBits, Ideal.ieee, -EReal.coe_mul]; norm_num

/-- The accumulating scatter of ones into zeros counts, at every entry, the updates that land there: a natural
    number, at least one where some update lands. -/
theorem scatterAdd_zeros_ones_ge_one {s si su : Shape} {w : Nat} (d : ScatterDims s si su)
    (hz : (⟨0, ![]⟩ : Shape).BroadcastsInDim s ![]) (h1 : (⟨0, ![]⟩ : Shape).BroadcastsInDim su ![])
    (idx : IVec si w) (i : s.Idx) (j : su.Idx) (hj : d.resultIdx? j idx = some i) :
    ∃ n : ℕ, 1 ≤ n ∧ Host.scatterAdd d (broadcastInDim s ![] hz (constant (F := Ideal) ⟨0, ![]⟩ .f32 0x00000000#32)) idx
      (broadcastInDim su ![] h1 (constant (F := Ideal) ⟨0, ![]⟩ .f32 0x3F800000#32)) i = (((n : ℕ) : ℝ) : EReal) := by
  have e : Host.scatterAdd d (broadcastInDim s ![] hz (constant (F := Ideal) ⟨0, ![]⟩ .f32 0x00000000#32)) idx
      (broadcastInDim su ![] h1 (constant (F := Ideal) ⟨0, ![]⟩ .f32 0x3F800000#32)) i
      = Ideal.hostScatterAdd d (broadcastInDim s ![] hz (constant (F := Ideal) ⟨0, ![]⟩ .f32 0x00000000#32)) idx
      (broadcastInDim su ![] h1 (constant (F := Ideal) ⟨0, ![]⟩ .f32 0x3F800000#32)) i := rfl
  rw [e]
  unfold Ideal.hostScatterAdd
  rw [zeros_apply, zero_add, Finset.sum_congr rfl (fun j _ => ones_apply h1 j)]
  have key : ∀ S : Finset su.Idx, j ∈ S → ∃ n : ℕ, 1 ≤ n ∧ (∑ _k ∈ S, (1 : EReal)) = (((n : ℕ) : ℝ) : EReal) := by
    intro S hS
    refine ⟨S.card, Finset.card_pos.2 ⟨j, hS⟩, ?_⟩
    rw [Finset.sum_const, EReal.nsmul_eq_mul, mul_one]
    rfl
  exact key _ (Finset.mem_filter.2 ⟨Finset.mem_univ _, hj⟩)

/-! ## The degree -/

/-- **The degree is a natural number, at least one.**  Scatter ones into zeros over `N` nodes at target indices that
    are any `E₁` words followed by `0, 1, …, N − 1`: update `E₁ + i` lands on node `i`, so every node's count is a
    natural number `≥ 1`. -/
theorem degree_nat_pos {N E1 T : Nat} (hN : N ≤ 2 ^ 31) (hT : E1 + N ≤ T)
    (wf : ScatterDims.WF ⟨1, ![N]⟩ ⟨2, ![T, 1]⟩ ⟨1, ![T]⟩ [] [0] [0] 1)
    (hz : (⟨0, ![]⟩ : Shape).BroadcastsInDim ⟨1, ![N]⟩ ![]) (h1 : (⟨0, ![]⟩ : Shape).BroadcastsInDim ⟨1, ![T]⟩ ![])
    (hb : (⟨1, ![T]⟩ : Shape).BroadcastsInDim ⟨2, ![T, 1]⟩ ![0])
    (hc : Shape.Concatenates [⟨1, ![E1]⟩, ⟨1, ![N]⟩] (⟨1, ![T]⟩ : Shape) 0)
    (a : IVec ⟨1, ![E1]⟩ 32) (i : (⟨1, ![N]⟩ : Shape).Idx) :
    ∃ n : ℕ, 1 ≤ n ∧ Host.scatterAdd (flatScatterDims N T wf)
      (broadcastInDim ⟨1, ![N]⟩ ![] hz (constant (F := Ideal) ⟨0, ![]⟩ .f32 0x00000000#32))
      (broadcastInDim ⟨2, ![T, 1]⟩ ![0] hb
        (concatenate (⟨1, ![T]⟩ : Shape) 0 [⟨⟨1, ![E1]⟩, a⟩, ⟨⟨1, ![N]⟩, iotaInDim (⟨1, ![N]⟩ : Shape) 32 0⟩] hc))
      (broadcastInDim ⟨1, ![T]⟩ ![] h1 (constant (F := Ideal) ⟨0, ![]⟩ .f32 0x3F800000#32)) i
        = (((n : ℕ) : ℝ) : EReal) := by
  obtain ⟨p, rfl⟩ : ∃ p : Fin N, i = ix1 p := ⟨i 0, eq_ix1 i⟩
  have hlt : E1 + p.val < T := by have := p.isLt; omega
  refine scatterAdd_zeros_ones_ge_one _ hz h1 _ (ix1 p) (ix1 ⟨E1 + p.val, hlt⟩) ?_
  refine scatter_flat_lands wf _ ⟨E1 + p.val, hlt⟩ p ?_
  rw [broadcastInDim_a_a1_apply, concatenate_flat_right _ _ hc p hlt, toInt_iota hN]

/-! ## From the degree to the aggregation -/

/-- The reciprocal square root of a natural number `≥ 1` is a positive real. -/
theorem isReal_rsqrt_of_nat_pos {x : EReal} (h : ∃ n : ℕ, 1 ≤ n ∧ x = (((n : ℕ) : ℝ) : EReal)) :
    IsReal (Ideal.rsqrt x) ∧ 0 < Ideal.rsqrt x := by
  obtain ⟨n, hn, rfl⟩ := h
  exact IsReal.rsqrt_pos (isReal_coe _) (EReal.coe_pos.2 (Nat.cast_pos.2 hn))

/-- The reciprocal square roots of an array of natural numbers `≥ 1` are reals. -/
theorem isReal_hostRsqrt {s : Shape} (x : FVec Ideal s .f32)
    (hx : ∀ i, ∃ n : ℕ, 1 ≤ n ∧ x i = (((n : ℕ) : ℝ) : EReal)) (i : s.Idx) : IsReal (Host.rsqrt x i) :=
  (isReal_rsqrt_of_nat_pos (hx i)).1

/-- A broadcast of an array of reals is an array of reals. -/
theorem isReal_broadcastInDim {s t : Shape} (dims : Fin s.rank → Fin t.rank) (h : s.BroadcastsInDim t dims)
    (x : s.Idx → EReal) (hx : ∀ k, IsReal (x k)) (j : t.Idx) : IsReal (broadcastInDim t dims h x j) := by
  unfold broadcastInDim
  exact hx _

/-- The edge weights: products of two entries gathered from an array of reals are reals, whatever the indices. -/
theorem isReal_edgeWeights {s si t : Shape} {w w' : Nat} (dg : GatherDims s si t) (dinv : FVec Ideal s .f32)
    (i1 : IVec si w) (i2 : IVec si w') (hd : ∀ i, IsReal (dinv i)) (j : t.Idx) :
    IsReal (mulf (Host.gather dg dinv i1) (Host.gather dg dinv i2) j) :=
  (isReal_gather dg dinv i1 hd j).mul (isReal_gather dg dinv i2 hd j)

/-- **The aggregation keeps reals real.**  The accumulating scatter, into zeros, of entries gathered from an array of
    reals and scaled entry by entry by an array of reals, is an array of reals, whatever the records and the two index
    arrays. -/
theorem isReal_aggregate {s si su sg : Shape} {w w' : Nat} (ds : ScatterDims s si su) (dg : GatherDims s sg su)
    (hz : (⟨0, ![]⟩ : Shape).BroadcastsInDim s ![]) (idxD : IVec si w) (idxS : IVec sg w')
    (nrmB : FVec Ideal su .f32) (hn : ∀ j, IsReal (nrmB j)) (h : FVec Ideal s .f32) (hh : ∀ i, IsReal (h i))
    (i : s.Idx) :
    IsReal (Host.scatterAdd ds (broadcastInDim s ![] hz (constant (F := Ideal) ⟨0, ![]⟩ .f32 0x00000000#32)) idxD
      (mulf (Host.gather dg h idxS) nrmB) i) :=
  isReal_scatterAdd ds _ idxD _ (isReal_zeros hz) (fun j => (isReal_gather dg h idxS hh j).mul (hn j)) i

/-! ## At the records of the printed reference program -/

section Printed

open Cert.ReferenceIdeal

variable (hz : S_.BroadcastsInDim S100000 ![]) (h1 : S_.BroadcastsInDim S1700000 ![])
  (hb : S1700000.BroadcastsInDim S1700000x1 ![0]) (hc : Shape.Concatenates [S1600000, S100000] S1700000 0)

/-- The degree as the printed program computes it (`N = 100000` nodes; `1600000` edges' target words `a` followed by
    the self-loops `0, …, N − 1`): ones scattered into zeros at those targets. -/
abbrev degP (a : IVec S1600000 32) : FVec Ideal S100000 .f32 :=
  Host.scatterAdd scatter_S100000_S1700000x1_S1700000_n_0_0_1
    (broadcastInDim S100000 ![] hz (constant (F := Ideal) S_ .f32 0x00000000#32))
    (broadcastInDim S1700000x1 ![0] hb
      (concatenate S1700000 0 [⟨S1600000, a⟩, ⟨S100000, iotaInDim S100000 32 0⟩] hc))
    (broadcastInDim S1700000 ![] h1 (constant (F := Ideal) S_ .f32 0x3F800000#32))

/-- The printed degree is a natural number `≥ 1` at every node, whatever the edges' target words. -/
theorem degree_printed (a : IVec S1600000 32) (i : S100000.Idx) :
    ∃ n : ℕ, 1 ≤ n ∧ degP hz h1 hb hc a i = (((n : ℕ) : ℝ) : EReal) :=
  degree_nat_pos (N := 100000) (E1 := 1600000) (T := 1700000) (by norm_num) (by norm_num)
    scatter_S100000_S1700000x1_S1700000_n_0_0_1.wf hz h1 hb hc a i

/-- The reciprocal square roots of the printed degree are reals. -/
theorem dinv_printed_real (a : IVec S1600000 32) (i : S100000.Idx) :
    IsReal (Host.rsqrt (degP hz h1 hb hc a) i) :=
  isReal_hostRsqrt _ (degree_printed hz h1 hb hc a) i

/-- The edge weights as the printed program computes them: the product of the reciprocal roots of the degree gathered
    at two index arrays. -/
abbrev normP (a : IVec S1600000 32) {w w' : Nat} (i1 : IVec S1700000x1 w) (i2 : IVec S1700000x1 w') :
    FVec Ideal S1700000 .f32 :=
  mulf (Host.gather gather_S100000_S1700000x1_S1700000_n_0_n_n_0_1_1 (Host.rsqrt (degP hz h1 hb hc a)) i1)
    (Host.gather gather_S100000_S1700000x1_S1700000_n_0_n_n_0_1_1 (Host.rsqrt (degP hz h1 hb hc a)) i2)

/-- The printed edge weights are reals, whatever the index arrays. -/
theorem norm_printed_real (a : IVec S1600000 32) {w w' : Nat} (i1 : IVec S1700000x1 w) (i2 : IVec S1700000x1 w')
    (j : S1700000.Idx) : IsReal (normP hz h1 hb hc a i1 i2 j) :=
  isReal_edgeWeights _ _ i1 i2 (dinv_printed_real hz h1 hb hc a) j

/-- The printed edge weights placed as a column and broadcast over `C` columns are reals. -/
theorem normB_printed_real {C : Nat} (hB : S1700000x1.BroadcastsInDim (⟨2, ![1700000, C]⟩ : Shape) ![0, 1])
    (a : IVec S1600000 32) {w w' : Nat} (i1 : IVec S1700000x1 w) (i2 : IVec S1700000x1 w')
    (j : (⟨2, ![1700000, C]⟩ : Shape).Idx) :
    IsReal (broadcastInDim (⟨2, ![1700000, C]⟩ : Shape) ![0, 1] hB
      (broadcastInDim S1700000x1 ![0] hb (normP hz h1 hb hc a i1 i2)) j) :=
  isReal_broadcastInDim _ hB _ (isReal_broadcastInDim _ hb _ (norm_printed_real hz h1 hb hc a i1 i2)) j

/-- **The printed aggregation keeps reals real**, over `C` columns and for any scatter / gather records on these shapes
    and any index arrays: rows gathered from a matrix of reals, scaled by the printed edge weights and scattered
    additively into zeros, are a matrix of reals. -/
theorem agg_printed_real {C : Nat}
    (ds : ScatterDims (⟨2, ![100000, C]⟩ : Shape) S1700000x1 (⟨2, ![1700000, C]⟩ : Shape))
    (dg : GatherDims (⟨2, ![100000, C]⟩ : Shape) S1700000x1 (⟨2, ![1700000, C]⟩ : Shape))
    (hZ : S_.BroadcastsInDim (⟨2, ![100000, C]⟩ : Shape) ![])
    (hB : S1700000x1.BroadcastsInDim (⟨2, ![1700000, C]⟩ : Shape) ![0, 1])
    (a : IVec S1600000 32) {w w' v v' : Nat} (idxD : IVec S1700000x1 v) (idxS : IVec S1700000x1 v')
    (i1 : IVec S1700000x1 w) (i2 : IVec S1700000x1 w')
    (h : FVec Ideal (⟨2, ![100000, C]⟩ : Shape) .f32) (hh : ∀ i, IsReal (h i)) (i : (⟨2, ![100000, C]⟩ : Shape).Idx) :
    IsReal (Host.scatterAdd ds
      (broadcastInDim (⟨2, ![100000, C]⟩ : Shape) ![] hZ (constant (F := Ideal) S_ .f32 0x00000000#32)) idxD
      (mulf (Host.gather dg h idxS)
        (broadcastInDim (⟨2, ![1700000, C]⟩ : Shape) ![0, 1] hB
          (broadcastInDim S1700000x1 ![0] hb (normP hz h1 hb hc a i1 i2)))) i) :=
  isReal_aggregate ds dg hZ idxD idxS _ (normB_printed_real hz h1 hb hc hB a i1 i2) h hh i

/-- The first layer's aggregation (128 columns) at the printed records. -/
theorem agg128_printed_real (hZ : S_.BroadcastsInDim S100000x128 ![])
    (hB : S1700000x1.BroadcastsInDim S1700000x128 ![0, 1])
    (a : IVec S1600000 32) {w w' v v' : Nat} (idxD : IVec S1700000x1 v) (idxS : IVec S1700000x1 v')
    (i1 : IVec S1700000x1 w) (i2 : IVec S1700000x1 w')
    (h : FVec Ideal S100000x128 .f32) (hh : ∀ i, IsReal (h i)) (i : S100000x128.Idx) :
    IsReal (Host.scatterAdd scatter_S100000x128_S1700000x1_S1700000x128_1_0_0_1
      (broadcastInDim S100000x128 ![] hZ (constant (F := Ideal) S_ .f32 0x00000000#32)) idxD
      (mulf (Host.gather gather_S100000x128_S1700000x1_S1700000x128_1_0_n_n_0_1_1128 h idxS)
        (broadcastInDim S1700000x128 ![0, 1] hB
          (broadcastInDim S1700000x1 ![0] hb (normP hz h1 hb hc a i1 i2)))) i) :=
  agg_printed_real hz h1 hb hc _ _ hZ hB a idxD idxS i1 i2 h hh i

/-- The second layer's aggregation (64 columns) at the printed records. -/
theorem agg64_printed_real (hZ : S_.BroadcastsInDim S100000x64 ![])
    (hB : S1700000x1.BroadcastsInDim S1700000x64 ![0, 1])
    (a : IVec S1600000 32) {w w' v v' : Nat} (idxD : IVec S1700000x1 v) (idxS : IVec S1700000x1 v')
    (i1 : IVec S1700000x1 w) (i2 : IVec S1700000x1 w')
    (h : FVec Ideal S100000x64 .f32) (hh : ∀ i, IsReal (h i)) (i : S100000x64.Idx) :
    IsReal (Host.scatterAdd scatter_S100000x64_S1700000x1_S1700000x64_1_0_0_1
      (broadcastInDim S100000x64 ![] hZ (constant (F := Ideal) S_ .f32 0x00000000#32)) idxD
      (mulf (Host.gather gather_S100000x64_S1700000x1_S1700000x64_1_0_n_n_0_1_164 h idxS)
        (broadcastInDim S1700000x64 ![0, 1] hB
          (broadcastInDim S1700000x1 ![0] hb (normP hz h1 hb hc a i1 i2)))) i) :=
  agg_printed_real hz h1 hb hc _ _ hZ hB a idxD idxS i1 i2 h hh i

end Printed

end Cert.Degree

end
-- ==== Proof.AggReal.lean ====
/-
  The two neighbourhood aggregations of the programs send real matrices to real matrices.

  Every node's degree counts its self loop, so it is a natural number at least one; its reciprocal square root is a
  real, the edge weights are products of two such, and the aggregation adds finitely many products of an edge weight
  with an entry of the matrix to zero.
-/
import proofs.«166389_j81088982548949_1_alg».proof.Proof.RefSpec
import proofs.«166389_j81088982548949_1_alg».proof.Proof.DegreeLaw

set_option maxRecDepth 16384

noncomputable section

namespace Cert.RefSpec

open Cert.ReferenceIdeal Cert.ReferenceIdeal.Facts₀ Cert.ReferenceIdeal.Read Cert.Spec
open Idealize.ShloMosaic Idealize.ShloMosaic.ValueIdx Idealize.ShloMosaic.FiniteSums

set_option maxHeartbeats 4000000 in
/-- The first layer's aggregation of a real matrix is real. -/
theorem agg1_real (e : Edges) (h : Mat 100000 128) (hh : ∀ i, IsReal (h i)) (i : (⟨2, ![100000, 128]⟩ : Shape).Idx) :
    IsReal (agg1 e h i) :=
  Cert.Degree.agg128_printed_real bcast_S_S100000 bcast_S_S1700000 bcast_S1700000_S1700000x1_0
    concatenates_S1600000_S100000_S1700000_d0 bcast_S_S100000x128 bcast_S1700000x1_S1700000x128_0_1
    (val_main_v5 (F := Ideal) e) (val_main_v39 (F := Ideal) e) (val_main_v33 (F := Ideal) e)
    (val_main_v17 (F := Ideal) e) (val_main_v24 (F := Ideal) e) h hh i

set_option maxHeartbeats 4000000 in
/-- The second layer's aggregation of a real matrix is real. -/
theorem agg2_real (e : Edges) (h : Mat 100000 64) (hh : ∀ i, IsReal (h i)) (i : (⟨2, ![100000, 64]⟩ : Shape).Idx) :
    IsReal (agg2 e h i) :=
  Cert.Degree.agg64_printed_real bcast_S_S100000 bcast_S_S1700000 bcast_S1700000_S1700000x1_0
    concatenates_S1600000_S100000_S1700000_d0 bcast_S_S100000x64 bcast_S1700000x1_S1700000x64_0_1
    (val_main_v5 (F := Ideal) e) (val_main_v82 (F := Ideal) e) (val_main_v76 (F := Ideal) e)
    (val_main_v17 (F := Ideal) e) (val_main_v24 (F := Ideal) e) h hh i

end Cert.RefSpec

end
-- ==== Proof.LibFiniteEntry.lean ====
import Idealize.ShloMosaic.Lib.ReduceAll
import Idealize.ShloMosaic.Lib.ValueIdx
import Idealize.ShloMosaic.PureOps.Ideal

/-!
# A finiteness test read back at one entry

A test "every entry of `x` has absolute value below +∞" is the conjunction, over all indices, of the
one-bit comparisons `|x i| < +∞`. When the conjunction is 1, every comparison is 1, and an extended real
whose absolute value is strictly below +∞ is neither +∞ nor -∞: it is a real number.
-/

noncomputable section

namespace Idealize.ShloMosaic.FiniteEntry

open Idealize.ShloMosaic Idealize.ShloMosaic.ValueIdx

/-- The f32 word `0x7F800000` denotes +∞. -/
theorem ofBits_inf : Ideal.ofBits .f32 0x7F800000#32 = (⊤ : EReal) := by
  simp [Ideal.ofBits, Ideal.ieee]

/-- An extended real `x` with `max x (-x) < +∞` (as a one-bit comparison equal to 1) is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

instance : Subsingleton (⟨0, ![]⟩ : Shape).Idx := ⟨fun a b => funext fun d => d.elim0⟩

/-- The test `all (|x| < +∞)` over an array `x` of any shape `s`: if the reduction by `and` of the
    comparisons of `|x|` against the broadcast word of +∞ is 1, then every entry of `x` is a real number. -/
theorem real_of_all_abs_lt_inf {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt_inf (x i) (Host.reduce_andi_all _ _ hr hu ix0 e i)

end Idealize.ShloMosaic.FiniteEntry
-- ==== Proof.PreReal.lean ====
/-
  From the finiteness precondition to real entries.

  The precondition is one bit: the conjunction, argument by argument, of "every entry has absolute value below +∞".
  The bit is 1, so each conjunct is 1, so every comparison in it is 1, and an extended real whose absolute value is
  strictly below +∞ is neither infinity: it is a real number.
-/
import proofs.«166389_j81088982548949_1_alg».proof.Defs
import proofs.«166389_j81088982548949_1_alg».proof.Proof.Gen.Pre_finite_inputs
import proofs.«166389_j81088982548949_1_alg».proof.Proof.Gen.KernelIdeal
import proofs.«166389_j81088982548949_1_alg».proof.Proof.LibFiniteEntry
import proofs.«166389_j81088982548949_1_alg».proof.Proof.LibFiniteSums

noncomputable section

namespace Cert.PreReal

open Idealize.ShloMosaic Idealize.ShloMosaic.ValueIdx Idealize.ShloMosaic.FiniteSums Idealize.ShloMosaic.FiniteEntry
open Idealize.SL.Sem
open Cert.Pre_finite_inputs Cert.Pre_finite_inputs.Facts

/-- The precondition's bit over any twelve arrays: when it is 1, every entry of the float arrays 0 and 2 … 9 is real. -/
theorem real_of_fn [Facts] (a0 : FVec Ideal S100000x128 .f32) (a1 : IVec S2x1600000 32) (a2 : FVec Ideal S128x128 .f32)
    (a3 a4 a5 : FVec Ideal S128 .f32) (a6 : FVec Ideal S128x64 .f32) (a7 a8 a9 : FVec Ideal S64 .f32)
    (a10 : FVec Ideal S64x2 .f32) (a11 : FVec Ideal S2 .f32)
    (h : fn (F := Ideal) a0 a1 a2 a3 a4 a5 a6 a7 a8 a9 a10 a11 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) := by
  have h0 : fn (F := Ideal) a0 a1 a2 a3 a4 a5 a6 a7 a8 a9 a10 a11 ix0 = 1#1 := congrFun h ix0
  dsimp only [fn, fn_part1, fn_part2, fn_part3] at h0
  simp only [Idealize.ShloMosaic.andi, IntOp.andi_eq_one] at h0
  obtain ⟨⟨⟨⟨⟨⟨⟨⟨⟨⟨t0, t2⟩, t3⟩, t4⟩, t5⟩, t6⟩, t7⟩, t8⟩, t9⟩, -⟩, -⟩ := h0
  exact ⟨fun i => real_of_all_abs_lt_inf a0 _ _ _ t0 i, fun i => real_of_all_abs_lt_inf a2 _ _ _ t2 i,
    fun i => real_of_all_abs_lt_inf a3 _ _ _ t3 i, fun i => real_of_all_abs_lt_inf a4 _ _ _ t4 i,
    fun i => real_of_all_abs_lt_inf a5 _ _ _ t5 i, fun i => real_of_all_abs_lt_inf a6 _ _ _ t6 i,
    fun i => real_of_all_abs_lt_inf a7 _ _ _ t7 i, fun i => real_of_all_abs_lt_inf a8 _ _ _ t8 i,
    fun i => real_of_all_abs_lt_inf a9 _ _ _ t9 i⟩

/-- Under the certificate's precondition every entry of the kernel's float arguments 0 and 2 … 9 (the features, the
    three layers' weights up to the second normalisation's parameters) is a real number, on every device. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i)) :=
  real_of_fn _ _ _ _ _ _ _ _ _ _ _ _ (h c)

end Cert.PreReal

end
-- ==== Proof.lean ====
/-
  The certificate: the three frames, the idealization's soundness, and the algebraic equivalence of the idealized
  kernel program and the idealized reference.

  Both programs compute a two-layer graph convolution with batch normalisation and a linear classifier.  The kernel
  program's result array is the network with each layer's variance taken as the mean of the squares minus the squared
  mean; the reference's is the same network with the variance as the mean of the squared deviations.  Under the
  precondition every float argument is an array of real numbers; the node degrees count at least the self loop, so the
  edge weights are real and the neighbourhood aggregation of a real matrix is real; on real columns the two variances
  agree, hence the two results are equal entry by entry.
-/
import proofs.«166389_j81088982548949_1_alg».proof.Defs
import proofs.«166389_j81088982548949_1_alg».proof.Proof.Gen.Kernel
import proofs.«166389_j81088982548949_1_alg».proof.Proof.Gen.Kernel.Skeleton
import proofs.«166389_j81088982548949_1_alg».proof.Proof.Gen.Kernel.Launch
import proofs.«166389_j81088982548949_1_alg».proof.Proof.Gen.Kernel.Points
import proofs.«166389_j81088982548949_1_alg».proof.Proof.Gen.Kernel.Frame
import proofs.«166389_j81088982548949_1_alg».proof.Proof.Gen.KernelIdeal
import proofs.«166389_j81088982548949_1_alg».proof.Proof.Gen.KernelIdeal.Skeleton
import proofs.«166389_j81088982548949_1_alg».proof.Proof.Gen.KernelIdeal.Launch
import proofs.«166389_j81088982548949_1_alg».proof.Proof.Gen.KernelIdeal.Points
import proofs.«166389_j81088982548949_1_alg».proof.Proof.Gen.KernelIdeal.Frame
import proofs.«166389_j81088982548949_1_alg».proof.Proof.Gen.ReferenceIdeal
import proofs.«166389_j81088982548949_1_alg».proof.Proof.Gen.Pre_finite_inputs
import proofs.«166389_j81088982548949_1_alg».proof.Proof.Gen.ReferenceIdeal.Run
import proofs.«166389_j81088982548949_1_alg».proof.Proof.Gen.ReferenceIdeal.Read
import proofs.«166389_j81088982548949_1_alg».proof.Proof.KRun
import proofs.«166389_j81088982548949_1_alg».proof.Proof.KChain
import proofs.«166389_j81088982548949_1_alg».proof.Proof.KAffine0
import proofs.«166389_j81088982548949_1_alg».proof.Proof.KAffine3
import proofs.«166389_j81088982548949_1_alg».proof.Proof.KAffine6
import proofs.«166389_j81088982548949_1_alg».proof.Proof.KBnRelu2
import proofs.«166389_j81088982548949_1_alg».proof.Proof.KBnRelu5
import proofs.«166389_j81088982548949_1_alg».proof.Proof.KStats1
import proofs.«166389_j81088982548949_1_alg».proof.Proof.KStats4
import proofs.«166389_j81088982548949_1_alg».proof.Proof.DegreeLaw
import proofs.«166389_j81088982548949_1_alg».proof.Proof.AggReal
import proofs.«166389_j81088982548949_1_alg».proof.Proof.PreReal
import Idealize.ShloMosaic.Adequacy
import Idealize.ShloMosaic.Init

set_option maxRecDepth 16384

noncomputable section

namespace Cert.Proof

open Idealize.ShloMosaic Idealize.SL.Sem Idealize.ShloMosaic.FiniteSums Cert.Spec Cert.RefSpec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- What each of the seven regions leaves in its output arrays. -/
theorem regionFacts : Cert.KernelIdeal.Chain.RegionFacts where
  arr0 := Cert.KernelIdeal.RegionValue.arr0
  sum1 := Cert.KernelIdeal.RegionValue.Stats1.arr1_sum
  sumsq1 := Cert.KernelIdeal.RegionValue.Stats1.arr1_sumsq
  arr2 := Cert.KernelIdeal.RegionValue.arr2
  arr3 := Cert.KernelIdeal.RegionValue.arr3
  sum4 := Cert.KernelIdeal.RegionValue.Stats4.arr4_sum
  sumsq4 := Cert.KernelIdeal.RegionValue.Stats4.arr4_sumsq
  arr5 := Cert.KernelIdeal.RegionValue.arr5
  arr6 := Cert.KernelIdeal.RegionValue.arr6

/-- The idealization rewrote nothing. -/
theorem preserves : Cert.preserves_Kernel_KernelIdeal := trivial

open Cert.KernelIdeal.Chain in
/-- The common result: the network in the reference's arrangement, of the kernel program's launch contents. -/
def netOut (m : (ℓ : Loc Cert.KernelIdeal.nD Cert.KernelIdeal.τ Cert.KernelIdeal.sig) → Buf (Elt Ideal) ℓ)
    (c : Dev Cert.KernelIdeal.nD) : Mat 100000 2 :=
  netR (agg1 (edges m c)) (agg2 (edges m c)) epsW cntW (a0 m c) (a2 m c) (row (a3 m c)) (row (a4 m c)) (row (a5 m c))
    (a6 m c) (row (a7 m c)) (row (a8 m c)) (row (a9 m c)) (a10 m c) (row (a11 m c))

open Cert.KernelIdeal.Chain in
/-- On real arguments the kernel's arrangement of the network is the reference's. -/
theorem netK_eq_netOut (m : (ℓ : Loc Cert.KernelIdeal.nD Cert.KernelIdeal.τ Cert.KernelIdeal.sig) → Buf (Elt Ideal) ℓ)
    (hpre : Cert.Pre_KernelIdeal m) (c : Dev Cert.KernelIdeal.nD) :
    netK (agg1 (edges m c)) (agg2 (edges m c)) epsW cntW (a0 m c) (a2 m c) (row (a3 m c)) (row (a4 m c)) (row (a5 m c))
      (a6 m c) (row (a7 m c)) (row (a8 m c)) (row (a9 m c)) (a10 m c) (row (a11 m c)) = netOut m c := by
  obtain ⟨r0, r2, r3, r4, r5, r6, r7, r8, r9⟩ := Cert.PreReal.real_args m hpre c
  obtain ⟨e, he, hE⟩ := ofBits_eps
  unfold netOut
  show netK _ _ (Ideal.ofBits .f32 0x3727C5AC#32) (Ideal.ofBits .f32 0x47C35000#32) _ _ _ _ _ _ _ _ _ _ _
    = netR _ _ (Ideal.ofBits .f32 0x3727C5AC#32) (Ideal.ofBits .f32 0x47C35000#32) _ _ _ _ _ _ _ _ _ _ _
  rw [hE, n_eq]
  exact netK_eq_netR (M := 100000) (by norm_num) (agg1_real (edges m c)) (agg2_real (edges m c)) e he
    r0 r2 (fun i => r3 _) (fun i => r4 _) (fun i => r5 _) r6 (fun i => r7 _) (fun i => r8 _) (fun i => r9 _)

theorem algebraic : Cert.algebraic_KernelIdeal_ReferenceIdeal := by
  intro m ρ m' ρ' hpre hagree
  refine ⟨fun c => netOut m c, ?_, ?_⟩
  · refine (θ_run Cert.KernelIdeal.defs _ _).mono (fun r h c => ⟨(h c).1.trans ?_, (h c).2⟩)
      (Cert.KernelIdeal.RunValue.run (F := Ideal) m ρ)
    exact (Cert.KernelIdeal.Chain.result_eq m ρ c regionFacts).trans (netK_eq_netOut m hpre c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v116_eq, Cert.RefSpec.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
